-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v165)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v165) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4x512x512 : Shape := ⟨4, ![16, 4, 512, 512]⟩
abbrev S16x4x8192x2x2 : Shape := ⟨5, ![16, 4, 8192, 2, 2]⟩
abbrev S_ : Shape := ⟨0, ![]⟩

class Facts : Prop where
  bcast_S_S16x4x512x512 : S_.BroadcastsInDim S16x4x512x512 (![] : Fin 0 → Fin S16x4x512x512.rank)
  reducesTo_S16x4x512x512_S_d0_1_2_3 : S16x4x512x512.ReducesTo [0, 1, 2, 3] S_
  h_S_ : 0 < S_.numel

variable [Facts]

def fn {F : FTy → Type} [FloatOps F] (main_arg0 : FVec F S16x4x512x512 .f32) (main_arg1 : IVec S16x4x8192x2x2 32) (main_arg2 : IVec S16x4x8192x2x2 32) : IVec S_ 1 :=
  let main_v0 : FVec F S16x4x512x512 .f32 := Host.absf main_arg0
  let main_cst : FVec F S_ .f32 := constant S_ .f32 0x7F800000#32
  let main_v1 : FVec F S16x4x512x512 .f32 := broadcastInDim S16x4x512x512 ![] bcast_S_S16x4x512x512 main_cst
  let main_v2 : IVec S16x4x512x512 1 := cmpf .olt main_v0 main_v1
  let main_c : IVec S_ 1 := constantI S_ 1 1#1
  let main_v3 : IVec S_ 1 := (fun x v => Host.reduce IntOp.andi x v reducesTo_S16x4x512x512_S_d0_1_2_3 h_S_) main_v2 main_c
  main_v3
-- ==== Kernel.lean ====
abbrev S16x4x512x512 : Shape := ⟨4, ![16, 4, 512, 512]⟩
abbrev S16x4x8192x2x2 : Shape := ⟨5, ![16, 4, 8192, 2, 2]⟩
abbrev S4 : Shape := ⟨1, ![4]⟩
abbrev S16 : Shape := ⟨1, ![16]⟩
abbrev S16x1x1 : Shape := ⟨3, ![16, 1, 1]⟩
abbrev S1x4x1 : Shape := ⟨3, ![1, 4, 1]⟩
abbrev S16x4x8192x1x1 : Shape := ⟨5, ![16, 4, 8192, 1, 1]⟩
abbrev S16x4x8192 : Shape := ⟨3, ![16, 4, 8192]⟩
abbrev S_ : Shape := ⟨0, ![]⟩
abbrev S16x4x8192x1 : Shape := ⟨4, ![16, 4, 8192, 1]⟩
abbrev S16x4x8192x4 : Shape := ⟨4, ![16, 4, 8192, 4]⟩
abbrev S8192 : Shape := ⟨1, ![8192]⟩
abbrev S1x8192 : Shape := ⟨2, ![1, 8192]⟩
abbrev S4x1 : Shape := ⟨2, ![4, 1]⟩
abbrev S4x8192 : Shape := ⟨2, ![4, 8192]⟩
abbrev S1x4x1x8192 : Shape := ⟨4, ![1, 4, 1, 8192]⟩
abbrev S16x4x1x8192 : Shape := ⟨4, ![16, 4, 1, 8192]⟩
abbrev S64x8192 : Shape := ⟨2, ![64, 8192]⟩
abbrev S1x1 : Shape := ⟨2, ![1, 1]⟩
abbrev S16x8192 : Shape := ⟨2, ![16, 8192]⟩
abbrev S16x1 : Shape := ⟨2, ![16, 1]⟩
abbrev S1 : Shape := ⟨1, ![1]⟩

abbrev nBuf : Space → Nat
  | .hbm => 205
  | .vmem => 14
  | .smem => 0
  | _ => 0

abbrev hbmTy0_0 (i : Nat) : BufTy := match i % 128 with
  | 0 => ⟨S16x4x512x512, .f32⟩
  | 1 => ⟨S16x4x8192x2x2, .i32⟩
  | 2 => ⟨S16x4x8192x2x2, .i32⟩
  | 3 => ⟨S4, .i32⟩
  | 4 => ⟨S4, .i32⟩
  | 5 => ⟨S16, .i32⟩
  | 6 => ⟨S16x1x1, .i32⟩
  | 7 => ⟨S4, .i32⟩
  | 8 => ⟨S1x4x1, .i32⟩
  | 9 => ⟨S16x4x8192x1x1, .i32⟩
  | 10 => ⟨S16x4x8192, .i32⟩
  | 11 => ⟨S16x4x8192x1x1, .i32⟩
  | 12 => ⟨S16x4x8192, .i32⟩
  | 13 => ⟨S_, .i32⟩
  | 14 => ⟨S16x1x1, .i32⟩
  | 15 => ⟨S16x1x1, .i1⟩
  | 16 => ⟨S_, .i32⟩
  | 17 => ⟨S16x1x1, .i32⟩
  | 18 => ⟨S16x1x1, .i32⟩
  | 19 => ⟨S16x1x1, .i32⟩
  | 20 => ⟨S_, .i32⟩
  | 21 => ⟨S1x4x1, .i32⟩
  | 22 => ⟨S1x4x1, .i1⟩
  | 23 => ⟨S_, .i32⟩
  | 24 => ⟨S1x4x1, .i32⟩
  | 25 => ⟨S1x4x1, .i32⟩
  | 26 => ⟨S1x4x1, .i32⟩
  | 27 => ⟨S_, .i32⟩
  | 28 => ⟨S16x4x8192, .i32⟩
  | 29 => ⟨S16x4x8192, .i1⟩
  | 30 => ⟨S_, .i32⟩
  | 31 => ⟨S16x4x8192, .i32⟩
  | 32 => ⟨S16x4x8192, .i32⟩
  | 33 => ⟨S16x4x8192, .i32⟩
  | 34 => ⟨S_, .i32⟩
  | 35 => ⟨S16x4x8192, .i32⟩
  | 36 => ⟨S16x4x8192, .i1⟩
  | 37 => ⟨S_, .i32⟩
  | 38 => ⟨S16x4x8192, .i32⟩
  | 39 => ⟨S16x4x8192, .i32⟩
  | 40 => ⟨S16x4x8192, .i32⟩
  | 41 => ⟨S16x4x8192, .i32⟩
  | 42 => ⟨S16x4x8192, .i32⟩
  | 43 => ⟨S16x4x8192x1, .i32⟩
  | 44 => ⟨S16x4x8192x1, .i32⟩
  | 45 => ⟨S16x4x8192x1, .i32⟩
  | 46 => ⟨S16x4x8192x1, .i32⟩
  | 47 => ⟨S16x4x8192x4, .i32⟩
  | 48 => ⟨S16x4x8192, .f32⟩
  | 49 => ⟨S16x4x8192x1x1, .i32⟩
  | 50 => ⟨S16x4x8192, .i32⟩
  | 51 => ⟨S16x4x8192x1x1, .i32⟩
  | 52 => ⟨S16x4x8192, .i32⟩
  | 53 => ⟨S_, .i32⟩
  | 54 => ⟨S16x1x1, .i32⟩
  | 55 => ⟨S16x1x1, .i1⟩
  | 56 => ⟨S_, .i32⟩
  | 57 => ⟨S16x1x1, .i32⟩
  | 58 => ⟨S16x1x1, .i32⟩
  | 59 => ⟨S16x1x1, .i32⟩
  | 60 => ⟨S_, .i32⟩
  | 61 => ⟨S1x4x1, .i32⟩
  | 62 => ⟨S1x4x1, .i1⟩
  | 63 => ⟨S_, .i32⟩
  | 64 => ⟨S1x4x1, .i32⟩
  | 65 => ⟨S1x4x1, .i32⟩
  | 66 => ⟨S1x4x1, .i32⟩
  | 67 => ⟨S_, .i32⟩
  | 68 => ⟨S16x4x8192, .i32⟩
  | 69 => ⟨S16x4x8192, .i1⟩
  | 70 => ⟨S_, .i32⟩
  | 71 => ⟨S16x4x8192, .i32⟩
  | 72 => ⟨S16x4x8192, .i32⟩
  | 73 => ⟨S16x4x8192, .i32⟩
  | 74 => ⟨S_, .i32⟩
  | 75 => ⟨S16x4x8192, .i32⟩
  | 76 => ⟨S16x4x8192, .i1⟩
  | 77 => ⟨S_, .i32⟩
  | 78 => ⟨S16x4x8192, .i32⟩
  | 79 => ⟨S16x4x8192, .i32⟩
  | 80 => ⟨S16x4x8192, .i32⟩
  | 81 => ⟨S16x4x8192, .i32⟩
  | 82 => ⟨S16x4x8192, .i32⟩
  | 83 => ⟨S16x4x8192x1, .i32⟩
  | 84 => ⟨S16x4x8192x1, .i32⟩
  | 85 => ⟨S16x4x8192x1, .i32⟩
  | 86 => ⟨S16x4x8192x1, .i32⟩
  | 87 => ⟨S16x4x8192x4, .i32⟩
  | 88 => ⟨S16x4x8192, .f32⟩
  | 89 => ⟨S16, .i32⟩
  | 90 => ⟨S16x1x1, .i32⟩
  | 91 => ⟨S4, .i32⟩
  | 92 => ⟨S1x4x1, .i32⟩
  | 93 => ⟨S16x4x8192x1x1, .i32⟩
  | 94 => ⟨S16x4x8192, .i32⟩
  | 95 => ⟨S16x4x8192x1x1, .i32⟩
  | 96 => ⟨S16x4x8192, .i32⟩
  | 97 => ⟨S_, .i32⟩
  | 98 => ⟨S16x1x1, .i32⟩
  | 99 => ⟨S16x1x1, .i1⟩
  | 100 => ⟨S_, .i32⟩
  | 101 => ⟨S16x1x1, .i32⟩
  | 102 => ⟨S16x1x1, .i32⟩
  | 103 => ⟨S16x1x1, .i32⟩
  | 104 => ⟨S_, .i32⟩
  | 105 => ⟨S1x4x1, .i32⟩
  | 106 => ⟨S1x4x1, .i1⟩
  | 107 => ⟨S_, .i32⟩
  | 108 => ⟨S1x4x1, .i32⟩
  | 109 => ⟨S1x4x1, .i32⟩
  | 110 => ⟨S1x4x1, .i32⟩
  | 111 => ⟨S_, .i32⟩
  | 112 => ⟨S16x4x8192, .i32⟩
  | 113 => ⟨S16x4x8192, .i1⟩
  | 114 => ⟨S_, .i32⟩
  | 115 => ⟨S16x4x8192, .i32⟩
  | 116 => ⟨S16x4x8192, .i32⟩
  | 117 => ⟨S16x4x8192, .i32⟩
  | 118 => ⟨S_, .i32⟩
  | 119 => ⟨S16x4x8192, .i32⟩
  | 120 => ⟨S16x4x8192, .i1⟩
  | 121 => ⟨S_, .i32⟩
  | 122 => ⟨S16x4x8192, .i32⟩
  | 123 => ⟨S16x4x8192, .i32⟩
  | 124 => ⟨S16x4x8192, .i32⟩
  | 125 => ⟨S16x4x8192, .i32⟩
  | 126 => ⟨S16x4x8192, .i32⟩
  | 127 => ⟨S16x4x8192x1, .i32⟩
  | _ => ⟨S16x4x512x512, .f32⟩

abbrev hbmTy0_1 (i : Nat) : BufTy := match i % 128 with
  | 0 => ⟨S16x4x8192x1, .i32⟩
  | 1 => ⟨S16x4x8192x1, .i32⟩
  | 2 => ⟨S16x4x8192x1, .i32⟩
  | 3 => ⟨S16x4x8192x4, .i32⟩
  | 4 => ⟨S16x4x8192, .f32⟩
  | 5 => ⟨S16x4x8192x1x1, .i32⟩
  | 6 => ⟨S16x4x8192, .i32⟩
  | 7 => ⟨S16x4x8192x1x1, .i32⟩
  | 8 => ⟨S16x4x8192, .i32⟩
  | 9 => ⟨S_, .i32⟩
  | 10 => ⟨S16x1x1, .i32⟩
  | 11 => ⟨S16x1x1, .i1⟩
  | 12 => ⟨S_, .i32⟩
  | 13 => ⟨S16x1x1, .i32⟩
  | 14 => ⟨S16x1x1, .i32⟩
  | 15 => ⟨S16x1x1, .i32⟩
  | 16 => ⟨S_, .i32⟩
  | 17 => ⟨S1x4x1, .i32⟩
  | 18 => ⟨S1x4x1, .i1⟩
  | 19 => ⟨S_, .i32⟩
  | 20 => ⟨S1x4x1, .i32⟩
  | 21 => ⟨S1x4x1, .i32⟩
  | 22 => ⟨S1x4x1, .i32⟩
  | 23 => ⟨S_, .i32⟩
  | 24 => ⟨S16x4x8192, .i32⟩
  | 25 => ⟨S16x4x8192, .i1⟩
  | 26 => ⟨S_, .i32⟩
  | 27 => ⟨S16x4x8192, .i32⟩
  | 28 => ⟨S16x4x8192, .i32⟩
  | 29 => ⟨S16x4x8192, .i32⟩
  | 30 => ⟨S_, .i32⟩
  | 31 => ⟨S16x4x8192, .i32⟩
  | 32 => ⟨S16x4x8192, .i1⟩
  | 33 => ⟨S_, .i32⟩
  | 34 => ⟨S16x4x8192, .i32⟩
  | 35 => ⟨S16x4x8192, .i32⟩
  | 36 => ⟨S16x4x8192, .i32⟩
  | 37 => ⟨S16x4x8192, .i32⟩
  | 38 => ⟨S16x4x8192, .i32⟩
  | 39 => ⟨S16x4x8192x1, .i32⟩
  | 40 => ⟨S16x4x8192x1, .i32⟩
  | 41 => ⟨S16x4x8192x1, .i32⟩
  | 42 => ⟨S16x4x8192x1, .i32⟩
  | 43 => ⟨S16x4x8192x4, .i32⟩
  | 44 => ⟨S16x4x8192, .f32⟩
  | 45 => ⟨S8192, .i32⟩
  | 46 => ⟨S1x8192, .i32⟩
  | 47 => ⟨S_, .i32⟩
  | 48 => ⟨S4, .i32⟩
  | 49 => ⟨S4, .i32⟩
  | 50 => ⟨S4x1, .i32⟩
  | 51 => ⟨S4x8192, .i32⟩
  | 52 => ⟨S4x8192, .i32⟩
  | 53 => ⟨S4x8192, .i1⟩
  | 54 => ⟨S4x8192, .f32⟩
  | 55 => ⟨S8192, .i32⟩
  | 56 => ⟨S1x8192, .i32⟩
  | 57 => ⟨S_, .i32⟩
  | 58 => ⟨S4, .i32⟩
  | 59 => ⟨S4, .i32⟩
  | 60 => ⟨S4x1, .i32⟩
  | 61 => ⟨S4x8192, .i32⟩
  | 62 => ⟨S4x8192, .i32⟩
  | 63 => ⟨S4x8192, .i1⟩
  | 64 => ⟨S4x8192, .f32⟩
  | 65 => ⟨S1x4x1x8192, .f32⟩
  | 66 => ⟨S16x4x1x8192, .f32⟩
  | 67 => ⟨S64x8192, .f32⟩
  | 68 => ⟨S1x4x1x8192, .f32⟩
  | 69 => ⟨S16x4x1x8192, .f32⟩
  | 70 => ⟨S64x8192, .f32⟩
  | 71 => ⟨S64x8192, .f32⟩
  | 72 => ⟨S64x8192, .f32⟩
  | 73 => ⟨S64x8192, .f32⟩
  | 74 => ⟨S64x8192, .f32⟩
  | 75 => ⟨S1x1, .f32⟩
  | 76 => ⟨S_, .f32⟩
  | _ => ⟨S16x4x512x512, .f32⟩

abbrev hbmTy (i : Nat) : BufTy := match i / 128 with
  | 0 => hbmTy0_0 i
  | 1 => hbmTy0_1 i
  | _ => ⟨S16x4x512x512, .f32⟩

abbrev bufTy : (tb : Table) → Fin (tcTables nBuf tb) → BufTy
  | .hbm, ⟨i, _⟩ => hbmTy i
  | .local _ .vmem, ⟨0, _⟩ => ⟨S16x8192, .f32⟩
  | .local _ .vmem, ⟨1, _⟩ => ⟨S16x8192, .f32⟩
  | .local _ .vmem, ⟨2, _⟩ => ⟨S16x8192, .f32⟩
  | .local _ .vmem, ⟨3, _⟩ => ⟨S16x8192, .f32⟩
  | .local _ .vmem, ⟨4, _⟩ => ⟨S16x8192, .f32⟩
  | .local _ .vmem, ⟨5, _⟩ => ⟨S16x8192, .f32⟩
  | .local _ .vmem, ⟨6, _⟩ => ⟨S16x8192, .f32⟩
  | .local _ .vmem, ⟨7, _⟩ => ⟨S16x8192, .f32⟩
  | .local _ .vmem, ⟨8, _⟩ => ⟨S16x8192, .f32⟩
  | .local _ .vmem, ⟨9, _⟩ => ⟨S16x8192, .f32⟩
  | .local _ .vmem, ⟨10, _⟩ => ⟨S16x8192, .f32⟩
  | .local _ .vmem, ⟨11, _⟩ => ⟨S16x8192, .f32⟩
  | .local _ .vmem, ⟨12, _⟩ => ⟨S1x1, .f32⟩
  | .local _ .vmem, ⟨13, _⟩ => ⟨S1x1, .f32⟩
  | _, _ => ⟨S16x4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_c_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_5 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_7 : Ref sig .tc := ⟨.hbm, 34, rfl⟩
abbrev main_v23 : Ref sig .tc := ⟨.hbm, 35, rfl⟩
abbrev main_v24 : Ref sig .tc := ⟨.hbm, 36, rfl⟩
abbrev main_c_8 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_9 : Ref sig .tc := ⟨.hbm, 53, rfl⟩
abbrev main_v40 : Ref sig .tc := ⟨.hbm, 54, rfl⟩
abbrev main_v41 : Ref sig .tc := ⟨.hbm, 55, rfl⟩
abbrev main_c_10 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_11 : Ref sig .tc := ⟨.hbm, 60, rfl⟩
abbrev main_v45 : Ref sig .tc := ⟨.hbm, 61, rfl⟩
abbrev main_v46 : Ref sig .tc := ⟨.hbm, 62, rfl⟩
abbrev main_c_12 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_13 : Ref sig .tc := ⟨.hbm, 67, rfl⟩
abbrev main_v50 : Ref sig .tc := ⟨.hbm, 68, rfl⟩
abbrev main_v51 : Ref sig .tc := ⟨.hbm, 69, rfl⟩
abbrev main_c_14 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_15 : Ref sig .tc := ⟨.hbm, 74, rfl⟩
abbrev main_v55 : Ref sig .tc := ⟨.hbm, 75, rfl⟩
abbrev main_v56 : Ref sig .tc := ⟨.hbm, 76, rfl⟩
abbrev main_c_16 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_c_17 : Ref sig .tc := ⟨.hbm, 97, rfl⟩
abbrev main_v76 : Ref sig .tc := ⟨.hbm, 98, rfl⟩
abbrev main_v77 : Ref sig .tc := ⟨.hbm, 99, rfl⟩
abbrev main_c_18 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_c_19 : Ref sig .tc := ⟨.hbm, 104, rfl⟩
abbrev main_v81 : Ref sig .tc := ⟨.hbm, 105, rfl⟩
abbrev main_v82 : Ref sig .tc := ⟨.hbm, 106, rfl⟩
abbrev main_c_20 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_c_21 : Ref sig .tc := ⟨.hbm, 111, rfl⟩
abbrev main_v86 : Ref sig .tc := ⟨.hbm, 112, rfl⟩
abbrev main_v87 : Ref sig .tc := ⟨.hbm, 113, rfl⟩
abbrev main_c_22 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_c_23 : Ref sig .tc := ⟨.hbm, 118, rfl⟩
abbrev main_v91 : Ref sig .tc := ⟨.hbm, 119, rfl⟩
abbrev main_v92 : Ref sig .tc := ⟨.hbm, 120, rfl⟩
abbrev main_c_24 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_c_25 : Ref sig .tc := ⟨.hbm, 137, rfl⟩
abbrev main_v108 : Ref sig .tc := ⟨.hbm, 138, rfl⟩
abbrev main_v109 : Ref sig .tc := ⟨.hbm, 139, rfl⟩
abbrev main_c_26 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_c_27 : Ref sig .tc := ⟨.hbm, 144, rfl⟩
abbrev main_v113 : Ref sig .tc := ⟨.hbm, 145, rfl⟩
abbrev main_v114 : Ref sig .tc := ⟨.hbm, 146, rfl⟩
abbrev main_c_28 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_c_29 : Ref sig .tc := ⟨.hbm, 151, rfl⟩
abbrev main_v118 : Ref sig .tc := ⟨.hbm, 152, rfl⟩
abbrev main_v119 : Ref sig .tc := ⟨.hbm, 153, rfl⟩
abbrev main_c_30 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_c_31 : Ref sig .tc := ⟨.hbm, 158, rfl⟩
abbrev main_v123 : Ref sig .tc := ⟨.hbm, 159, rfl⟩
abbrev main_v124 : Ref sig .tc := ⟨.hbm, 160, rfl⟩
abbrev main_c_32 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_c_33 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_c_34 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v45 : BitVec 1 := Scalar.cmpi .eq arg0 c3_i32
  let v46 : BitVec 32 := Scalar.extui v45
  let c0_i32_23 : BitVec 32 := 0#32
  let v47 : BitVec 1 := Scalar.cmpi .ne v46 c0_i32_23
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  bcast_S16_S16x1x1_0 : S16.BroadcastsInDim S16x1x1 (![0] : Fin 1 → Fin S16x1x1.rank)
  bcast_S4_S1x4x1_1 : S4.BroadcastsInDim S1x4x1 (![1] : Fin 1 → Fin S1x4x1.rank)
  slices_S16x4x8192x2x2_S16x4x8192x1x1_0_0_0_0_0 : S16x4x8192x2x2.Slices ![0, 0, 0, 0, 0] S16x4x8192x1x1
  shapeCasts_S16x4x8192x1x1_S16x4x8192 : S16x4x8192x1x1.ShapeCasts S16x4x8192
  slices_S16x4x8192x2x2_S16x4x8192x1x1_0_0_0_0_1 : S16x4x8192x2x2.Slices ![0, 0, 0, 0, 1] S16x4x8192x1x1
  bcast_S_S16x1x1 : S_.BroadcastsInDim S16x1x1 (![] : Fin 0 → Fin S16x1x1.rank)
  bcast_S_S1x4x1 : S_.BroadcastsInDim S1x4x1 (![] : Fin 0 → Fin S1x4x1.rank)
  bcast_S_S16x4x8192 : S_.BroadcastsInDim S16x4x8192 (![] : Fin 0 → Fin S16x4x8192.rank)
  bcast_S16x1x1_S16x4x8192_0_1_2 : S16x1x1.BroadcastsInDim S16x4x8192 (![0, 1, 2] : Fin 3 → Fin S16x4x8192.rank)
  bcast_S1x4x1_S16x4x8192_0_1_2 : S1x4x1.BroadcastsInDim S16x4x8192 (![0, 1, 2] : Fin 3 → Fin S16x4x8192.rank)
  bcast_S16x4x8192_S16x4x8192x1_0_1_2 : S16x4x8192.BroadcastsInDim S16x4x8192x1 (![0, 1, 2] : Fin 3 → Fin S16x4x8192x1.rank)
  concatenates_S16x4x8192x1_S16x4x8192x1_S16x4x8192x1_S16x4x8192x1_S16x4x8192x4_d3 : Shape.Concatenates [S16x4x8192x1, S16x4x8192x1, S16x4x8192x1, S16x4x8192x1] S16x4x8192x4 3
  slices_S16x4x8192x2x2_S16x4x8192x1x1_0_0_0_1_0 : S16x4x8192x2x2.Slices ![0, 0, 0, 1, 0] S16x4x8192x1x1
  slices_S16x4x8192x2x2_S16x4x8192x1x1_0_0_0_1_1 : S16x4x8192x2x2.Slices ![0, 0, 0, 1, 1] S16x4x8192x1x1
  bcast_S8192_S1x8192_1 : S8192.BroadcastsInDim S1x8192 (![1] : Fin 1 → Fin S1x8192.rank)
  bcast_S_S4 : S_.BroadcastsInDim S4 (![] : Fin 0 → Fin S4.rank)
  bcast_S4_S4x1_0 : S4.BroadcastsInDim S4x1 (![0] : Fin 1 → Fin S4x1.rank)
  bcast_S1x8192_S4x8192_0_1 : S1x8192.BroadcastsInDim S4x8192 (![0, 1] : Fin 2 → Fin S4x8192.rank)
  bcast_S4x1_S4x8192_0_1 : S4x1.BroadcastsInDim S4x8192 (![0, 1] : Fin 2 → Fin S4x8192.rank)
  shapeCasts_S4x8192_S1x4x1x8192 : S4x8192.ShapeCasts S1x4x1x8192
  bcast_S1x4x1x8192_S16x4x1x8192_0_1_2_3 : S1x4x1x8192.BroadcastsInDim S16x4x1x8192 (![0, 1, 2, 3] : Fin 4 → Fin S16x4x1x8192.rank)
  shapeCasts_S16x4x1x8192_S64x8192 : S16x4x1x8192.ShapeCasts S64x8192
  shapeCasts_S16x4x8192_S64x8192 : S16x4x8192.ShapeCasts S64x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S16x8192_S16x8192_0_0 : ∀ a, (![0, 0] : Fin 2 → Nat) a + S16x8192.size a ≤ S16x8192.size a
  h_S16x8192 : 0 < S16x8192.numel
  shapeCasts_S16x8192_S16x8192 : S16x8192.ShapeCasts S16x8192
  reduces_S16x8192_S16 : S16x8192.Reduces [1] S16
  shapeCasts_S16_S16x1 : S16.ShapeCasts S16x1
  reduces_S16x1_S1 : S16x1.Reduces [0] S1
  shapeCasts_S1_S1x1 : S1.ShapeCasts S1x1
  shapeCasts_S1x1_S_ : S1x1.ShapeCasts S_
  gather_S16x4x512x512_S16x4x8192x4_S16x4x8192_n_0123_n_n_0123_3_1111_wf : GatherDims.WF S16x4x512x512 S16x4x8192x4 S16x4x8192 [] [0, 1, 2, 3] [] [0, 1, 2, 3] [] 3 ![1, 1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x8192.size a ≤ S64x8192.size a
  hwx0_0 : ∀ i : grid0.Coords, EltTy.bits .f32 = 32 ∨ (Rect.block (s := S64x8192) S16x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x8192.size a ≤ S64x8192.size a
  hwx0_1 : ∀ i : grid0.Coords, EltTy.bits .f32 = 32 ∨ (Rect.block (s := S64x8192) S16x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x8192.size a ≤ S64x8192.size a
  hwx0_2 : ∀ i : grid0.Coords, EltTy.bits .f32 = 32 ∨ (Rect.block (s := S64x8192) S16x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x8192.size a ≤ S64x8192.size a
  hwx0_3 : ∀ i : grid0.Coords, EltTy.bits .f32 = 32 ∨ (Rect.block (s := S64x8192) S16x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x8192.size a ≤ S64x8192.size a
  hwx0_4 : ∀ i : grid0.Coords, EltTy.bits .f32 = 32 ∨ (Rect.block (s := S64x8192) S16x8192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x8192.size a ≤ S64x8192.size a
  hwx0_5 : ∀ i : grid0.Coords, EltTy.bits .f32 = 32 ∨ (Rect.block (s := S64x8192) S16x8192.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

def gather_S16x4x512x512_S16x4x8192x4_S16x4x8192_n_0123_n_n_0123_3_1111 : GatherDims S16x4x512x512 S16x4x8192x4 S16x4x8192 where
  offsetDims := []
  collapsedSliceDims := [0, 1, 2, 3]
  operandBatchingDims := []
  startIndicesBatchingDims := []
  startIndexMap := [0, 1, 2, 3]
  indexVectorDim := 3
  sliceSizes := ![1, 1, 1, 1]
  wf := gather_S16x4x512x512_S16x4x8192x4_S16x4x8192_n_0123_n_n_0123_3_1111_wf

abbrev win0_0 : Pipeline.Window sig grid0 :=
  Pipeline.Window.ofSpec (Memref.whole main_v160) S16x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v161) S16x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v156) S16x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v162) S16x8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v163) S16x8192.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v159) S16x8192.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v164) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S16x4x512x512 : Shape := ⟨4, ![16, 4, 512, 512]⟩
abbrev S16x4x8192x2x2 : Shape := ⟨5, ![16, 4, 8192, 2, 2]⟩
abbrev S4 : Shape := ⟨1, ![4]⟩
abbrev S16 : Shape := ⟨1, ![16]⟩
abbrev S16x1x1 : Shape := ⟨3, ![16, 1, 1]⟩
abbrev S1x4x1 : Shape := ⟨3, ![1, 4, 1]⟩
abbrev S16x4x8192x1x1 : Shape := ⟨5, ![16, 4, 8192, 1, 1]⟩
abbrev S16x4x8192 : Shape := ⟨3, ![16, 4, 8192]⟩
abbrev S_ : Shape := ⟨0, ![]⟩
abbrev S16x4x8192x1 : Shape := ⟨4, ![16, 4, 8192, 1]⟩
abbrev S16x4x8192x4 : Shape := ⟨4, ![16, 4, 8192, 4]⟩
abbrev S8192 : Shape := ⟨1, ![8192]⟩
abbrev S1x1x8192 : Shape := ⟨3, ![1, 1, 8192]⟩
abbrev S1x4x8192 : Shape := ⟨3, ![1, 4, 8192]⟩

abbrev nBuf : Space → Nat
  | .hbm => 210
  | .vmem => 0
  | .smem => 0
  | _ => 0

abbrev hbmTy0_0 (i : Nat) : BufTy := match i % 128 with
  | 0 => ⟨S16x4x512x512, .f32⟩
  | 1 => ⟨S16x4x8192x2x2, .i32⟩
  | 2 => ⟨S16x4x8192x2x2, .i32⟩
  | 3 => ⟨S4, .i32⟩
  | 4 => ⟨S4, .i32⟩
  | 5 => ⟨S16, .i32⟩
  | 6 => ⟨S16x1x1, .i32⟩
  | 7 => ⟨S4, .i32⟩
  | 8 => ⟨S1x4x1, .i32⟩
  | 9 => ⟨S16x4x8192x1x1, .i32⟩
  | 10 => ⟨S16x4x8192, .i32⟩
  | 11 => ⟨S16x4x8192x1x1, .i32⟩
  | 12 => ⟨S16x4x8192, .i32⟩
  | 13 => ⟨S_, .i32⟩
  | 14 => ⟨S16x1x1, .i32⟩
  | 15 => ⟨S16x1x1, .i1⟩
  | 16 => ⟨S_, .i32⟩
  | 17 => ⟨S16x1x1, .i32⟩
  | 18 => ⟨S16x1x1, .i32⟩
  | 19 => ⟨S16x1x1, .i32⟩
  | 20 => ⟨S_, .i32⟩
  | 21 => ⟨S1x4x1, .i32⟩
  | 22 => ⟨S1x4x1, .i1⟩
  | 23 => ⟨S_, .i32⟩
  | 24 => ⟨S1x4x1, .i32⟩
  | 25 => ⟨S1x4x1, .i32⟩
  | 26 => ⟨S1x4x1, .i32⟩
  | 27 => ⟨S_, .i32⟩
  | 28 => ⟨S16x4x8192, .i32⟩
  | 29 => ⟨S16x4x8192, .i1⟩
  | 30 => ⟨S_, .i32⟩
  | 31 => ⟨S16x4x8192, .i32⟩
  | 32 => ⟨S16x4x8192, .i32⟩
  | 33 => ⟨S16x4x8192, .i32⟩
  | 34 => ⟨S_, .i32⟩
  | 35 => ⟨S16x4x8192, .i32⟩
  | 36 => ⟨S16x4x8192, .i1⟩
  | 37 => ⟨S_, .i32⟩
  | 38 => ⟨S16x4x8192, .i32⟩
  | 39 => ⟨S16x4x8192, .i32⟩
  | 40 => ⟨S16x4x8192, .i32⟩
  | 41 => ⟨S16x4x8192, .i32⟩
  | 42 => ⟨S16x4x8192, .i32⟩
  | 43 => ⟨S16x4x8192x1, .i32⟩
  | 44 => ⟨S16x4x8192x1, .i32⟩
  | 45 => ⟨S16x4x8192x1, .i32⟩
  | 46 => ⟨S16x4x8192x1, .i32⟩
  | 47 => ⟨S16x4x8192x4, .i32⟩
  | 48 => ⟨S16x4x8192, .f32⟩
  | 49 => ⟨S16x4x8192x1x1, .i32⟩
  | 50 => ⟨S16x4x8192, .i32⟩
  | 51 => ⟨S16x4x8192x1x1, .i32⟩
  | 52 => ⟨S16x4x8192, .i32⟩
  | 53 => ⟨S_, .i32⟩
  | 54 => ⟨S16x1x1, .i32⟩
  | 55 => ⟨S16x1x1, .i1⟩
  | 56 => ⟨S_, .i32⟩
  | 57 => ⟨S16x1x1, .i32⟩
  | 58 => ⟨S16x1x1, .i32⟩
  | 59 => ⟨S16x1x1, .i32⟩
  | 60 => ⟨S_, .i32⟩
  | 61 => ⟨S1x4x1, .i32⟩
  | 62 => ⟨S1x4x1, .i1⟩
  | 63 => ⟨S_, .i32⟩
  | 64 => ⟨S1x4x1, .i32⟩
  | 65 => ⟨S1x4x1, .i32⟩
  | 66 => ⟨S1x4x1, .i32⟩
  | 67 => ⟨S_, .i32⟩
  | 68 => ⟨S16x4x8192, .i32⟩
  | 69 => ⟨S16x4x8192, .i1⟩
  | 70 => ⟨S_, .i32⟩
  | 71 => ⟨S16x4x8192, .i32⟩
  | 72 => ⟨S16x4x8192, .i32⟩
  | 73 => ⟨S16x4x8192, .i32⟩
  | 74 => ⟨S_, .i32⟩
  | 75 => ⟨S16x4x8192, .i32⟩
  | 76 => ⟨S16x4x8192, .i1⟩
  | 77 => ⟨S_, .i32⟩
  | 78 => ⟨S16x4x8192, .i32⟩
  | 79 => ⟨S16x4x8192, .i32⟩
  | 80 => ⟨S16x4x8192, .i32⟩
  | 81 => ⟨S16x4x8192, .i32⟩
  | 82 => ⟨S16x4x8192, .i32⟩
  | 83 => ⟨S16x4x8192x1, .i32⟩
  | 84 => ⟨S16x4x8192x1, .i32⟩
  | 85 => ⟨S16x4x8192x1, .i32⟩
  | 86 => ⟨S16x4x8192x1, .i32⟩
  | 87 => ⟨S16x4x8192x4, .i32⟩
  | 88 => ⟨S16x4x8192, .f32⟩
  | 89 => ⟨S16x4x8192, .f32⟩
  | 90 => ⟨S16x4x8192, .f32⟩
  | 91 => ⟨S8192, .i32⟩
  | 92 => ⟨S1x1x8192, .i32⟩
  | 93 => ⟨S_, .i32⟩
  | 94 => ⟨S4, .i32⟩
  | 95 => ⟨S4, .i32⟩
  | 96 => ⟨S1x4x1, .i32⟩
  | 97 => ⟨S1x4x8192, .i32⟩
  | 98 => ⟨S1x4x8192, .i32⟩
  | 99 => ⟨S1x4x8192, .i1⟩
  | 100 => ⟨S_, .f32⟩
  | 101 => ⟨S16x4x8192, .f32⟩
  | 102 => ⟨S16x4x8192, .f32⟩
  | 103 => ⟨S16x4x8192, .i1⟩
  | 104 => ⟨S16x4x8192, .f32⟩
  | 105 => ⟨S_, .f32⟩
  | 106 => ⟨S_, .f32⟩
  | 107 => ⟨S16, .i32⟩
  | 108 => ⟨S16x1x1, .i32⟩
  | 109 => ⟨S4, .i32⟩
  | 110 => ⟨S1x4x1, .i32⟩
  | 111 => ⟨S16x4x8192x1x1, .i32⟩
  | 112 => ⟨S16x4x8192, .i32⟩
  | 113 => ⟨S16x4x8192x1x1, .i32⟩
  | 114 => ⟨S16x4x8192, .i32⟩
  | 115 => ⟨S_, .i32⟩
  | 116 => ⟨S16x1x1, .i32⟩
  | 117 => ⟨S16x1x1, .i1⟩
  | 118 => ⟨S_, .i32⟩
  | 119 => ⟨S16x1x1, .i32⟩
  | 120 => ⟨S16x1x1, .i32⟩
  | 121 => ⟨S16x1x1, .i32⟩
  | 122 => ⟨S_, .i32⟩
  | 123 => ⟨S1x4x1, .i32⟩
  | 124 => ⟨S1x4x1, .i1⟩
  | 125 => ⟨S_, .i32⟩
  | 126 => ⟨S1x4x1, .i32⟩
  | 127 => ⟨S1x4x1, .i32⟩
  | _ => ⟨S16x4x512x512, .f32⟩

abbrev hbmTy0_1 (i : Nat) : BufTy := match i % 128 with
  | 0 => ⟨S1x4x1, .i32⟩
  | 1 => ⟨S_, .i32⟩
  | 2 => ⟨S16x4x8192, .i32⟩
  | 3 => ⟨S16x4x8192, .i1⟩
  | 4 => ⟨S_, .i32⟩
  | 5 => ⟨S16x4x8192, .i32⟩
  | 6 => ⟨S16x4x8192, .i32⟩
  | 7 => ⟨S16x4x8192, .i32⟩
  | 8 => ⟨S_, .i32⟩
  | 9 => ⟨S16x4x8192, .i32⟩
  | 10 => ⟨S16x4x8192, .i1⟩
  | 11 => ⟨S_, .i32⟩
  | 12 => ⟨S16x4x8192, .i32⟩
  | 13 => ⟨S16x4x8192, .i32⟩
  | 14 => ⟨S16x4x8192, .i32⟩
  | 15 => ⟨S16x4x8192, .i32⟩
  | 16 => ⟨S16x4x8192, .i32⟩
  | 17 => ⟨S16x4x8192x1, .i32⟩
  | 18 => ⟨S16x4x8192x1, .i32⟩
  | 19 => ⟨S16x4x8192x1, .i32⟩
  | 20 => ⟨S16x4x8192x1, .i32⟩
  | 21 => ⟨S16x4x8192x4, .i32⟩
  | 22 => ⟨S16x4x8192, .f32⟩
  | 23 => ⟨S16x4x8192x1x1, .i32⟩
  | 24 => ⟨S16x4x8192, .i32⟩
  | 25 => ⟨S16x4x8192x1x1, .i32⟩
  | 26 => ⟨S16x4x8192, .i32⟩
  | 27 => ⟨S_, .i32⟩
  | 28 => ⟨S16x1x1, .i32⟩
  | 29 => ⟨S16x1x1, .i1⟩
  | 30 => ⟨S_, .i32⟩
  | 31 => ⟨S16x1x1, .i32⟩
  | 32 => ⟨S16x1x1, .i32⟩
  | 33 => ⟨S16x1x1, .i32⟩
  | 34 => ⟨S_, .i32⟩
  | 35 => ⟨S1x4x1, .i32⟩
  | 36 => ⟨S1x4x1, .i1⟩
  | 37 => ⟨S_, .i32⟩
  | 38 => ⟨S1x4x1, .i32⟩
  | 39 => ⟨S1x4x1, .i32⟩
  | 40 => ⟨S1x4x1, .i32⟩
  | 41 => ⟨S_, .i32⟩
  | 42 => ⟨S16x4x8192, .i32⟩
  | 43 => ⟨S16x4x8192, .i1⟩
  | 44 => ⟨S_, .i32⟩
  | 45 => ⟨S16x4x8192, .i32⟩
  | 46 => ⟨S16x4x8192, .i32⟩
  | 47 => ⟨S16x4x8192, .i32⟩
  | 48 => ⟨S_, .i32⟩
  | 49 => ⟨S16x4x8192, .i32⟩
  | 50 => ⟨S16x4x8192, .i1⟩
  | 51 => ⟨S_, .i32⟩
  | 52 => ⟨S16x4x8192, .i32⟩
  | 53 => ⟨S16x4x8192, .i32⟩
  | 54 => ⟨S16x4x8192, .i32⟩
  | 55 => ⟨S16x4x8192, .i32⟩
  | 56 => ⟨S16x4x8192, .i32⟩
  | 57 => ⟨S16x4x8192x1, .i32⟩
  | 58 => ⟨S16x4x8192x1, .i32⟩
  | 59 => ⟨S16x4x8192x1, .i32⟩
  | 60 => ⟨S16x4x8192x1, .i32⟩
  | 61 => ⟨S16x4x8192x4, .i32⟩
  | 62 => ⟨S16x4x8192, .f32⟩
  | 63 => ⟨S16x4x8192, .f32⟩
  | 64 => ⟨S16x4x8192, .f32⟩
  | 65 => ⟨S8192, .i32⟩
  | 66 => ⟨S1x1x8192, .i32⟩
  | 67 => ⟨S_, .i32⟩
  | 68 => ⟨S4, .i32⟩
  | 69 => ⟨S4, .i32⟩
  | 70 => ⟨S1x4x1, .i32⟩
  | 71 => ⟨S1x4x8192, .i32⟩
  | 72 => ⟨S1x4x8192, .i32⟩
  | 73 => ⟨S1x4x8192, .i1⟩
  | 74 => ⟨S_, .f32⟩
  | 75 => ⟨S16x4x8192, .f32⟩
  | 76 => ⟨S16x4x8192, .f32⟩
  | 77 => ⟨S16x4x8192, .i1⟩
  | 78 => ⟨S16x4x8192, .f32⟩
  | 79 => ⟨S_, .f32⟩
  | 80 => ⟨S_, .f32⟩
  | 81 => ⟨S_, .f32⟩
  | _ => ⟨S16x4x512x512, .f32⟩

abbrev hbmTy (i : Nat) : BufTy := match i / 128 with
  | 0 => hbmTy0_0 i
  | 1 => hbmTy0_1 i
  | _ => ⟨S16x4x512x512, .f32⟩

abbrev bufTy : (tb : Table) → Fin (tcTables nBuf tb) → BufTy
  | .hbm, ⟨i, _⟩ => hbmTy i
  | _, _ => ⟨S16x4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_c_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_5 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_7 : Ref sig .tc := ⟨.hbm, 34, rfl⟩
abbrev main_v23 : Ref sig .tc := ⟨.hbm, 35, rfl⟩
abbrev main_v24 : Ref sig .tc := ⟨.hbm, 36, rfl⟩
abbrev main_c_8 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_9 : Ref sig .tc := ⟨.hbm, 53, rfl⟩
abbrev main_v40 : Ref sig .tc := ⟨.hbm, 54, rfl⟩
abbrev main_v41 : Ref sig .tc := ⟨.hbm, 55, rfl⟩
abbrev main_c_10 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_11 : Ref sig .tc := ⟨.hbm, 60, rfl⟩
abbrev main_v45 : Ref sig .tc := ⟨.hbm, 61, rfl⟩
abbrev main_v46 : Ref sig .tc := ⟨.hbm, 62, rfl⟩
abbrev main_c_12 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_13 : Ref sig .tc := ⟨.hbm, 67, rfl⟩
abbrev main_v50 : Ref sig .tc := ⟨.hbm, 68, rfl⟩
abbrev main_v51 : Ref sig .tc := ⟨.hbm, 69, rfl⟩
abbrev main_c_14 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_15 : Ref sig .tc := ⟨.hbm, 74, rfl⟩
abbrev main_v55 : Ref sig .tc := ⟨.hbm, 75, rfl⟩
abbrev main_v56 : Ref sig .tc := ⟨.hbm, 76, rfl⟩
abbrev main_c_16 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_c_17 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst : Ref sig .tc := ⟨.hbm, 100, rfl⟩
abbrev main_v78 : Ref sig .tc := ⟨.hbm, 101, rfl⟩
abbrev main_v79 : Ref sig .tc := ⟨.hbm, 102, rfl⟩
abbrev main_call0_v0 : Ref sig .tc := ⟨.hbm, 103, rfl⟩
abbrev main_v80 : Ref sig .tc := ⟨.hbm, 104, rfl⟩
abbrev main_cst_18 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_c_19 : Ref sig .tc := ⟨.hbm, 115, rfl⟩
abbrev main_v90 : Ref sig .tc := ⟨.hbm, 116, rfl⟩
abbrev main_v91 : Ref sig .tc := ⟨.hbm, 117, rfl⟩
abbrev main_c_20 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_c_21 : Ref sig .tc := ⟨.hbm, 122, rfl⟩
abbrev main_v95 : Ref sig .tc := ⟨.hbm, 123, rfl⟩
abbrev main_v96 : Ref sig .tc := ⟨.hbm, 124, rfl⟩
abbrev main_c_22 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_c_23 : Ref sig .tc := ⟨.hbm, 129, rfl⟩
abbrev main_v100 : Ref sig .tc := ⟨.hbm, 130, rfl⟩
abbrev main_v101 : Ref sig .tc := ⟨.hbm, 131, rfl⟩
abbrev main_c_24 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_c_25 : Ref sig .tc := ⟨.hbm, 136, rfl⟩
abbrev main_v105 : Ref sig .tc := ⟨.hbm, 137, rfl⟩
abbrev main_v106 : Ref sig .tc := ⟨.hbm, 138, rfl⟩
abbrev main_c_26 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_c_27 : Ref sig .tc := ⟨.hbm, 155, rfl⟩
abbrev main_v122 : Ref sig .tc := ⟨.hbm, 156, rfl⟩
abbrev main_v123 : Ref sig .tc := ⟨.hbm, 157, rfl⟩
abbrev main_c_28 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_c_29 : Ref sig .tc := ⟨.hbm, 162, rfl⟩
abbrev main_v127 : Ref sig .tc := ⟨.hbm, 163, rfl⟩
abbrev main_v128 : Ref sig .tc := ⟨.hbm, 164, rfl⟩
abbrev main_c_30 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_c_31 : Ref sig .tc := ⟨.hbm, 169, rfl⟩
abbrev main_v132 : Ref sig .tc := ⟨.hbm, 170, rfl⟩
abbrev main_v133 : Ref sig .tc := ⟨.hbm, 171, rfl⟩
abbrev main_c_32 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_c_33 : Ref sig .tc := ⟨.hbm, 176, rfl⟩
abbrev main_v137 : Ref sig .tc := ⟨.hbm, 177, rfl⟩
abbrev main_v138 : Ref sig .tc := ⟨.hbm, 178, rfl⟩
abbrev main_c_34 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_c_35 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_cst_36 : Ref sig .tc := ⟨.hbm, 202, rfl⟩
abbrev main_v160 : Ref sig .tc := ⟨.hbm, 203, rfl⟩
abbrev main_v161 : Ref sig .tc := ⟨.hbm, 204, rfl⟩
abbrev main_call1_v0 : Ref sig .tc := ⟨.hbm, 205, rfl⟩
abbrev main_v162 : Ref sig .tc := ⟨.hbm, 206, rfl⟩
abbrev main_cst_37 : Ref sig .tc := ⟨.hbm, 207, rfl⟩
abbrev main_v163 : Ref sig .tc := ⟨.hbm, 208, rfl⟩
abbrev main_v164 : Ref sig .tc := ⟨.hbm, 209, rfl⟩

abbrev nD : Nat := 1
abbrev τ : Topo := Topo.v7x

variable {F : FTy → Type} [FloatOps F]

class Facts₀ : Prop where
  bcast_S16_S16x1x1_0 : S16.BroadcastsInDim S16x1x1 (![0] : Fin 1 → Fin S16x1x1.rank)
  bcast_S4_S1x4x1_1 : S4.BroadcastsInDim S1x4x1 (![1] : Fin 1 → Fin S1x4x1.rank)
  slices_S16x4x8192x2x2_S16x4x8192x1x1_0_0_0_0_0 : S16x4x8192x2x2.Slices ![0, 0, 0, 0, 0] S16x4x8192x1x1
  shapeCasts_S16x4x8192x1x1_S16x4x8192 : S16x4x8192x1x1.ShapeCasts S16x4x8192
  slices_S16x4x8192x2x2_S16x4x8192x1x1_0_0_0_0_1 : S16x4x8192x2x2.Slices ![0, 0, 0, 0, 1] S16x4x8192x1x1
  bcast_S_S16x1x1 : S_.BroadcastsInDim S16x1x1 (![] : Fin 0 → Fin S16x1x1.rank)
  bcast_S_S1x4x1 : S_.BroadcastsInDim S1x4x1 (![] : Fin 0 → Fin S1x4x1.rank)
  bcast_S_S16x4x8192 : S_.BroadcastsInDim S16x4x8192 (![] : Fin 0 → Fin S16x4x8192.rank)
  bcast_S16x1x1_S16x4x8192_0_1_2 : S16x1x1.BroadcastsInDim S16x4x8192 (![0, 1, 2] : Fin 3 → Fin S16x4x8192.rank)
  bcast_S1x4x1_S16x4x8192_0_1_2 : S1x4x1.BroadcastsInDim S16x4x8192 (![0, 1, 2] : Fin 3 → Fin S16x4x8192.rank)
  bcast_S16x4x8192_S16x4x8192x1_0_1_2 : S16x4x8192.BroadcastsInDim S16x4x8192x1 (![0, 1, 2] : Fin 3 → Fin S16x4x8192x1.rank)
  concatenates_S16x4x8192x1_S16x4x8192x1_S16x4x8192x1_S16x4x8192x1_S16x4x8192x4_d3 : Shape.Concatenates [S16x4x8192x1, S16x4x8192x1, S16x4x8192x1, S16x4x8192x1] S16x4x8192x4 3
  slices_S16x4x8192x2x2_S16x4x8192x1x1_0_0_0_1_0 : S16x4x8192x2x2.Slices ![0, 0, 0, 1, 0] S16x4x8192x1x1
  slices_S16x4x8192x2x2_S16x4x8192x1x1_0_0_0_1_1 : S16x4x8192x2x2.Slices ![0, 0, 0, 1, 1] S16x4x8192x1x1
  bcast_S8192_S1x1x8192_2 : S8192.BroadcastsInDim S1x1x8192 (![2] : Fin 1 → Fin S1x1x8192.rank)
  bcast_S_S4 : S_.BroadcastsInDim S4 (![] : Fin 0 → Fin S4.rank)
  bcast_S1x1x8192_S1x4x8192_0_1_2 : S1x1x8192.BroadcastsInDim S1x4x8192 (![0, 1, 2] : Fin 3 → Fin S1x4x8192.rank)
  bcast_S1x4x1_S1x4x8192_0_1_2 : S1x4x1.BroadcastsInDim S1x4x8192 (![0, 1, 2] : Fin 3 → Fin S1x4x8192.rank)
  bcast_S1x4x8192_S16x4x8192_0_1_2 : S1x4x8192.BroadcastsInDim S16x4x8192 (![0, 1, 2] : Fin 3 → Fin S16x4x8192.rank)
  reducesTo_S16x4x8192_S_d0_1_2 : S16x4x8192.ReducesTo [0, 1, 2] S_
  h_S_ : 0 < S_.numel
  gather_S16x4x512x512_S16x4x8192x4_S16x4x8192_n_0123_n_n_0123_3_1111_wf : GatherDims.WF S16x4x512x512 S16x4x8192x4 S16x4x8192 [] [0, 1, 2, 3] [] [0, 1, 2, 3] [] 3 ![1, 1, 1, 1]

variable [Facts₀]

def gather_S16x4x512x512_S16x4x8192x4_S16x4x8192_n_0123_n_n_0123_3_1111 : GatherDims S16x4x512x512 S16x4x8192x4 S16x4x8192 where
  offsetDims := []
  collapsedSliceDims := [0, 1, 2, 3]
  operandBatchingDims := []
  startIndicesBatchingDims := []
  startIndexMap := [0, 1, 2, 3]
  indexVectorDim := 3
  sliceSizes := ![1, 1, 1, 1]
  wf := gather_S16x4x512x512_S16x4x8192x4_S16x4x8192_n_0123_n_n_0123_3_1111_wf

class Facts : Prop extends Facts₀ where

variable [Facts]
-- ==== Proof.KBHost.lean ====
/-
  The program outside its grid region.

  Two hundred host operations come first: for each of the two interval families they normalise the interval
  coordinates, gather the birth and the death value of every interval from the image and flatten the result to
  64 rows (batch × class) of 8192 intervals; they also build, per family, the 0/1 mask of the expected intervals
  (interval n of class c is expected when n is below that class's count).  Those six arrays are what the region's
  six input windows read.  After the region a single reshape turns its 1×1 result into the scalar result.

  Nothing here looks inside those operations.  What is needed of them is only where they write: none allocates,
  none writes an argument array, and the final reshape writes the scalar result alone.
-/
import proofs.«118714_j12034498363966_1_alg».proof.Proof.Gen.Kernel.Launch
import proofs.«118714_j12034498363966_1_alg».proof.Proof.Gen.Kernel.Skeleton
import proofs.«118714_j12034498363966_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.WritesUnit

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel.Hand

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the buffers of core `c` hold when the region starts: the launch memory after the host operations.  Outside this
    module it is never opened: what the rest of the proof needs of it are the theorems below. -/
def entry (c : Dev nD) : Valuation τ sig (Elt F) := StableHlo.after (List.flatten [hostOps0]) (fun b => m (c, b))

/-- The same without the list of stretches. -/
theorem entry_eq_after (c : Dev nD) : entry m c = StableHlo.after (hostOps0 (F := F)) (fun b => m (c, b)) := by
  unfold entry; simp only [List.flatten_cons, List.flatten_nil, List.append_nil]

/-- The host operations before the region allocate nothing. -/
theorem no_alloc_before : ([hostOps0] : List (List (HloOp τ sig (Elt F)))).Forall fun ops => ops.Forall fun op => op.fresh = ∅ := by
  simp only [hostOps0, List.Forall]; repeat' constructor

/-- The program is the host operations, then the region, then the reshape; at the region the buffers hold `entry`. -/
theorem program_shape (𝒱₀ : Variants) :
    Pipeline.HMainK (Ix := Unit) (Name := ℕ) (U := UR sig nD τ) (Lvl := ℕ) cfgs 0 defs₀ 𝒱₀ m (main (F := F))
      (fun c b => entry m c (Proc.devRef .tc b)) (fun _ => Pipeline.chain [StableHlo.seq hostOps1]) :=
  Pipeline.hmain_around cfgs 0 defs₀ 𝒱₀ m main [hostOps0] [hostOps1] (by simp only [List.Forall]; exact hostOps0_sub)
    no_alloc_before main_chain

set_option maxHeartbeats 8000000 in
/-- Every host operation before the region writes a buffer of its own, never an argument array: each argument is found
    by the region as it was launched. -/
theorem args_at_entry (c : Dev nD) (b : Ref sig .tc) (hb : b = main_arg0 ∨ b = main_arg1 ∨ b = main_arg2) :
    (entry m c (Proc.devRef .tc b) : Buf (Elt F) ((c : Thread nD τ).loc b)) = m ((c : Thread nD τ).loc b) := by
  unfold entry
  refine StableHlo.after_of_forall_not_mem (b := Proc.devRef .tc b) _ _ (List.forall_iff_forall_mem.mp ?_)
  rcases hb with rfl | rfl | rfl
  all_goals
    simp only [hostOps0, List.flatten_cons, List.flatten_nil, List.append_nil, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)

/-! ## The reshape after the region -/

/-- Its one operation, by membership. -/
theorem mem_suffix {ops : List (HloOp τ sig (Elt F))} (hops : ops ∈ ([hostOps1] : List (List (HloOp τ sig (Elt F))))) {op : HloOp τ sig (Elt F)}
    (hop : op ∈ ops) : op = StableHlo.reshape main_v164 main_v165 rfl shapeCasts_S1x1_S_ := by
  simp only [List.mem_cons, List.mem_nil_iff, or_false] at hops
  subst hops
  simpa only [hostOps1, List.mem_cons, List.mem_nil_iff, or_false] using hop

/-- It touches unscoped buffers only, -/
theorem suffix_unscoped : ∀ ops ∈ ([hostOps1] : List (List (HloOp τ sig (Elt F)))), ∀ op ∈ ops,
    op.bufs ⊆ Pipeline.tailRefs sig Pipeline.Prefetch.none spec0 := by
  intro ops hops op hop
  rw [Pipeline.tailRefs_none spec0 launch0.win.arr_unscoped, mem_suffix hops hop]
  exact Pipeline.sub_ucRefs _ (StableHlo.reshape_bufs_sub ..)
/-- allocates nothing, -/
theorem suffix_no_alloc : ∀ ops ∈ ([hostOps1] : List (List (HloOp τ sig (Elt F)))), ∀ op ∈ ops, op.fresh = ∅ := by
  intro ops hops op hop
  rw [mem_suffix hops hop]; rfl
/-- and writes the scalar result, which no window stages. -/
theorem suffix_keeps_arrays : ∀ ops ∈ ([hostOps1] : List (List (HloOp τ sig (Elt F)))), ∀ op ∈ ops,
    ∀ w, Proc.devRef .tc (Pipeline.arrRef spec0 w) ∉ op.writes := by
  intro ops hops op hop w
  rw [mem_suffix hops hop, StableHlo.reshape_writes, Finset.mem_singleton]
  fin_cases w <;> exact StableHlo.devRef_ne_of_ne (by decide)

/-- After the whole program a buffer that no window stages and that is not the scalar result holds what it held when
    the region started. -/
theorem unstaged_at_end {U' : Type} [URA U'] (dats : (p : Fin 1) → (c : Dev nD) → Dat τ (Elt F) Unit ℕ U' ℕ (cfgs p) c) (c : Dev nD) (b : Ref sig .tc)
    (hb : ∀ w, Pipeline.arrRef spec0 w ≠ b) (hne : b ≠ main_v165) :
    Pipeline.afterTail₀ cfgs dats 0 (entry m) [hostOps1] c b = entry m c (Proc.devRef .tc b) := by
  unfold Pipeline.afterTail₀
  refine (StableHlo.after_of_forall_not_mem (b := Proc.devRef .tc b) _ _ ?_).trans (Pipeline.withArrays_of_ne _ c _ _ b hb)
  intro op hop
  have : op = StableHlo.reshape main_v164 main_v165 rfl shapeCasts_S1x1_S_ := by
    simpa only [hostOps1, List.flatten_cons, List.flatten_nil, List.append_nil, List.mem_cons, List.mem_nil_iff, or_false] using hop
  rw [this, StableHlo.reshape_writes, Finset.mem_singleton]
  exact StableHlo.devRef_ne_of_ne hne

/-- Hence the three argument arrays end as launched, whatever the region does with its own arrays. -/
theorem args_at_end (dats : (p : Fin 1) → (c : Dev nD) → Dat τ (Elt F) Unit ℕ (UR sig nD τ) ℕ (cfgs p) c)
    (r : PUnit × MemSt nD τ sig (Elt F))
    (h : Pipeline.FramePost cfgs dats 0 (Pipeline.afterTail₀ cfgs dats 0 (entry m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 rfl (by decide))).trans
      ((unstaged_at_end m dats c main_arg0 (by decide) (by decide)).trans (args_at_entry m c main_arg0 (.inl rfl))),
   ((h c).2 main_arg1 (Pipeline.mem_restRefs_of main_arg1 rfl (by decide))).trans
      ((unstaged_at_end m dats c main_arg1 (by decide) (by decide)).trans (args_at_entry m c main_arg1 (.inr (.inl rfl)))),
   ((h c).2 main_arg2 (Pipeline.mem_restRefs_of main_arg2 rfl (by decide))).trans
      ((unstaged_at_end m dats c main_arg2 (by decide) (by decide)).trans (args_at_entry m c main_arg2 (.inr (.inr rfl))))⟩

-- From here on the entry contents are a black box: the theorems above are all that is used of them.
attribute [irreducible] entry

end Cert.Kernel.Hand

end
-- ==== Proof.KBBody.lean ====
/-
  The kernel body at one grid point.

  At every point the body reads six blocks of sixteen rows by 8192 lanes — birth, death and mask of the first interval
  family, then of the second — forms for each family the array  d + g·(1 − 2·d)  with  d = (birth − death)²,  sums it
  over lanes and then over rows, and adds the two sums to a one-cell accumulator that lives in scratch memory across
  the grid.  At the first point the accumulator is set to zero before the addition; at the last point its new contents
  are also copied to the output's one-cell staging buffer.

  `step` is that update as one function of the six blocks and the accumulator's old contents, `zeroAcc` the zero it
  starts from.  The three theorems say, for a first, a middle and the last point, that the body terminates without a
  fault, hands back every input buffer as it found it, leaves the accumulator at `step … old`, and leaves the output's
  staging buffer untouched except at the last point, where it too holds `step … old`.
-/
import proofs.«118714_j12034498363966_1_alg».proof.Proof.Gen.Kernel.Launch
import proofs.«118714_j12034498363966_1_alg».proof.Proof.Gen.Kernel.Skeleton
import proofs.«118714_j12034498363966_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.WritesUnit
import Idealize.ShloMosaic.Lib.Pipeline.Value

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel.Hand

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulator after one point: its old contents plus the two block sums. -/
def step (x0 x1 x2 x3 x4 x5 : Vec F S16x8192 .f32) (old : Vec F S1x1 .f32) : Vec F S1x1 .f32 :=
  k0_pay1 (k0_pay3 x0 x1 x2) (k0_pay4 x3 x4 x5) old

/-- The zero the accumulator is reset to at the first point. -/
def zeroAcc : Vec F S1x1 .f32 := k0_pay2

/-! ## The two conditionals, by the grid coordinate -/

/-- The body's test "this is point 0", as it computes it. -/
abbrev atFirst (i : grid0.Coords) : Prop :=
  (Scalar.cmpi .ne (Scalar.extui (Scalar.cmpi .eq (BitVec.ofNat 32 (i 0).val) 0#32)) 0#32) = 1#1

theorem atFirst_of (i : grid0.Coords) (h : (i 0).val = 0) : atFirst i := by revert h; revert i; decide +kernel
theorem not_atFirst_of (i : grid0.Coords) (h : (i 0).val ≠ 0) : ¬atFirst i := by revert h; revert i; decide +kernel
/-- The body's test "this is point 3" is the printed `k0_cond2`. -/
theorem atLast_of (i : grid0.Coords) (h : (i 0).val = 3) : k0_cond2 i = 1#1 := by revert h; revert i; decide +kernel
theorem not_atLast_of (i : grid0.Coords) (h : (i 0).val ≠ 3) : ¬k0_cond2 i = 1#1 := by revert h; revert i; decide +kernel

/-- Every load and store of the body goes through the whole buffer: offsets zero on both axes. -/
theorem zero_offsets : (![0, 0] : Fin 2 → ℕ) = fun _ => 0 := by funext a; fin_cases a <;> rfl

/-- In a one-cell buffer, what is read after a store of the whole cell is what was stored, whatever came before. -/
theorem cell_after_store (v : View sig .tc .vmem S1x1 .f32) (f : v.ty.Contents (Elt F)) (w : Vec F S1x1 .f32)
    (L : List (View.Piece (Elt F) S1x1 .f32)) :
    v.read (Elt F) (v.writes (Elt F) f ((⟨Rect.unit ![0, 0] ![1, 1] inb_S1x1_S1x1_0_0, w⟩ : View.Piece (Elt F) S1x1 .f32) :: L)) = w :=
  funext fun y => View.read_writes_cons_unit_of_mem v f inb_S1x1_S1x1_0_0 w L y y rfl
    (fun a => by fin_cases a <;> exact (Nat.zero_add _).symm)

/-! ## The three kinds of point -/

set_option maxHeartbeats 4000000 in
/-- A point that is neither first nor last: the accumulator goes from `old` to `step … old`; nothing else changes. -/
theorem body_middle (c : Dev nD) (i : grid0.Coords) (a1 : Memref sig .tc .vmem S16x8192 .f32) (h1 : a1.IsWhole) (a2 : Memref sig .tc .vmem S16x8192 .f32) (h2 : a2.IsWhole) (a3 : Memref sig .tc .vmem S16x8192 .f32) (h3 : a3.IsWhole) (a4 : Memref sig .tc .vmem S16x8192 .f32) (h4 : a4.IsWhole) (a5 : Memref sig .tc .vmem S16x8192 .f32) (h5 : a5.IsWhole) (a6 : Memref sig .tc .vmem S16x8192 .f32) (h6 : a6.IsWhole) (a7 : Memref sig .tc .vmem S1x1 .f32) (h7 : a7.IsWhole) (a8 : Memref sig .tc .vmem S1x1 .f32) (h8 : a8.IsWhole)
    (hnf : (i 0).val ≠ 0) (hnl : (i 0).val ≠ 3)
    (x0 : Vec F S16x8192 .f32) (x1 : Vec F S16x8192 .f32) (x2 : Vec F S16x8192 .f32) (x3 : Vec F S16x8192 .f32) (x4 : Vec F S16x8192 .f32) (x5 : Vec F S16x8192 .f32) (xo old : Vec F S1x1 .f32) :
    (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare xo ∗ owns (c : Thread nD τ) a8 fullShare old) : sProp 𝕄)
      ⊢ wp frame (wpE (defs₀ (F := F)) Variants.none c none) Set.univ (cc0__bd_loss_kernel i a1 h1 a2 h2 a3 h3 a4 h4 a5 h5 a6 h6 a7 h7 a8 h8)
          (fun _ => iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare xo ∗ owns (c : Thread nD τ) a8 fullShare (step x0 x1 x2 x3 x4 x5 old))) := by
  simp only [cc0__bd_loss_kernel_eq_skeleton]; unfold cc0__bd_loss_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩⟩
  obtain rfl := h1.eq_unread hf0; obtain rfl := h2.eq_unread hf1; obtain rfl := h3.eq_unread hf2; obtain rfl := h4.eq_unread hf3; obtain rfl := h5.eq_unread hf4; obtain rfl := h6.eq_unread hf5; obtain rfl := h7.eq_unread hf6; obtain rfl := h8.eq_unread hfs
  sl_exec (disch := first | exact not_atFirst_of i hnf | exact not_atLast_of i hnl)
  sl_step
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  isplitl [H5]
  · iexists _; isplitr; · ipureintro; exact h6.read_unread _
    iexact H5
  isplitl [H6]
  · iexists _; isplitr; · ipureintro; exact h7.read_unread _
    iexact H6
  iexists _; isplitr
  swap; · iexact HS
  ipureintro
  refine (cell_after_store a8.view _ _ []).trans ?_
  sl_unfold_run_names
  simp only [View.readAt_eq_ld, h1.read_unread, h2.read_unread, h3.read_unread, h4.read_unread, h5.read_unread, h6.read_unread, h7.read_unread, h8.read_unread,
    View.ld_unit_zero (S := S16x8192) zero_offsets, View.ld_unit_zero (S := S1x1) zero_offsets]
  rfl

set_option maxHeartbeats 4000000 in
/-- The first point: the accumulator, whatever it held, goes to `step … zeroAcc`. -/
theorem body_first (c : Dev nD) (i : grid0.Coords) (a1 : Memref sig .tc .vmem S16x8192 .f32) (h1 : a1.IsWhole) (a2 : Memref sig .tc .vmem S16x8192 .f32) (h2 : a2.IsWhole) (a3 : Memref sig .tc .vmem S16x8192 .f32) (h3 : a3.IsWhole) (a4 : Memref sig .tc .vmem S16x8192 .f32) (h4 : a4.IsWhole) (a5 : Memref sig .tc .vmem S16x8192 .f32) (h5 : a5.IsWhole) (a6 : Memref sig .tc .vmem S16x8192 .f32) (h6 : a6.IsWhole) (a7 : Memref sig .tc .vmem S1x1 .f32) (h7 : a7.IsWhole) (a8 : Memref sig .tc .vmem S1x1 .f32) (h8 : a8.IsWhole)
    (hf : (i 0).val = 0)
    (x0 : Vec F S16x8192 .f32) (x1 : Vec F S16x8192 .f32) (x2 : Vec F S16x8192 .f32) (x3 : Vec F S16x8192 .f32) (x4 : Vec F S16x8192 .f32) (x5 : Vec F S16x8192 .f32) (xo : Vec F S1x1 .f32) :
    (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare xo ∗ (∃ d, owns (c : Thread nD τ) a8 fullShare d)) : sProp 𝕄)
      ⊢ wp frame (wpE (defs₀ (F := F)) Variants.none c none) Set.univ (cc0__bd_loss_kernel i a1 h1 a2 h2 a3 h3 a4 h4 a5 h5 a6 h6 a7 h7 a8 h8)
          (fun _ => iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare xo ∗ owns (c : Thread nD τ) a8 fullShare (step x0 x1 x2 x3 x4 x5 zeroAcc))) := by
  simp only [cc0__bd_loss_kernel_eq_skeleton]; unfold cc0__bd_loss_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩⟩
  obtain rfl := h1.eq_unread hf0; obtain rfl := h2.eq_unread hf1; obtain rfl := h3.eq_unread hf2; obtain rfl := h4.eq_unread hf3; obtain rfl := h5.eq_unread hf4; obtain rfl := h6.eq_unread hf5; obtain rfl := h7.eq_unread hf6
  sl_exec (disch := first | exact atFirst_of i hf | exact not_atLast_of i (by omega))
  sl_step
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  isplitl [H5]
  · iexists _; isplitr; · ipureintro; exact h6.read_unread _
    iexact H5
  isplitl [H6]
  · iexists _; isplitr; · ipureintro; exact h7.read_unread _
    iexact H6
  iexists _; isplitr
  swap; · iexact HS
  ipureintro
  refine (cell_after_store a8.view _ _ _).trans ?_
  sl_unfold_run_names
  simp only [View.readAt_eq_ld, h1.read_unread, h2.read_unread, h3.read_unread, h4.read_unread, h5.read_unread, h6.read_unread, h7.read_unread, h8.read_unread,
    View.ld_unit_zero (S := S16x8192) zero_offsets, View.ld_unit_zero (S := S1x1) zero_offsets]
  rw [View.readCov_unit_zero (S := S1x1) a8.view zero_offsets]
  rfl

set_option maxHeartbeats 4000000 in
/-- The last point: the accumulator goes from `old` to `step … old`, and the output's staging buffer receives the same. -/
theorem body_last (c : Dev nD) (i : grid0.Coords) (a1 : Memref sig .tc .vmem S16x8192 .f32) (h1 : a1.IsWhole) (a2 : Memref sig .tc .vmem S16x8192 .f32) (h2 : a2.IsWhole) (a3 : Memref sig .tc .vmem S16x8192 .f32) (h3 : a3.IsWhole) (a4 : Memref sig .tc .vmem S16x8192 .f32) (h4 : a4.IsWhole) (a5 : Memref sig .tc .vmem S16x8192 .f32) (h5 : a5.IsWhole) (a6 : Memref sig .tc .vmem S16x8192 .f32) (h6 : a6.IsWhole) (a7 : Memref sig .tc .vmem S1x1 .f32) (h7 : a7.IsWhole) (a8 : Memref sig .tc .vmem S1x1 .f32) (h8 : a8.IsWhole)
    (hl : (i 0).val = 3)
    (x0 : Vec F S16x8192 .f32) (x1 : Vec F S16x8192 .f32) (x2 : Vec F S16x8192 .f32) (x3 : Vec F S16x8192 .f32) (x4 : Vec F S16x8192 .f32) (x5 : Vec F S16x8192 .f32) (xo old : Vec F S1x1 .f32) :
    (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare xo ∗ owns (c : Thread nD τ) a8 fullShare old) : sProp 𝕄)
      ⊢ wp frame (wpE (defs₀ (F := F)) Variants.none c none) Set.univ (cc0__bd_loss_kernel i a1 h1 a2 h2 a3 h3 a4 h4 a5 h5 a6 h6 a7 h7 a8 h8)
          (fun _ => iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare (step x0 x1 x2 x3 x4 x5 old) ∗ owns (c : Thread nD τ) a8 fullShare (step x0 x1 x2 x3 x4 x5 old))) := by
  simp only [cc0__bd_loss_kernel_eq_skeleton]; unfold cc0__bd_loss_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩⟩
  obtain rfl := h1.eq_unread hf0; obtain rfl := h2.eq_unread hf1; obtain rfl := h3.eq_unread hf2; obtain rfl := h4.eq_unread hf3; obtain rfl := h5.eq_unread hf4; obtain rfl := h6.eq_unread hf5; obtain rfl := h7.eq_unread hf6; obtain rfl := h8.eq_unread hfs
  sl_exec (disch := first | exact not_atFirst_of i (by omega) | exact atLast_of i hl)
  sl_step
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  isplitl [H5]
  · iexists _; isplitr; · ipureintro; exact h6.read_unread _
    iexact H5
  isplitl [H6]
  · iexists _; isplitr
    swap; · iexact H6
    ipureintro
    refine (cell_after_store a7.view _ _ []).trans ?_
    sl_unfold_run_names
    simp only [View.readAt_eq_ld, h1.read_unread, h2.read_unread, h3.read_unread, h4.read_unread, h5.read_unread, h6.read_unread, h7.read_unread, h8.read_unread,
    View.ld_unit_zero (S := S16x8192) zero_offsets, View.ld_unit_zero (S := S1x1) zero_offsets]
    rw [View.readCov_unit_zero (S := S1x1) a8.view zero_offsets]
    rfl
  iexists _; isplitr
  swap; · iexact HS
  ipureintro
  sl_unfold_run_names
  refine (cell_after_store a8.view _ _ []).trans ?_
  simp only [View.readAt_eq_ld, h1.read_unread, h2.read_unread, h3.read_unread, h4.read_unread, h5.read_unread, h6.read_unread, h7.read_unread, h8.read_unread,
    View.ld_unit_zero (S := S16x8192) zero_offsets, View.ld_unit_zero (S := S1x1) zero_offsets]
  rfl

end Cert.Kernel.Hand

end
-- ==== Proof.KBAcc.lean ====
/-
  The grid region.

  The grid has four points; point t reads rows 16·t … 16·t + 15 of each of the six 64-row arrays.  Writing
  B t for the six blocks of point t, the accumulator after point t is

      acc 0 = step (B 0) zeroAcc,      acc (t + 1) = step (B (t + 1)) (acc t),

  so after the last point it holds the zero it was reset to plus, point by point, the two block sums.  The output's
  one-cell array receives acc 3 when the pipeline writes the staging buffer back after the last point.

  The region's invariant carries the accumulator: on entry it is whatever the launch lends, before point t + 1 it
  is owned at acc t.  With the three body theorems this discharges the pipeline's obligation at every point, and the
  library's launch theorem for a region whose invariant changes from point to point runs the whole program.
-/
import proofs.«118714_j12034498363966_1_alg».proof.Proof.KBHost
import proofs.«118714_j12034498363966_1_alg».proof.Proof.KBBody

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel.Hand

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Blocks and the accumulator -/

/-- Window `w`'s block at point `t`, read off the array the region finds. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Proc.devRef .tc (Pipeline.arrRef spec0 w)))

theorem four_points : cfg0.N = 4 := N_0

/-- Grid point number `n` (numbers are taken modulo four, so that the accumulator below is defined for every `n`). -/
def pt (n : ℕ) : Fin cfg0.N := ⟨n % 4, lt_of_lt_of_eq (Nat.mod_lt _ (by decide)) four_points.symm⟩

theorem pt_val (t : Fin cfg0.N) : pt t.val = t :=
  Fin.ext (Nat.mod_eq_of_lt (lt_of_lt_of_eq t.isLt four_points))

/-- The accumulator after point `n`. -/
def acc (c : Dev nD) : ℕ → Vec F S1x1 .f32
  | 0 => step (blockAt m c 0 (pt 0)) (blockAt m c 1 (pt 0)) (blockAt m c 2 (pt 0)) (blockAt m c 3 (pt 0)) (blockAt m c 4 (pt 0)) (blockAt m c 5 (pt 0)) zeroAcc
  | n + 1 => step (blockAt m c 0 (pt (n + 1))) (blockAt m c 1 (pt (n + 1))) (blockAt m c 2 (pt (n + 1))) (blockAt m c 3 (pt (n + 1))) (blockAt m c 4 (pt (n + 1))) (blockAt m c 5 (pt (n + 1))) (acc c n)

/-- The accumulator: the kernel's one-cell scratch buffer. -/
abbrev accM : Memref sig .tc .vmem S1x1 .f32 := Memref.whole cc0_scratch0

/-- The region's invariant before position `n`. -/
def inv (c : Dev nD) : ℕ → sProp 𝕄
  | 0 => Pipeline.ΦA spec0 c
  | n + 1 => iprop(owns (c : Thread nD τ) accM fullShare (acc m c n) ∗ (∃ r, prngReg c r))

/-- What the launch lends the region besides the windows: the accumulator at some contents, and the generator register. -/
theorem lent_eq (c : Dev nD) :
    (Pipeline.ΦA spec0 c : sProp 𝕄) = iprop((∃ d, owns (c : Thread nD τ) accM fullShare d) ∗ (∃ r, prngReg c r)) := by
  unfold Pipeline.ΦA; rw [scopedRest0_eq]; simp only [accM, owns_whole]; try rfl

/-! ## The pipeline's proof data -/

/-- On core `c`: each window's array as the region finds it; after the body at point `t` every input's staging buffer
    still holds its block and the output's holds the accumulator's contents (consulted only at the last point, the one
    point where the body stores into it and the pipeline writes it back); full shares, nothing owed. -/
def dat (c : Dev nD) : Dat τ (Elt F) Unit ℕ (UR sig nD τ) ℕ cfg0 c where
  A w := entry m c (Proc.devRef .tc (Pipeline.arrRef spec0 w))
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => acc m c t.val
  Φ t := inv m c t.val
  q _ := fullShare
  owed _ := 0

/-- The family the launch theorem takes: one pipeline. -/
abbrev dats (_ : Fin 1) (c : Dev nD) : Dat τ (Elt F) Unit ℕ (UR sig nD τ) ℕ cfg0 c := dat m c

theorem dat_A (c : Dev nD) (w : Fin cfg0.W) : (dat m c).A w = entry m c (Proc.devRef .tc (Pipeline.arrRef spec0 w)) := rfl

/-- For any proof data whose body leaves an input's block in place, that input's staging buffer holds its block of the
    data's array whenever the body starts, fetched at that point or not: the six inputs are never idle and are not
    clipped, and an unfetched point has the block index of the point before.  One statement per input window (the block's
    index type reduces only for a literal window), over abstract data so that the array stays a variable. -/
theorem found_0 {c : Dev nD} (D : Dat τ (Elt F) Unit ℕ (UR sig nD τ) ℕ cfg0 c)
    (hafter : ∀ t, D.after 0 t = ((cfg0.win 0).blk t).view.read (Elt F) (D.A 0)) (t : Fin cfg0.N) (d) :
    D.before 0 t d = ((cfg0.win 0).blk t).view.read (Elt F) (D.A 0) :=
  (D.before_in_eq_fetched 0 rfl (fun _ => rfl) (fun _ _ _ => rfl) (fun t => by rw [hafter t]; rfl) t d).trans rfl
theorem found_1 {c : Dev nD} (D : Dat τ (Elt F) Unit ℕ (UR sig nD τ) ℕ cfg0 c)
    (hafter : ∀ t, D.after 1 t = ((cfg0.win 1).blk t).view.read (Elt F) (D.A 1)) (t : Fin cfg0.N) (d) :
    D.before 1 t d = ((cfg0.win 1).blk t).view.read (Elt F) (D.A 1) :=
  (D.before_in_eq_fetched 1 rfl (fun _ => rfl) (fun _ _ _ => rfl) (fun t => by rw [hafter t]; rfl) t d).trans rfl
theorem found_2 {c : Dev nD} (D : Dat τ (Elt F) Unit ℕ (UR sig nD τ) ℕ cfg0 c)
    (hafter : ∀ t, D.after 2 t = ((cfg0.win 2).blk t).view.read (Elt F) (D.A 2)) (t : Fin cfg0.N) (d) :
    D.before 2 t d = ((cfg0.win 2).blk t).view.read (Elt F) (D.A 2) :=
  (D.before_in_eq_fetched 2 rfl (fun _ => rfl) (fun _ _ _ => rfl) (fun t => by rw [hafter t]; rfl) t d).trans rfl
theorem found_3 {c : Dev nD} (D : Dat τ (Elt F) Unit ℕ (UR sig nD τ) ℕ cfg0 c)
    (hafter : ∀ t, D.after 3 t = ((cfg0.win 3).blk t).view.read (Elt F) (D.A 3)) (t : Fin cfg0.N) (d) :
    D.before 3 t d = ((cfg0.win 3).blk t).view.read (Elt F) (D.A 3) :=
  (D.before_in_eq_fetched 3 rfl (fun _ => rfl) (fun _ _ _ => rfl) (fun t => by rw [hafter t]; rfl) t d).trans rfl
theorem found_4 {c : Dev nD} (D : Dat τ (Elt F) Unit ℕ (UR sig nD τ) ℕ cfg0 c)
    (hafter : ∀ t, D.after 4 t = ((cfg0.win 4).blk t).view.read (Elt F) (D.A 4)) (t : Fin cfg0.N) (d) :
    D.before 4 t d = ((cfg0.win 4).blk t).view.read (Elt F) (D.A 4) :=
  (D.before_in_eq_fetched 4 rfl (fun _ => rfl) (fun _ _ _ => rfl) (fun t => by rw [hafter t]; rfl) t d).trans rfl
theorem found_5 {c : Dev nD} (D : Dat τ (Elt F) Unit ℕ (UR sig nD τ) ℕ cfg0 c)
    (hafter : ∀ t, D.after 5 t = ((cfg0.win 5).blk t).view.read (Elt F) (D.A 5)) (t : Fin cfg0.N) (d) :
    D.before 5 t d = ((cfg0.win 5).blk t).view.read (Elt F) (D.A 5) :=
  (D.before_in_eq_fetched 5 rfl (fun _ => rfl) (fun _ _ _ => rfl) (fun t => by rw [hafter t]; rfl) t d).trans rfl

/-- So for the region's data: every input's staging buffer holds its block when the body starts. -/
theorem input_found_0 (c : Dev nD) (t : Fin cfg0.N) (d) : (dat m c).before 0 t d = blockAt m c 0 t :=
  found_0 (dat m c) (fun _ => rfl) t d
theorem input_found_1 (c : Dev nD) (t : Fin cfg0.N) (d) : (dat m c).before 1 t d = blockAt m c 1 t :=
  found_1 (dat m c) (fun _ => rfl) t d
theorem input_found_2 (c : Dev nD) (t : Fin cfg0.N) (d) : (dat m c).before 2 t d = blockAt m c 2 t :=
  found_2 (dat m c) (fun _ => rfl) t d
theorem input_found_3 (c : Dev nD) (t : Fin cfg0.N) (d) : (dat m c).before 3 t d = blockAt m c 3 t :=
  found_3 (dat m c) (fun _ => rfl) t d
theorem input_found_4 (c : Dev nD) (t : Fin cfg0.N) (d) : (dat m c).before 4 t d = blockAt m c 4 t :=
  found_4 (dat m c) (fun _ => rfl) t d
theorem input_found_5 (c : Dev nD) (t : Fin cfg0.N) (d) : (dat m c).before 5 t d = blockAt m c 5 t :=
  found_5 (dat m c) (fun _ => rfl) t d

/-! ## Where the point is on the grid -/

/-- The grid is one-dimensional: point `t` has coordinate `t`. -/
theorem coord_eq : ∀ t : Fin cfg0.N, ((grid0.coords t) 0).val = t.val :=
  (by decide +kernel : ∀ t : Fin grid0.N, ((grid0.coords t) 0).val = t.val)
/-- The six inputs are live at every point. -/
theorem in_live : ∀ w : Fin 7, w.val < 6 → ∀ t : Fin cfg0.N, cfg0.idle w (grid0.coords t) = false :=
  (by decide +kernel : ∀ w : Fin 7, w.val < 6 → ∀ t : Fin grid0.N, cfg0.idle w (grid0.coords t) = false)
/-- The output is idle and is not written back before the last point; at the last point it is live. -/
theorem out_idle : ∀ t : Fin cfg0.N, t.val ≠ 3 → cfg0.idle 6 (grid0.coords t) = true :=
  (by decide +kernel : ∀ t : Fin grid0.N, t.val ≠ 3 → cfg0.idle 6 (grid0.coords t) = true)
theorem out_unflushed : ∀ t : Fin cfg0.N, t.val ≠ 3 → (cfg0.win 6).flush t = false :=
  (by decide +kernel : ∀ t : Fin grid0.N, t.val ≠ 3 → win0_6.flush t = false)
theorem out_live : ∀ t : Fin cfg0.N, t.val = 3 → cfg0.idle 6 (grid0.coords t) = false :=
  (by decide +kernel : ∀ t : Fin grid0.N, t.val = 3 → cfg0.idle 6 (grid0.coords t) = false)

/-- The accumulator after the first point. -/
theorem acc_first (c : Dev nD) (t : Fin cfg0.N) (h : t.val = 0) :
    acc m c t.val = step (blockAt m c 0 t) (blockAt m c 1 t) (blockAt m c 2 t) (blockAt m c 3 t) (blockAt m c 4 t) (blockAt m c 5 t) zeroAcc := by
  have e : pt 0 = t := by rw [← h]; exact pt_val t
  rw [h]; show step (blockAt m c 0 (pt 0)) (blockAt m c 1 (pt 0)) (blockAt m c 2 (pt 0)) (blockAt m c 3 (pt 0)) (blockAt m c 4 (pt 0)) (blockAt m c 5 (pt 0)) zeroAcc = _
  rw [e]
/-- The accumulator after a later point, from the one before. -/
theorem acc_later (c : Dev nD) (t : Fin cfg0.N) (h : t.val ≠ 0) :
    acc m c t.val = step (blockAt m c 0 t) (blockAt m c 1 t) (blockAt m c 2 t) (blockAt m c 3 t) (blockAt m c 4 t) (blockAt m c 5 t) (acc m c (t.val - 1)) := by
  obtain ⟨n, hn⟩ : ∃ n, t.val = n + 1 := ⟨t.val - 1, by omega⟩
  have e : pt (n + 1) = t := by rw [← hn]; exact pt_val t
  rw [hn]; show step (blockAt m c 0 (pt (n + 1))) (blockAt m c 1 (pt (n + 1))) (blockAt m c 2 (pt (n + 1))) (blockAt m c 3 (pt (n + 1))) (blockAt m c 4 (pt (n + 1))) (blockAt m c 5 (pt (n + 1))) (acc m c n) = _
  rw [e, Nat.add_sub_cancel]

/-- What an input window's buffer is left at: its block. -/
theorem input_left_0 (c : Dev nD) (t : Fin cfg0.N) :
    (dat m c).leavesExact 0 t = owns (c : Thread nD τ) (win0_0.stage (cfg0.slots t 0)) fullShare (blockAt m c 0 t) := by
  unfold Dat.leavesExact; rw [in_live 0 (by decide) t]; rfl
theorem input_left_1 (c : Dev nD) (t : Fin cfg0.N) :
    (dat m c).leavesExact 1 t = owns (c : Thread nD τ) (win0_1.stage (cfg0.slots t 1)) fullShare (blockAt m c 1 t) := by
  unfold Dat.leavesExact; rw [in_live 1 (by decide) t]; rfl
theorem input_left_2 (c : Dev nD) (t : Fin cfg0.N) :
    (dat m c).leavesExact 2 t = owns (c : Thread nD τ) (win0_2.stage (cfg0.slots t 2)) fullShare (blockAt m c 2 t) := by
  unfold Dat.leavesExact; rw [in_live 2 (by decide) t]; rfl
theorem input_left_3 (c : Dev nD) (t : Fin cfg0.N) :
    (dat m c).leavesExact 3 t = owns (c : Thread nD τ) (win0_3.stage (cfg0.slots t 3)) fullShare (blockAt m c 3 t) := by
  unfold Dat.leavesExact; rw [in_live 3 (by decide) t]; rfl
theorem input_left_4 (c : Dev nD) (t : Fin cfg0.N) :
    (dat m c).leavesExact 4 t = owns (c : Thread nD τ) (win0_4.stage (cfg0.slots t 4)) fullShare (blockAt m c 4 t) := by
  unfold Dat.leavesExact; rw [in_live 4 (by decide) t]; rfl
theorem input_left_5 (c : Dev nD) (t : Fin cfg0.N) :
    (dat m c).leavesExact 5 t = owns (c : Thread nD τ) (win0_5.stage (cfg0.slots t 5)) fullShare (blockAt m c 5 t) := by
  unfold Dat.leavesExact; rw [in_live 5 (by decide) t]; rfl

end Cert.Kernel.Hand

end
-- ==== Proof.KBPoint.lean ====
/-
  The body's obligation at a grid point.

  The pipeline hands the body, at point t, the region's invariant, the core's debt (none here) and the seven staging
  buffers, and wants them back with the invariant advanced by one point.  By the point's place on the grid — first,
  last, or in between — one of the three body theorems applies to the six blocks of the point and the accumulator's
  contents; the generator register and the debt ride along untouched.
-/
import proofs.«118714_j12034498363966_1_alg».proof.Proof.KBAcc

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel.Hand

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, window by window. -/
def pre (c : Dev nD) (t : Fin cfg0.N) : sProp 𝕄 :=
  iprop((dat m c).Φ t.castSucc ∗ (dat m c).owesAt () t.castSucc
    ∗ (∃ d, owns (c : Thread nD τ) (win0_0.stage (cfg0.slots t 0)) fullShare ((dat m c).before 0 t d))
    ∗ (∃ d, owns (c : Thread nD τ) (win0_1.stage (cfg0.slots t 1)) fullShare ((dat m c).before 1 t d))
    ∗ (∃ d, owns (c : Thread nD τ) (win0_2.stage (cfg0.slots t 2)) fullShare ((dat m c).before 2 t d))
    ∗ (∃ d, owns (c : Thread nD τ) (win0_3.stage (cfg0.slots t 3)) fullShare ((dat m c).before 3 t d))
    ∗ (∃ d, owns (c : Thread nD τ) (win0_4.stage (cfg0.slots t 4)) fullShare ((dat m c).before 4 t d))
    ∗ (∃ d, owns (c : Thread nD τ) (win0_5.stage (cfg0.slots t 5)) fullShare ((dat m c).before 5 t d))
    ∗ (∃ d, owns (c : Thread nD τ) (win0_6.stage (cfg0.slots t 6)) fullShare ((dat m c).before 6 t d)))

/-- What it must return. -/
def post (c : Dev nD) (t : Fin cfg0.N) : sProp 𝕄 :=
  iprop((dat m c).Φ t.succ ∗ (dat m c).owesAt () t.succ
    ∗ (dat m c).leavesExact 0 t
    ∗ (dat m c).leavesExact 1 t
    ∗ (dat m c).leavesExact 2 t
    ∗ (dat m c).leavesExact 3 t
    ∗ (dat m c).leavesExact 4 t
    ∗ (dat m c).leavesExact 5 t
    ∗ (dat m c).leavesExact 6 t)

set_option maxHeartbeats 8000000 in
/-- At every point the body meets its obligation: by the point's place on the grid one of the three body theorems
    applies to the six blocks and the accumulator's contents; the generator register and the core's debt (none) ride
    along untouched. -/
theorem at_point (c : Dev nD) (t : Fin cfg0.N) :
    pre m c t ⊢ wp frame (wpE (defs₀ (F := F)) Variants.none c none) Set.univ (bodyAt0 t) (fun _ => post m c t) := by
  unfold pre post bodyAt0
  simp only [input_found_0 m c, input_found_1 m c, input_found_2 m c, input_found_3 m c, input_found_4 m c, input_found_5 m c]
  rw [show (dat m c).owesAt () t.succ = (dat m c).owesAt () t.castSucc from rfl,
    show (dat m c).Φ t.succ = inv m c (t.val + 1) from rfl, show (dat m c).Φ t.castSucc = inv m c t.val from rfl,
    input_left_0, input_left_1, input_left_2, input_left_3, input_left_4, input_left_5]
  show iprop(inv m c t.val ∗ (dat m c).owesAt () t.castSucc
      ∗ (∃ d, owns (c : Thread nD τ) (win0_0.stage (cfg0.slots t 0)) fullShare (blockAt m c 0 t)) ∗ (∃ d, owns (c : Thread nD τ) (win0_1.stage (cfg0.slots t 1)) fullShare (blockAt m c 1 t)) ∗ (∃ d, owns (c : Thread nD τ) (win0_2.stage (cfg0.slots t 2)) fullShare (blockAt m c 2 t)) ∗ (∃ d, owns (c : Thread nD τ) (win0_3.stage (cfg0.slots t 3)) fullShare (blockAt m c 3 t)) ∗ (∃ d, owns (c : Thread nD τ) (win0_4.stage (cfg0.slots t 4)) fullShare (blockAt m c 4 t)) ∗ (∃ d, owns (c : Thread nD τ) (win0_5.stage (cfg0.slots t 5)) fullShare (blockAt m c 5 t))
      ∗ (∃ d, owns (c : Thread nD τ) (win0_6.stage (cfg0.slots t 6)) fullShare ((dat m c).before 6 t d)))
    ⊢ wp frame (wpE (defs₀ (F := F)) Variants.none c none) Set.univ _ (fun _ => iprop(inv m c (t.val + 1) ∗ (dat m c).owesAt () t.castSucc
      ∗ owns (c : Thread nD τ) (win0_0.stage (cfg0.slots t 0)) fullShare (blockAt m c 0 t) ∗ owns (c : Thread nD τ) (win0_1.stage (cfg0.slots t 1)) fullShare (blockAt m c 1 t) ∗ owns (c : Thread nD τ) (win0_2.stage (cfg0.slots t 2)) fullShare (blockAt m c 2 t) ∗ owns (c : Thread nD τ) (win0_3.stage (cfg0.slots t 3)) fullShare (blockAt m c 3 t) ∗ owns (c : Thread nD τ) (win0_4.stage (cfg0.slots t 4)) fullShare (blockAt m c 4 t) ∗ owns (c : Thread nD τ) (win0_5.stage (cfg0.slots t 5)) fullShare (blockAt m c 5 t) ∗ (dat m c).leavesExact 6 t))
  have hN : t.val < 4 := lt_of_lt_of_eq t.isLt four_points
  have hco := coord_eq t
  by_cases h0 : t.val = 0
  · -- the first point
    rw [Dat.leavesExact_idle (dat m c) 6 t (out_idle t (by omega)) (out_unflushed t (by omega))]
    rw [show inv m c t.val = Pipeline.ΦA spec0 c from by rw [h0]; rfl, lent_eq,
      show inv m c (t.val + 1) = iprop(owns (c : Thread nD τ) accM fullShare (acc m c t.val) ∗ (∃ r, prngReg c r)) from rfl,
      acc_first m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (wp_wand_r frame (wpE (defs₀ (F := F)) Variants.none c none) Set.univ)
    isplitl [H0 H1 H2 H3 H4 H5 H6 HS]
    · iapply (body_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (by omega) (blockAt m c 0 t) (blockAt m c 1 t) (blockAt m c 2 t) (blockAt m c 3 t) (blockAt m c 4 t) (blockAt m c 5 t) ((dat m c).before 6 t d6))
      isplitl [H0]; · iexact H0
      isplitl [H1]; · iexact H1
      isplitl [H2]; · iexact H2
      isplitl [H3]; · iexact H3
      isplitl [H4]; · iexact H4
      isplitl [H5]; · iexact H5
      isplitl [H6]; · iexact H6
      iexact HS
    iintro %_ ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · rw [show inv m c t.val = iprop(owns (c : Thread nD τ) accM fullShare (acc m c (t.val - 1)) ∗ (∃ r, prngReg c r)) from by
        obtain ⟨n, hn⟩ : ∃ n, t.val = n + 1 := ⟨t.val - 1, by omega⟩
        rw [hn, Nat.add_sub_cancel]; rfl,
      show inv m c (t.val + 1) = iprop(owns (c : Thread nD τ) accM fullShare (acc m c t.val) ∗ (∃ r, prngReg c r)) from rfl,
      acc_later m c t h0]
    by_cases h3 : t.val = 3
    · -- the last point
      rw [show (dat m c).leavesExact 6 t = owns (c : Thread nD τ) (win0_6.stage (cfg0.slots t 6)) fullShare (acc m c t.val) from by
        unfold Dat.leavesExact; rw [out_live t h3]; rfl, acc_later m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply (wp_wand_r frame (wpE (defs₀ (F := F)) Variants.none c none) Set.univ)
      isplitl [H0 H1 H2 H3 H4 H5 H6 HS]
      · iapply (body_last c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (by omega) (blockAt m c 0 t) (blockAt m c 1 t) (blockAt m c 2 t) (blockAt m c 3 t) (blockAt m c 4 t) (blockAt m c 5 t) ((dat m c).before 6 t d6) (acc m c (t.val - 1)))
        isplitl [H0]; · iexact H0
        isplitl [H1]; · iexact H1
        isplitl [H2]; · iexact H2
        isplitl [H3]; · iexact H3
        isplitl [H4]; · iexact H4
        isplitl [H5]; · iexact H5
        isplitl [H6]; · iexact H6
        iexact HS
      iintro %_ ⟨H0, H1, H2, H3, H4, H5, H6, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point
      rw [Dat.leavesExact_idle (dat m c) 6 t (out_idle t h3) (out_unflushed t h3)]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply (wp_wand_r frame (wpE (defs₀ (F := F)) Variants.none c none) Set.univ)
      isplitl [H0 H1 H2 H3 H4 H5 H6 HS]
      · iapply (body_middle c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (by omega) (by omega) (blockAt m c 0 t) (blockAt m c 1 t) (blockAt m c 2 t) (blockAt m c 3 t) (blockAt m c 4 t) (blockAt m c 5 t) ((dat m c).before 6 t d6) (acc m c (t.val - 1)))
        isplitl [H0]; · iexact H0
        isplitl [H1]; · iexact H1
        isplitl [H2]; · iexact H2
        isplitl [H3]; · iexact H3
        isplitl [H4]; · iexact H4
        isplitl [H5]; · iexact H5
        isplitl [H6]; · iexact H6
        iexact HS
      iintro %_ ⟨H0, H1, H2, H3, H4, H5, H6, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The pipeline's obligation on the body, at every point. -/
theorem obligation (c : Dev nD) : BodyObligation (dat (F := F) m c) (defs₀ (F := F)) Variants.none () Set.univ := fun t => by
  rw [bigSep_W0, bigSep_W0]
  exact at_point m c t

end Cert.Kernel.Hand

end
-- ==== Proof.KBRun.lean ====
/-
  The whole program run: the host operations, the grid region under the accumulator-carrying invariant, the final
  reshape.  Every weakly fair execution terminates without a fault; the arrays the region stages end at what its
  write-backs leave, everything else as the final reshape leaves it; in particular the three argument arrays are
  untouched.
-/
import proofs.«118714_j12034498363966_1_alg».proof.Proof.KBPoint

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel.Hand

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Around the region, and the run -/

/-- What the launch lends is the invariant before the first point. -/
theorem enter (c : Dev nD) : Pipeline.ΦA spec0 c ⊢ (dat m c).Φ 0 := Idealize.SL.BI.Entails.refl _

/-- After the last point the invariant returns what was lent, the accumulator's contents forgotten. -/
theorem leave (c : Dev nD) : (dat m c).Φ (Fin.last cfg0.N) ⊢ Pipeline.ΦA spec0 c := by
  rw [show (dat m c).Φ (Fin.last cfg0.N) = inv m c (3 + 1) from by
    show inv m c (Fin.last cfg0.N).val = _; rw [Fin.val_last, four_points], lent_eq]
  show iprop(owns (c : Thread nD τ) accM fullShare (acc m c 3) ∗ (∃ r, prngReg c r)) ⊢ _
  iintro ⟨HS, Hg⟩
  isplitl [HS]
  · iexists _; iexact HS
  iexact Hg

set_option backward.isDefEq.respectTransparency.types false in
/-- Every weakly fair execution of the program terminates without a fault; at the end each staged array holds what the
    pipeline's write-backs leave in it, and every other unscoped buffer what the final reshape leaves. -/
theorem run : θ_run defs (onTc (τ := τ) (main (F := F))) (s₀ m ρ)
    (Pipeline.FramePost cfgs (dats m) 0 (Pipeline.afterTail₀ cfgs (dats m) 0 (entry m) [hostOps1])) :=
  Pipeline.θ_run_frame_around_track cfgs (dats m) (0 : Fin 1) launch0 defs₀ Variants.none m ρ main
    (hbody := fun c => (obligation m c).loose) (hshare := fun c => (dat m c).share_full fun _ => rfl)
    (howed := fun _ _ => rfl) (V₀ := entry m) (opss := [hostOps1]) (hsub := suffix_unscoped) (hfresh := suffix_no_alloc)
    (hkeep := suffix_keeps_arrays) (hmain := program_shape m Variants.none) (hA := fun c w => dat_A m c w)
    (hin := enter m) (hout := leave m)

/-- The program terminates, faults nowhere, and leaves its three argument arrays as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => args_at_end m (dats m) r h c) (run m ρ)

end Cert.Kernel.Hand

end
-- ==== Proof.KIHost.lean ====
/-
  The program outside its grid region.

  Two hundred host operations come first: for each of the two interval families they normalise the interval
  coordinates, gather the birth and the death value of every interval from the image and flatten the result to
  64 rows (batch × class) of 8192 intervals; they also build, per family, the 0/1 mask of the expected intervals
  (interval n of class c is expected when n is below that class's count).  Those six arrays are what the region's
  six input windows read.  After the region a single reshape turns its 1×1 result into the scalar result.

  Nothing here looks inside those operations.  What is needed of them is only where they write: none allocates,
  none writes an argument array, and the final reshape writes the scalar result alone.
-/
import proofs.«118714_j12034498363966_1_alg».proof.Proof.Gen.KernelIdeal.Launch
import proofs.«118714_j12034498363966_1_alg».proof.Proof.Gen.KernelIdeal.Skeleton
import proofs.«118714_j12034498363966_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.WritesUnit

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Hand

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the buffers of core `c` hold when the region starts: the launch memory after the host operations.  Outside this
    module it is never opened: what the rest of the proof needs of it are the theorems below. -/
def entry (c : Dev nD) : Valuation τ sig (Elt F) := StableHlo.after (List.flatten [hostOps0]) (fun b => m (c, b))

/-- The same without the list of stretches. -/
theorem entry_eq_after (c : Dev nD) : entry m c = StableHlo.after (hostOps0 (F := F)) (fun b => m (c, b)) := by
  unfold entry; simp only [List.flatten_cons, List.flatten_nil, List.append_nil]

/-- The host operations before the region allocate nothing. -/
theorem no_alloc_before : ([hostOps0] : List (List (HloOp τ sig (Elt F)))).Forall fun ops => ops.Forall fun op => op.fresh = ∅ := by
  simp only [hostOps0, List.Forall]; repeat' constructor

/-- The program is the host operations, then the region, then the reshape; at the region the buffers hold `entry`. -/
theorem program_shape (𝒱₀ : Variants) :
    Pipeline.HMainK (Ix := Unit) (Name := ℕ) (U := UR sig nD τ) (Lvl := ℕ) cfgs 0 defs₀ 𝒱₀ m (main (F := F))
      (fun c b => entry m c (Proc.devRef .tc b)) (fun _ => Pipeline.chain [StableHlo.seq hostOps1]) :=
  Pipeline.hmain_around cfgs 0 defs₀ 𝒱₀ m main [hostOps0] [hostOps1] (by simp only [List.Forall]; exact hostOps0_sub)
    no_alloc_before main_chain

set_option maxHeartbeats 8000000 in
/-- Every host operation before the region writes a buffer of its own, never an argument array: each argument is found
    by the region as it was launched. -/
theorem args_at_entry (c : Dev nD) (b : Ref sig .tc) (hb : b = main_arg0 ∨ b = main_arg1 ∨ b = main_arg2) :
    (entry m c (Proc.devRef .tc b) : Buf (Elt F) ((c : Thread nD τ).loc b)) = m ((c : Thread nD τ).loc b) := by
  unfold entry
  refine StableHlo.after_of_forall_not_mem (b := Proc.devRef .tc b) _ _ (List.forall_iff_forall_mem.mp ?_)
  rcases hb with rfl | rfl | rfl
  all_goals
    simp only [hostOps0, List.flatten_cons, List.flatten_nil, List.append_nil, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)

/-! ## The reshape after the region -/

/-- Its one operation, by membership. -/
theorem mem_suffix {ops : List (HloOp τ sig (Elt F))} (hops : ops ∈ ([hostOps1] : List (List (HloOp τ sig (Elt F))))) {op : HloOp τ sig (Elt F)}
    (hop : op ∈ ops) : op = StableHlo.reshape main_v164 main_v165 rfl shapeCasts_S1x1_S_ := by
  simp only [List.mem_cons, List.mem_nil_iff, or_false] at hops
  subst hops
  simpa only [hostOps1, List.mem_cons, List.mem_nil_iff, or_false] using hop

/-- It touches unscoped buffers only, -/
theorem suffix_unscoped : ∀ ops ∈ ([hostOps1] : List (List (HloOp τ sig (Elt F)))), ∀ op ∈ ops,
    op.bufs ⊆ Pipeline.tailRefs sig Pipeline.Prefetch.none spec0 := by
  intro ops hops op hop
  rw [Pipeline.tailRefs_none spec0 launch0.win.arr_unscoped, mem_suffix hops hop]
  exact Pipeline.sub_ucRefs _ (StableHlo.reshape_bufs_sub ..)
/-- allocates nothing, -/
theorem suffix_no_alloc : ∀ ops ∈ ([hostOps1] : List (List (HloOp τ sig (Elt F)))), ∀ op ∈ ops, op.fresh = ∅ := by
  intro ops hops op hop
  rw [mem_suffix hops hop]; rfl
/-- and writes the scalar result, which no window stages. -/
theorem suffix_keeps_arrays : ∀ ops ∈ ([hostOps1] : List (List (HloOp τ sig (Elt F)))), ∀ op ∈ ops,
    ∀ w, Proc.devRef .tc (Pipeline.arrRef spec0 w) ∉ op.writes := by
  intro ops hops op hop w
  rw [mem_suffix hops hop, StableHlo.reshape_writes, Finset.mem_singleton]
  fin_cases w <;> exact StableHlo.devRef_ne_of_ne (by decide)

/-- After the whole program a buffer that no window stages and that is not the scalar result holds what it held when
    the region started. -/
theorem unstaged_at_end {U' : Type} [URA U'] (dats : (p : Fin 1) → (c : Dev nD) → Dat τ (Elt F) Unit ℕ U' ℕ (cfgs p) c) (c : Dev nD) (b : Ref sig .tc)
    (hb : ∀ w, Pipeline.arrRef spec0 w ≠ b) (hne : b ≠ main_v165) :
    Pipeline.afterTail₀ cfgs dats 0 (entry m) [hostOps1] c b = entry m c (Proc.devRef .tc b) := by
  unfold Pipeline.afterTail₀
  refine (StableHlo.after_of_forall_not_mem (b := Proc.devRef .tc b) _ _ ?_).trans (Pipeline.withArrays_of_ne _ c _ _ b hb)
  intro op hop
  have : op = StableHlo.reshape main_v164 main_v165 rfl shapeCasts_S1x1_S_ := by
    simpa only [hostOps1, List.flatten_cons, List.flatten_nil, List.append_nil, List.mem_cons, List.mem_nil_iff, or_false] using hop
  rw [this, StableHlo.reshape_writes, Finset.mem_singleton]
  exact StableHlo.devRef_ne_of_ne hne

/-- Hence the three argument arrays end as launched, whatever the region does with its own arrays. -/
theorem args_at_end (dats : (p : Fin 1) → (c : Dev nD) → Dat τ (Elt F) Unit ℕ (UR sig nD τ) ℕ (cfgs p) c)
    (r : PUnit × MemSt nD τ sig (Elt F))
    (h : Pipeline.FramePost cfgs dats 0 (Pipeline.afterTail₀ cfgs dats 0 (entry m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 rfl (by decide))).trans
      ((unstaged_at_end m dats c main_arg0 (by decide) (by decide)).trans (args_at_entry m c main_arg0 (.inl rfl))),
   ((h c).2 main_arg1 (Pipeline.mem_restRefs_of main_arg1 rfl (by decide))).trans
      ((unstaged_at_end m dats c main_arg1 (by decide) (by decide)).trans (args_at_entry m c main_arg1 (.inr (.inl rfl)))),
   ((h c).2 main_arg2 (Pipeline.mem_restRefs_of main_arg2 rfl (by decide))).trans
      ((unstaged_at_end m dats c main_arg2 (by decide) (by decide)).trans (args_at_entry m c main_arg2 (.inr (.inr rfl))))⟩

-- From here on the entry contents are a black box: the theorems above are all that is used of them.
attribute [irreducible] entry

end Cert.KernelIdeal.Hand

end
-- ==== Proof.KIBody.lean ====
/-
  The kernel body at one grid point.

  At every point the body reads six blocks of sixteen rows by 8192 lanes — birth, death and mask of the first interval
  family, then of the second — forms for each family the array  d + g·(1 − 2·d)  with  d = (birth − death)²,  sums it
  over lanes and then over rows, and adds the two sums to a one-cell accumulator that lives in scratch memory across
  the grid.  At the first point the accumulator is set to zero before the addition; at the last point its new contents
  are also copied to the output's one-cell staging buffer.

  `step` is that update as one function of the six blocks and the accumulator's old contents, `zeroAcc` the zero it
  starts from.  The three theorems say, for a first, a middle and the last point, that the body terminates without a
  fault, hands back every input buffer as it found it, leaves the accumulator at `step … old`, and leaves the output's
  staging buffer untouched except at the last point, where it too holds `step … old`.
-/
import proofs.«118714_j12034498363966_1_alg».proof.Proof.Gen.KernelIdeal.Launch
import proofs.«118714_j12034498363966_1_alg».proof.Proof.Gen.KernelIdeal.Skeleton
import proofs.«118714_j12034498363966_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.WritesUnit
import Idealize.ShloMosaic.Lib.Pipeline.Value

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Hand

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulator after one point: its old contents plus the two block sums. -/
def step (x0 x1 x2 x3 x4 x5 : Vec F S16x8192 .f32) (old : Vec F S1x1 .f32) : Vec F S1x1 .f32 :=
  k0_pay1 (k0_pay3 x0 x1 x2) (k0_pay4 x3 x4 x5) old

/-- The zero the accumulator is reset to at the first point. -/
def zeroAcc : Vec F S1x1 .f32 := k0_pay2

/-! ## The two conditionals, by the grid coordinate -/

/-- The body's test "this is point 0", as it computes it. -/
abbrev atFirst (i : grid0.Coords) : Prop :=
  (Scalar.cmpi .ne (Scalar.extui (Scalar.cmpi .eq (BitVec.ofNat 32 (i 0).val) 0#32)) 0#32) = 1#1

theorem atFirst_of (i : grid0.Coords) (h : (i 0).val = 0) : atFirst i := by revert h; revert i; decide +kernel
theorem not_atFirst_of (i : grid0.Coords) (h : (i 0).val ≠ 0) : ¬atFirst i := by revert h; revert i; decide +kernel
/-- The body's test "this is point 3" is the printed `k0_cond2`. -/
theorem atLast_of (i : grid0.Coords) (h : (i 0).val = 3) : k0_cond2 i = 1#1 := by revert h; revert i; decide +kernel
theorem not_atLast_of (i : grid0.Coords) (h : (i 0).val ≠ 3) : ¬k0_cond2 i = 1#1 := by revert h; revert i; decide +kernel

/-- Every load and store of the body goes through the whole buffer: offsets zero on both axes. -/
theorem zero_offsets : (![0, 0] : Fin 2 → ℕ) = fun _ => 0 := by funext a; fin_cases a <;> rfl

/-- In a one-cell buffer, what is read after a store of the whole cell is what was stored, whatever came before. -/
theorem cell_after_store (v : View sig .tc .vmem S1x1 .f32) (f : v.ty.Contents (Elt F)) (w : Vec F S1x1 .f32)
    (L : List (View.Piece (Elt F) S1x1 .f32)) :
    v.read (Elt F) (v.writes (Elt F) f ((⟨Rect.unit ![0, 0] ![1, 1] inb_S1x1_S1x1_0_0, w⟩ : View.Piece (Elt F) S1x1 .f32) :: L)) = w :=
  funext fun y => View.read_writes_cons_unit_of_mem v f inb_S1x1_S1x1_0_0 w L y y rfl
    (fun a => by fin_cases a <;> exact (Nat.zero_add _).symm)

/-! ## The three kinds of point -/

set_option maxHeartbeats 4000000 in
/-- A point that is neither first nor last: the accumulator goes from `old` to `step … old`; nothing else changes. -/
theorem body_middle (c : Dev nD) (i : grid0.Coords) (a1 : Memref sig .tc .vmem S16x8192 .f32) (h1 : a1.IsWhole) (a2 : Memref sig .tc .vmem S16x8192 .f32) (h2 : a2.IsWhole) (a3 : Memref sig .tc .vmem S16x8192 .f32) (h3 : a3.IsWhole) (a4 : Memref sig .tc .vmem S16x8192 .f32) (h4 : a4.IsWhole) (a5 : Memref sig .tc .vmem S16x8192 .f32) (h5 : a5.IsWhole) (a6 : Memref sig .tc .vmem S16x8192 .f32) (h6 : a6.IsWhole) (a7 : Memref sig .tc .vmem S1x1 .f32) (h7 : a7.IsWhole) (a8 : Memref sig .tc .vmem S1x1 .f32) (h8 : a8.IsWhole)
    (hnf : (i 0).val ≠ 0) (hnl : (i 0).val ≠ 3)
    (x0 : Vec F S16x8192 .f32) (x1 : Vec F S16x8192 .f32) (x2 : Vec F S16x8192 .f32) (x3 : Vec F S16x8192 .f32) (x4 : Vec F S16x8192 .f32) (x5 : Vec F S16x8192 .f32) (xo old : Vec F S1x1 .f32) :
    (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare xo ∗ owns (c : Thread nD τ) a8 fullShare old) : sProp 𝕄)
      ⊢ wp frame (wpE (defs₀ (F := F)) Variants.none c none) Set.univ (cc0__bd_loss_kernel i a1 h1 a2 h2 a3 h3 a4 h4 a5 h5 a6 h6 a7 h7 a8 h8)
          (fun _ => iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare xo ∗ owns (c : Thread nD τ) a8 fullShare (step x0 x1 x2 x3 x4 x5 old))) := by
  simp only [cc0__bd_loss_kernel_eq_skeleton]; unfold cc0__bd_loss_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩⟩
  obtain rfl := h1.eq_unread hf0; obtain rfl := h2.eq_unread hf1; obtain rfl := h3.eq_unread hf2; obtain rfl := h4.eq_unread hf3; obtain rfl := h5.eq_unread hf4; obtain rfl := h6.eq_unread hf5; obtain rfl := h7.eq_unread hf6; obtain rfl := h8.eq_unread hfs
  sl_exec (disch := first | exact not_atFirst_of i hnf | exact not_atLast_of i hnl)
  sl_step
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  isplitl [H5]
  · iexists _; isplitr; · ipureintro; exact h6.read_unread _
    iexact H5
  isplitl [H6]
  · iexists _; isplitr; · ipureintro; exact h7.read_unread _
    iexact H6
  iexists _; isplitr
  swap; · iexact HS
  ipureintro
  refine (cell_after_store a8.view _ _ []).trans ?_
  sl_unfold_run_names
  simp only [View.readAt_eq_ld, h1.read_unread, h2.read_unread, h3.read_unread, h4.read_unread, h5.read_unread, h6.read_unread, h7.read_unread, h8.read_unread,
    View.ld_unit_zero (S := S16x8192) zero_offsets, View.ld_unit_zero (S := S1x1) zero_offsets]
  rfl

set_option maxHeartbeats 4000000 in
/-- The first point: the accumulator, whatever it held, goes to `step … zeroAcc`. -/
theorem body_first (c : Dev nD) (i : grid0.Coords) (a1 : Memref sig .tc .vmem S16x8192 .f32) (h1 : a1.IsWhole) (a2 : Memref sig .tc .vmem S16x8192 .f32) (h2 : a2.IsWhole) (a3 : Memref sig .tc .vmem S16x8192 .f32) (h3 : a3.IsWhole) (a4 : Memref sig .tc .vmem S16x8192 .f32) (h4 : a4.IsWhole) (a5 : Memref sig .tc .vmem S16x8192 .f32) (h5 : a5.IsWhole) (a6 : Memref sig .tc .vmem S16x8192 .f32) (h6 : a6.IsWhole) (a7 : Memref sig .tc .vmem S1x1 .f32) (h7 : a7.IsWhole) (a8 : Memref sig .tc .vmem S1x1 .f32) (h8 : a8.IsWhole)
    (hf : (i 0).val = 0)
    (x0 : Vec F S16x8192 .f32) (x1 : Vec F S16x8192 .f32) (x2 : Vec F S16x8192 .f32) (x3 : Vec F S16x8192 .f32) (x4 : Vec F S16x8192 .f32) (x5 : Vec F S16x8192 .f32) (xo : Vec F S1x1 .f32) :
    (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare xo ∗ (∃ d, owns (c : Thread nD τ) a8 fullShare d)) : sProp 𝕄)
      ⊢ wp frame (wpE (defs₀ (F := F)) Variants.none c none) Set.univ (cc0__bd_loss_kernel i a1 h1 a2 h2 a3 h3 a4 h4 a5 h5 a6 h6 a7 h7 a8 h8)
          (fun _ => iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare xo ∗ owns (c : Thread nD τ) a8 fullShare (step x0 x1 x2 x3 x4 x5 zeroAcc))) := by
  simp only [cc0__bd_loss_kernel_eq_skeleton]; unfold cc0__bd_loss_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩⟩
  obtain rfl := h1.eq_unread hf0; obtain rfl := h2.eq_unread hf1; obtain rfl := h3.eq_unread hf2; obtain rfl := h4.eq_unread hf3; obtain rfl := h5.eq_unread hf4; obtain rfl := h6.eq_unread hf5; obtain rfl := h7.eq_unread hf6
  sl_exec (disch := first | exact atFirst_of i hf | exact not_atLast_of i (by omega))
  sl_step
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  isplitl [H5]
  · iexists _; isplitr; · ipureintro; exact h6.read_unread _
    iexact H5
  isplitl [H6]
  · iexists _; isplitr; · ipureintro; exact h7.read_unread _
    iexact H6
  iexists _; isplitr
  swap; · iexact HS
  ipureintro
  refine (cell_after_store a8.view _ _ _).trans ?_
  sl_unfold_run_names
  simp only [View.readAt_eq_ld, h1.read_unread, h2.read_unread, h3.read_unread, h4.read_unread, h5.read_unread, h6.read_unread, h7.read_unread, h8.read_unread,
    View.ld_unit_zero (S := S16x8192) zero_offsets, View.ld_unit_zero (S := S1x1) zero_offsets]
  rw [View.readCov_unit_zero (S := S1x1) a8.view zero_offsets]
  rfl

set_option maxHeartbeats 4000000 in
/-- The last point: the accumulator goes from `old` to `step … old`, and the output's staging buffer receives the same. -/
theorem body_last (c : Dev nD) (i : grid0.Coords) (a1 : Memref sig .tc .vmem S16x8192 .f32) (h1 : a1.IsWhole) (a2 : Memref sig .tc .vmem S16x8192 .f32) (h2 : a2.IsWhole) (a3 : Memref sig .tc .vmem S16x8192 .f32) (h3 : a3.IsWhole) (a4 : Memref sig .tc .vmem S16x8192 .f32) (h4 : a4.IsWhole) (a5 : Memref sig .tc .vmem S16x8192 .f32) (h5 : a5.IsWhole) (a6 : Memref sig .tc .vmem S16x8192 .f32) (h6 : a6.IsWhole) (a7 : Memref sig .tc .vmem S1x1 .f32) (h7 : a7.IsWhole) (a8 : Memref sig .tc .vmem S1x1 .f32) (h8 : a8.IsWhole)
    (hl : (i 0).val = 3)
    (x0 : Vec F S16x8192 .f32) (x1 : Vec F S16x8192 .f32) (x2 : Vec F S16x8192 .f32) (x3 : Vec F S16x8192 .f32) (x4 : Vec F S16x8192 .f32) (x5 : Vec F S16x8192 .f32) (xo old : Vec F S1x1 .f32) :
    (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare xo ∗ owns (c : Thread nD τ) a8 fullShare old) : sProp 𝕄)
      ⊢ wp frame (wpE (defs₀ (F := F)) Variants.none c none) Set.univ (cc0__bd_loss_kernel i a1 h1 a2 h2 a3 h3 a4 h4 a5 h5 a6 h6 a7 h7 a8 h8)
          (fun _ => iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare (step x0 x1 x2 x3 x4 x5 old) ∗ owns (c : Thread nD τ) a8 fullShare (step x0 x1 x2 x3 x4 x5 old))) := by
  simp only [cc0__bd_loss_kernel_eq_skeleton]; unfold cc0__bd_loss_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩⟩
  obtain rfl := h1.eq_unread hf0; obtain rfl := h2.eq_unread hf1; obtain rfl := h3.eq_unread hf2; obtain rfl := h4.eq_unread hf3; obtain rfl := h5.eq_unread hf4; obtain rfl := h6.eq_unread hf5; obtain rfl := h7.eq_unread hf6; obtain rfl := h8.eq_unread hfs
  sl_exec (disch := first | exact not_atFirst_of i (by omega) | exact atLast_of i hl)
  sl_step
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  isplitl [H5]
  · iexists _; isplitr; · ipureintro; exact h6.read_unread _
    iexact H5
  isplitl [H6]
  · iexists _; isplitr
    swap; · iexact H6
    ipureintro
    refine (cell_after_store a7.view _ _ []).trans ?_
    sl_unfold_run_names
    simp only [View.readAt_eq_ld, h1.read_unread, h2.read_unread, h3.read_unread, h4.read_unread, h5.read_unread, h6.read_unread, h7.read_unread, h8.read_unread,
    View.ld_unit_zero (S := S16x8192) zero_offsets, View.ld_unit_zero (S := S1x1) zero_offsets]
    rw [View.readCov_unit_zero (S := S1x1) a8.view zero_offsets]
    rfl
  iexists _; isplitr
  swap; · iexact HS
  ipureintro
  sl_unfold_run_names
  refine (cell_after_store a8.view _ _ []).trans ?_
  simp only [View.readAt_eq_ld, h1.read_unread, h2.read_unread, h3.read_unread, h4.read_unread, h5.read_unread, h6.read_unread, h7.read_unread, h8.read_unread,
    View.ld_unit_zero (S := S16x8192) zero_offsets, View.ld_unit_zero (S := S1x1) zero_offsets]
  rfl

end Cert.KernelIdeal.Hand

end
-- ==== Proof.KIAcc.lean ====
/-
  The grid region.

  The grid has four points; point t reads rows 16·t … 16·t + 15 of each of the six 64-row arrays.  Writing
  B t for the six blocks of point t, the accumulator after point t is

      acc 0 = step (B 0) zeroAcc,      acc (t + 1) = step (B (t + 1)) (acc t),

  so after the last point it holds the zero it was reset to plus, point by point, the two block sums.  The output's
  one-cell array receives acc 3 when the pipeline writes the staging buffer back after the last point.

  The region's invariant carries the accumulator: on entry it is whatever the launch lends, before point t + 1 it
  is owned at acc t.  With the three body theorems this discharges the pipeline's obligation at every point, and the
  library's launch theorem for a region whose invariant changes from point to point runs the whole program.
-/
import proofs.«118714_j12034498363966_1_alg».proof.Proof.KIHost
import proofs.«118714_j12034498363966_1_alg».proof.Proof.KIBody

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Hand

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Blocks and the accumulator -/

/-- Window `w`'s block at point `t`, read off the array the region finds. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Proc.devRef .tc (Pipeline.arrRef spec0 w)))

theorem four_points : cfg0.N = 4 := N_0

/-- Grid point number `n` (numbers are taken modulo four, so that the accumulator below is defined for every `n`). -/
def pt (n : ℕ) : Fin cfg0.N := ⟨n % 4, lt_of_lt_of_eq (Nat.mod_lt _ (by decide)) four_points.symm⟩

theorem pt_val (t : Fin cfg0.N) : pt t.val = t :=
  Fin.ext (Nat.mod_eq_of_lt (lt_of_lt_of_eq t.isLt four_points))

/-- The accumulator after point `n`. -/
def acc (c : Dev nD) : ℕ → Vec F S1x1 .f32
  | 0 => step (blockAt m c 0 (pt 0)) (blockAt m c 1 (pt 0)) (blockAt m c 2 (pt 0)) (blockAt m c 3 (pt 0)) (blockAt m c 4 (pt 0)) (blockAt m c 5 (pt 0)) zeroAcc
  | n + 1 => step (blockAt m c 0 (pt (n + 1))) (blockAt m c 1 (pt (n + 1))) (blockAt m c 2 (pt (n + 1))) (blockAt m c 3 (pt (n + 1))) (blockAt m c 4 (pt (n + 1))) (blockAt m c 5 (pt (n + 1))) (acc c n)

/-- The accumulator: the kernel's one-cell scratch buffer. -/
abbrev accM : Memref sig .tc .vmem S1x1 .f32 := Memref.whole cc0_scratch0

/-- The region's invariant before position `n`. -/
def inv (c : Dev nD) : ℕ → sProp 𝕄
  | 0 => Pipeline.ΦA spec0 c
  | n + 1 => iprop(owns (c : Thread nD τ) accM fullShare (acc m c n) ∗ (∃ r, prngReg c r))

/-- What the launch lends the region besides the windows: the accumulator at some contents, and the generator register. -/
theorem lent_eq (c : Dev nD) :
    (Pipeline.ΦA spec0 c : sProp 𝕄) = iprop((∃ d, owns (c : Thread nD τ) accM fullShare d) ∗ (∃ r, prngReg c r)) := by
  unfold Pipeline.ΦA; rw [scopedRest0_eq]; simp only [accM, owns_whole]; try rfl

/-! ## The pipeline's proof data -/

/-- On core `c`: each window's array as the region finds it; after the body at point `t` every input's staging buffer
    still holds its block and the output's holds the accumulator's contents (consulted only at the last point, the one
    point where the body stores into it and the pipeline writes it back); full shares, nothing owed. -/
def dat (c : Dev nD) : Dat τ (Elt F) Unit ℕ (UR sig nD τ) ℕ cfg0 c where
  A w := entry m c (Proc.devRef .tc (Pipeline.arrRef spec0 w))
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => acc m c t.val
  Φ t := inv m c t.val
  q _ := fullShare
  owed _ := 0

/-- The family the launch theorem takes: one pipeline. -/
abbrev dats (_ : Fin 1) (c : Dev nD) : Dat τ (Elt F) Unit ℕ (UR sig nD τ) ℕ cfg0 c := dat m c

theorem dat_A (c : Dev nD) (w : Fin cfg0.W) : (dat m c).A w = entry m c (Proc.devRef .tc (Pipeline.arrRef spec0 w)) := rfl

/-- For any proof data whose body leaves an input's block in place, that input's staging buffer holds its block of the
    data's array whenever the body starts, fetched at that point or not: the six inputs are never idle and are not
    clipped, and an unfetched point has the block index of the point before.  One statement per input window (the block's
    index type reduces only for a literal window), over abstract data so that the array stays a variable. -/
theorem found_0 {c : Dev nD} (D : Dat τ (Elt F) Unit ℕ (UR sig nD τ) ℕ cfg0 c)
    (hafter : ∀ t, D.after 0 t = ((cfg0.win 0).blk t).view.read (Elt F) (D.A 0)) (t : Fin cfg0.N) (d) :
    D.before 0 t d = ((cfg0.win 0).blk t).view.read (Elt F) (D.A 0) :=
  (D.before_in_eq_fetched 0 rfl (fun _ => rfl) (fun _ _ _ => rfl) (fun t => by rw [hafter t]; rfl) t d).trans rfl
theorem found_1 {c : Dev nD} (D : Dat τ (Elt F) Unit ℕ (UR sig nD τ) ℕ cfg0 c)
    (hafter : ∀ t, D.after 1 t = ((cfg0.win 1).blk t).view.read (Elt F) (D.A 1)) (t : Fin cfg0.N) (d) :
    D.before 1 t d = ((cfg0.win 1).blk t).view.read (Elt F) (D.A 1) :=
  (D.before_in_eq_fetched 1 rfl (fun _ => rfl) (fun _ _ _ => rfl) (fun t => by rw [hafter t]; rfl) t d).trans rfl
theorem found_2 {c : Dev nD} (D : Dat τ (Elt F) Unit ℕ (UR sig nD τ) ℕ cfg0 c)
    (hafter : ∀ t, D.after 2 t = ((cfg0.win 2).blk t).view.read (Elt F) (D.A 2)) (t : Fin cfg0.N) (d) :
    D.before 2 t d = ((cfg0.win 2).blk t).view.read (Elt F) (D.A 2) :=
  (D.before_in_eq_fetched 2 rfl (fun _ => rfl) (fun _ _ _ => rfl) (fun t => by rw [hafter t]; rfl) t d).trans rfl
theorem found_3 {c : Dev nD} (D : Dat τ (Elt F) Unit ℕ (UR sig nD τ) ℕ cfg0 c)
    (hafter : ∀ t, D.after 3 t = ((cfg0.win 3).blk t).view.read (Elt F) (D.A 3)) (t : Fin cfg0.N) (d) :
    D.before 3 t d = ((cfg0.win 3).blk t).view.read (Elt F) (D.A 3) :=
  (D.before_in_eq_fetched 3 rfl (fun _ => rfl) (fun _ _ _ => rfl) (fun t => by rw [hafter t]; rfl) t d).trans rfl
theorem found_4 {c : Dev nD} (D : Dat τ (Elt F) Unit ℕ (UR sig nD τ) ℕ cfg0 c)
    (hafter : ∀ t, D.after 4 t = ((cfg0.win 4).blk t).view.read (Elt F) (D.A 4)) (t : Fin cfg0.N) (d) :
    D.before 4 t d = ((cfg0.win 4).blk t).view.read (Elt F) (D.A 4) :=
  (D.before_in_eq_fetched 4 rfl (fun _ => rfl) (fun _ _ _ => rfl) (fun t => by rw [hafter t]; rfl) t d).trans rfl
theorem found_5 {c : Dev nD} (D : Dat τ (Elt F) Unit ℕ (UR sig nD τ) ℕ cfg0 c)
    (hafter : ∀ t, D.after 5 t = ((cfg0.win 5).blk t).view.read (Elt F) (D.A 5)) (t : Fin cfg0.N) (d) :
    D.before 5 t d = ((cfg0.win 5).blk t).view.read (Elt F) (D.A 5) :=
  (D.before_in_eq_fetched 5 rfl (fun _ => rfl) (fun _ _ _ => rfl) (fun t => by rw [hafter t]; rfl) t d).trans rfl

/-- So for the region's data: every input's staging buffer holds its block when the body starts. -/
theorem input_found_0 (c : Dev nD) (t : Fin cfg0.N) (d) : (dat m c).before 0 t d = blockAt m c 0 t :=
  found_0 (dat m c) (fun _ => rfl) t d
theorem input_found_1 (c : Dev nD) (t : Fin cfg0.N) (d) : (dat m c).before 1 t d = blockAt m c 1 t :=
  found_1 (dat m c) (fun _ => rfl) t d
theorem input_found_2 (c : Dev nD) (t : Fin cfg0.N) (d) : (dat m c).before 2 t d = blockAt m c 2 t :=
  found_2 (dat m c) (fun _ => rfl) t d
theorem input_found_3 (c : Dev nD) (t : Fin cfg0.N) (d) : (dat m c).before 3 t d = blockAt m c 3 t :=
  found_3 (dat m c) (fun _ => rfl) t d
theorem input_found_4 (c : Dev nD) (t : Fin cfg0.N) (d) : (dat m c).before 4 t d = blockAt m c 4 t :=
  found_4 (dat m c) (fun _ => rfl) t d
theorem input_found_5 (c : Dev nD) (t : Fin cfg0.N) (d) : (dat m c).before 5 t d = blockAt m c 5 t :=
  found_5 (dat m c) (fun _ => rfl) t d

/-! ## Where the point is on the grid -/

/-- The grid is one-dimensional: point `t` has coordinate `t`. -/
theorem coord_eq : ∀ t : Fin cfg0.N, ((grid0.coords t) 0).val = t.val :=
  (by decide +kernel : ∀ t : Fin grid0.N, ((grid0.coords t) 0).val = t.val)
/-- The six inputs are live at every point. -/
theorem in_live : ∀ w : Fin 7, w.val < 6 → ∀ t : Fin cfg0.N, cfg0.idle w (grid0.coords t) = false :=
  (by decide +kernel : ∀ w : Fin 7, w.val < 6 → ∀ t : Fin grid0.N, cfg0.idle w (grid0.coords t) = false)
/-- The output is idle and is not written back before the last point; at the last point it is live. -/
theorem out_idle : ∀ t : Fin cfg0.N, t.val ≠ 3 → cfg0.idle 6 (grid0.coords t) = true :=
  (by decide +kernel : ∀ t : Fin grid0.N, t.val ≠ 3 → cfg0.idle 6 (grid0.coords t) = true)
theorem out_unflushed : ∀ t : Fin cfg0.N, t.val ≠ 3 → (cfg0.win 6).flush t = false :=
  (by decide +kernel : ∀ t : Fin grid0.N, t.val ≠ 3 → win0_6.flush t = false)
theorem out_live : ∀ t : Fin cfg0.N, t.val = 3 → cfg0.idle 6 (grid0.coords t) = false :=
  (by decide +kernel : ∀ t : Fin grid0.N, t.val = 3 → cfg0.idle 6 (grid0.coords t) = false)

/-- The accumulator after the first point. -/
theorem acc_first (c : Dev nD) (t : Fin cfg0.N) (h : t.val = 0) :
    acc m c t.val = step (blockAt m c 0 t) (blockAt m c 1 t) (blockAt m c 2 t) (blockAt m c 3 t) (blockAt m c 4 t) (blockAt m c 5 t) zeroAcc := by
  have e : pt 0 = t := by rw [← h]; exact pt_val t
  rw [h]; show step (blockAt m c 0 (pt 0)) (blockAt m c 1 (pt 0)) (blockAt m c 2 (pt 0)) (blockAt m c 3 (pt 0)) (blockAt m c 4 (pt 0)) (blockAt m c 5 (pt 0)) zeroAcc = _
  rw [e]
/-- The accumulator after a later point, from the one before. -/
theorem acc_later (c : Dev nD) (t : Fin cfg0.N) (h : t.val ≠ 0) :
    acc m c t.val = step (blockAt m c 0 t) (blockAt m c 1 t) (blockAt m c 2 t) (blockAt m c 3 t) (blockAt m c 4 t) (blockAt m c 5 t) (acc m c (t.val - 1)) := by
  obtain ⟨n, hn⟩ : ∃ n, t.val = n + 1 := ⟨t.val - 1, by omega⟩
  have e : pt (n + 1) = t := by rw [← hn]; exact pt_val t
  rw [hn]; show step (blockAt m c 0 (pt (n + 1))) (blockAt m c 1 (pt (n + 1))) (blockAt m c 2 (pt (n + 1))) (blockAt m c 3 (pt (n + 1))) (blockAt m c 4 (pt (n + 1))) (blockAt m c 5 (pt (n + 1))) (acc m c n) = _
  rw [e, Nat.add_sub_cancel]

/-- What an input window's buffer is left at: its block. -/
theorem input_left_0 (c : Dev nD) (t : Fin cfg0.N) :
    (dat m c).leavesExact 0 t = owns (c : Thread nD τ) (win0_0.stage (cfg0.slots t 0)) fullShare (blockAt m c 0 t) := by
  unfold Dat.leavesExact; rw [in_live 0 (by decide) t]; rfl
theorem input_left_1 (c : Dev nD) (t : Fin cfg0.N) :
    (dat m c).leavesExact 1 t = owns (c : Thread nD τ) (win0_1.stage (cfg0.slots t 1)) fullShare (blockAt m c 1 t) := by
  unfold Dat.leavesExact; rw [in_live 1 (by decide) t]; rfl
theorem input_left_2 (c : Dev nD) (t : Fin cfg0.N) :
    (dat m c).leavesExact 2 t = owns (c : Thread nD τ) (win0_2.stage (cfg0.slots t 2)) fullShare (blockAt m c 2 t) := by
  unfold Dat.leavesExact; rw [in_live 2 (by decide) t]; rfl
theorem input_left_3 (c : Dev nD) (t : Fin cfg0.N) :
    (dat m c).leavesExact 3 t = owns (c : Thread nD τ) (win0_3.stage (cfg0.slots t 3)) fullShare (blockAt m c 3 t) := by
  unfold Dat.leavesExact; rw [in_live 3 (by decide) t]; rfl
theorem input_left_4 (c : Dev nD) (t : Fin cfg0.N) :
    (dat m c).leavesExact 4 t = owns (c : Thread nD τ) (win0_4.stage (cfg0.slots t 4)) fullShare (blockAt m c 4 t) := by
  unfold Dat.leavesExact; rw [in_live 4 (by decide) t]; rfl
theorem input_left_5 (c : Dev nD) (t : Fin cfg0.N) :
    (dat m c).leavesExact 5 t = owns (c : Thread nD τ) (win0_5.stage (cfg0.slots t 5)) fullShare (blockAt m c 5 t) := by
  unfold Dat.leavesExact; rw [in_live 5 (by decide) t]; rfl

end Cert.KernelIdeal.Hand

end
-- ==== Proof.KIPoint.lean ====
/-
  The body's obligation at a grid point.

  The pipeline hands the body, at point t, the region's invariant, the core's debt (none here) and the seven staging
  buffers, and wants them back with the invariant advanced by one point.  By the point's place on the grid — first,
  last, or in between — one of the three body theorems applies to the six blocks of the point and the accumulator's
  contents; the generator register and the debt ride along untouched.
-/
import proofs.«118714_j12034498363966_1_alg».proof.Proof.KIAcc

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Hand

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, window by window. -/
def pre (c : Dev nD) (t : Fin cfg0.N) : sProp 𝕄 :=
  iprop((dat m c).Φ t.castSucc ∗ (dat m c).owesAt () t.castSucc
    ∗ (∃ d, owns (c : Thread nD τ) (win0_0.stage (cfg0.slots t 0)) fullShare ((dat m c).before 0 t d))
    ∗ (∃ d, owns (c : Thread nD τ) (win0_1.stage (cfg0.slots t 1)) fullShare ((dat m c).before 1 t d))
    ∗ (∃ d, owns (c : Thread nD τ) (win0_2.stage (cfg0.slots t 2)) fullShare ((dat m c).before 2 t d))
    ∗ (∃ d, owns (c : Thread nD τ) (win0_3.stage (cfg0.slots t 3)) fullShare ((dat m c).before 3 t d))
    ∗ (∃ d, owns (c : Thread nD τ) (win0_4.stage (cfg0.slots t 4)) fullShare ((dat m c).before 4 t d))
    ∗ (∃ d, owns (c : Thread nD τ) (win0_5.stage (cfg0.slots t 5)) fullShare ((dat m c).before 5 t d))
    ∗ (∃ d, owns (c : Thread nD τ) (win0_6.stage (cfg0.slots t 6)) fullShare ((dat m c).before 6 t d)))

/-- What it must return. -/
def post (c : Dev nD) (t : Fin cfg0.N) : sProp 𝕄 :=
  iprop((dat m c).Φ t.succ ∗ (dat m c).owesAt () t.succ
    ∗ (dat m c).leavesExact 0 t
    ∗ (dat m c).leavesExact 1 t
    ∗ (dat m c).leavesExact 2 t
    ∗ (dat m c).leavesExact 3 t
    ∗ (dat m c).leavesExact 4 t
    ∗ (dat m c).leavesExact 5 t
    ∗ (dat m c).leavesExact 6 t)

set_option maxHeartbeats 8000000 in
/-- At every point the body meets its obligation: by the point's place on the grid one of the three body theorems
    applies to the six blocks and the accumulator's contents; the generator register and the core's debt (none) ride
    along untouched. -/
theorem at_point (c : Dev nD) (t : Fin cfg0.N) :
    pre m c t ⊢ wp frame (wpE (defs₀ (F := F)) Variants.none c none) Set.univ (bodyAt0 t) (fun _ => post m c t) := by
  unfold pre post bodyAt0
  simp only [input_found_0 m c, input_found_1 m c, input_found_2 m c, input_found_3 m c, input_found_4 m c, input_found_5 m c]
  rw [show (dat m c).owesAt () t.succ = (dat m c).owesAt () t.castSucc from rfl,
    show (dat m c).Φ t.succ = inv m c (t.val + 1) from rfl, show (dat m c).Φ t.castSucc = inv m c t.val from rfl,
    input_left_0, input_left_1, input_left_2, input_left_3, input_left_4, input_left_5]
  show iprop(inv m c t.val ∗ (dat m c).owesAt () t.castSucc
      ∗ (∃ d, owns (c : Thread nD τ) (win0_0.stage (cfg0.slots t 0)) fullShare (blockAt m c 0 t)) ∗ (∃ d, owns (c : Thread nD τ) (win0_1.stage (cfg0.slots t 1)) fullShare (blockAt m c 1 t)) ∗ (∃ d, owns (c : Thread nD τ) (win0_2.stage (cfg0.slots t 2)) fullShare (blockAt m c 2 t)) ∗ (∃ d, owns (c : Thread nD τ) (win0_3.stage (cfg0.slots t 3)) fullShare (blockAt m c 3 t)) ∗ (∃ d, owns (c : Thread nD τ) (win0_4.stage (cfg0.slots t 4)) fullShare (blockAt m c 4 t)) ∗ (∃ d, owns (c : Thread nD τ) (win0_5.stage (cfg0.slots t 5)) fullShare (blockAt m c 5 t))
      ∗ (∃ d, owns (c : Thread nD τ) (win0_6.stage (cfg0.slots t 6)) fullShare ((dat m c).before 6 t d)))
    ⊢ wp frame (wpE (defs₀ (F := F)) Variants.none c none) Set.univ _ (fun _ => iprop(inv m c (t.val + 1) ∗ (dat m c).owesAt () t.castSucc
      ∗ owns (c : Thread nD τ) (win0_0.stage (cfg0.slots t 0)) fullShare (blockAt m c 0 t) ∗ owns (c : Thread nD τ) (win0_1.stage (cfg0.slots t 1)) fullShare (blockAt m c 1 t) ∗ owns (c : Thread nD τ) (win0_2.stage (cfg0.slots t 2)) fullShare (blockAt m c 2 t) ∗ owns (c : Thread nD τ) (win0_3.stage (cfg0.slots t 3)) fullShare (blockAt m c 3 t) ∗ owns (c : Thread nD τ) (win0_4.stage (cfg0.slots t 4)) fullShare (blockAt m c 4 t) ∗ owns (c : Thread nD τ) (win0_5.stage (cfg0.slots t 5)) fullShare (blockAt m c 5 t) ∗ (dat m c).leavesExact 6 t))
  have hN : t.val < 4 := lt_of_lt_of_eq t.isLt four_points
  have hco := coord_eq t
  by_cases h0 : t.val = 0
  · -- the first point
    rw [Dat.leavesExact_idle (dat m c) 6 t (out_idle t (by omega)) (out_unflushed t (by omega))]
    rw [show inv m c t.val = Pipeline.ΦA spec0 c from by rw [h0]; rfl, lent_eq,
      show inv m c (t.val + 1) = iprop(owns (c : Thread nD τ) accM fullShare (acc m c t.val) ∗ (∃ r, prngReg c r)) from rfl,
      acc_first m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (wp_wand_r frame (wpE (defs₀ (F := F)) Variants.none c none) Set.univ)
    isplitl [H0 H1 H2 H3 H4 H5 H6 HS]
    · iapply (body_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (by omega) (blockAt m c 0 t) (blockAt m c 1 t) (blockAt m c 2 t) (blockAt m c 3 t) (blockAt m c 4 t) (blockAt m c 5 t) ((dat m c).before 6 t d6))
      isplitl [H0]; · iexact H0
      isplitl [H1]; · iexact H1
      isplitl [H2]; · iexact H2
      isplitl [H3]; · iexact H3
      isplitl [H4]; · iexact H4
      isplitl [H5]; · iexact H5
      isplitl [H6]; · iexact H6
      iexact HS
    iintro %_ ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · rw [show inv m c t.val = iprop(owns (c : Thread nD τ) accM fullShare (acc m c (t.val - 1)) ∗ (∃ r, prngReg c r)) from by
        obtain ⟨n, hn⟩ : ∃ n, t.val = n + 1 := ⟨t.val - 1, by omega⟩
        rw [hn, Nat.add_sub_cancel]; rfl,
      show inv m c (t.val + 1) = iprop(owns (c : Thread nD τ) accM fullShare (acc m c t.val) ∗ (∃ r, prngReg c r)) from rfl,
      acc_later m c t h0]
    by_cases h3 : t.val = 3
    · -- the last point
      rw [show (dat m c).leavesExact 6 t = owns (c : Thread nD τ) (win0_6.stage (cfg0.slots t 6)) fullShare (acc m c t.val) from by
        unfold Dat.leavesExact; rw [out_live t h3]; rfl, acc_later m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply (wp_wand_r frame (wpE (defs₀ (F := F)) Variants.none c none) Set.univ)
      isplitl [H0 H1 H2 H3 H4 H5 H6 HS]
      · iapply (body_last c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (by omega) (blockAt m c 0 t) (blockAt m c 1 t) (blockAt m c 2 t) (blockAt m c 3 t) (blockAt m c 4 t) (blockAt m c 5 t) ((dat m c).before 6 t d6) (acc m c (t.val - 1)))
        isplitl [H0]; · iexact H0
        isplitl [H1]; · iexact H1
        isplitl [H2]; · iexact H2
        isplitl [H3]; · iexact H3
        isplitl [H4]; · iexact H4
        isplitl [H5]; · iexact H5
        isplitl [H6]; · iexact H6
        iexact HS
      iintro %_ ⟨H0, H1, H2, H3, H4, H5, H6, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point
      rw [Dat.leavesExact_idle (dat m c) 6 t (out_idle t h3) (out_unflushed t h3)]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply (wp_wand_r frame (wpE (defs₀ (F := F)) Variants.none c none) Set.univ)
      isplitl [H0 H1 H2 H3 H4 H5 H6 HS]
      · iapply (body_middle c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (by omega) (by omega) (blockAt m c 0 t) (blockAt m c 1 t) (blockAt m c 2 t) (blockAt m c 3 t) (blockAt m c 4 t) (blockAt m c 5 t) ((dat m c).before 6 t d6) (acc m c (t.val - 1)))
        isplitl [H0]; · iexact H0
        isplitl [H1]; · iexact H1
        isplitl [H2]; · iexact H2
        isplitl [H3]; · iexact H3
        isplitl [H4]; · iexact H4
        isplitl [H5]; · iexact H5
        isplitl [H6]; · iexact H6
        iexact HS
      iintro %_ ⟨H0, H1, H2, H3, H4, H5, H6, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The pipeline's obligation on the body, at every point. -/
theorem obligation (c : Dev nD) : BodyObligation (dat (F := F) m c) (defs₀ (F := F)) Variants.none () Set.univ := fun t => by
  rw [bigSep_W0, bigSep_W0]
  exact at_point m c t

end Cert.KernelIdeal.Hand

end
-- ==== Proof.KIRun.lean ====
/-
  The whole program run: the host operations, the grid region under the accumulator-carrying invariant, the final
  reshape.  Every weakly fair execution terminates without a fault; the arrays the region stages end at what its
  write-backs leave, everything else as the final reshape leaves it; in particular the three argument arrays are
  untouched.
-/
import proofs.«118714_j12034498363966_1_alg».proof.Proof.KIPoint

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Hand

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Around the region, and the run -/

/-- What the launch lends is the invariant before the first point. -/
theorem enter (c : Dev nD) : Pipeline.ΦA spec0 c ⊢ (dat m c).Φ 0 := Idealize.SL.BI.Entails.refl _

/-- After the last point the invariant returns what was lent, the accumulator's contents forgotten. -/
theorem leave (c : Dev nD) : (dat m c).Φ (Fin.last cfg0.N) ⊢ Pipeline.ΦA spec0 c := by
  rw [show (dat m c).Φ (Fin.last cfg0.N) = inv m c (3 + 1) from by
    show inv m c (Fin.last cfg0.N).val = _; rw [Fin.val_last, four_points], lent_eq]
  show iprop(owns (c : Thread nD τ) accM fullShare (acc m c 3) ∗ (∃ r, prngReg c r)) ⊢ _
  iintro ⟨HS, Hg⟩
  isplitl [HS]
  · iexists _; iexact HS
  iexact Hg

set_option backward.isDefEq.respectTransparency.types false in
/-- Every weakly fair execution of the program terminates without a fault; at the end each staged array holds what the
    pipeline's write-backs leave in it, and every other unscoped buffer what the final reshape leaves. -/
theorem run : θ_run defs (onTc (τ := τ) (main (F := F))) (s₀ m ρ)
    (Pipeline.FramePost cfgs (dats m) 0 (Pipeline.afterTail₀ cfgs (dats m) 0 (entry m) [hostOps1])) :=
  Pipeline.θ_run_frame_around_track cfgs (dats m) (0 : Fin 1) launch0 defs₀ Variants.none m ρ main
    (hbody := fun c => (obligation m c).loose) (hshare := fun c => (dat m c).share_full fun _ => rfl)
    (howed := fun _ _ => rfl) (V₀ := entry m) (opss := [hostOps1]) (hsub := suffix_unscoped) (hfresh := suffix_no_alloc)
    (hkeep := suffix_keeps_arrays) (hmain := program_shape m Variants.none) (hA := fun c w => dat_A m c w)
    (hin := enter m) (hout := leave m)

/-- The program terminates, faults nowhere, and leaves its three argument arrays as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => args_at_end m (dats m) r h c) (run m ρ)

end Cert.KernelIdeal.Hand

end
-- ==== Proof.KIBlocks.lean ====
/-
  Where each window's block sits in its array.

  The six input arrays have 64 rows of 8192 lanes and are read in four blocks of sixteen rows: the block at
  grid point `t` is rows `16 t … 16 t + 15`, every lane.  The output is one cell, its block is the cell at every
  point, and the only point that writes it back is the last one, so that point's block covers the array.
-/
import proofs.«118714_j12034498363966_1_alg».proof.Proof.Gen.KernelIdeal
import proofs.«118714_j12034498363966_1_alg».proof.Proof.Gen.KernelIdeal.Launch
import proofs.«118714_j12034498363966_1_alg».proof.Proof.Gen.KernelIdeal.Points
import Idealize.ShloMosaic.Lib.Pipeline.Value
import Idealize.ShloMosaic.Lib.ValueIdx

noncomputable section

open Idealize.ShloMosaic Idealize.ShloMosaic.TcCoe Idealize.SL.Sem
open Idealize.ShloMosaic.ValueIdx

namespace Cert.KernelIdeal.Blocks

open Cert.KernelIdeal Cert.KernelIdeal.Gen

variable {F : FTy → Type} [FloatOps F]

/-- Row `r` of the block at point `t` is a row of the array. -/
theorem row_lt (t : Fin cfg0.N) (r : Fin 16) : 16 * t.val + r.val < 64 := by
  have h : t.val < grid0.N := t.isLt
  rw [N_0] at h
  omega

/-- Window 0's block index at point `t` is `(t, 0)`. -/
theorem index0 : ∀ t : Fin grid0.N, win0_0.index t 0 = t.val ∧ win0_0.index t 1 = 0 := by decide +kernel

/-- Window 0: the block at point `t` is rows `16 t … 16 t + 15` of the array, every lane. -/
theorem blk0_apply (c : Dev nD) (t : Fin cfg0.N)
    (A : Buf (Elt F) ((cfg0.win 0).arr.view.loc (c.tc : Thread nD τ))) (r : Fin 16) (l : Fin 8192) :
    ((cfg0.win 0).blk t).view.read (Elt F) A (ix2 r l)
      = (A : S64x8192.Idx → F .f32) (ix2 ⟨16 * t.val + r.val, row_lt t r⟩ l) := by
  have hi := index0 t
  rw [View.read_apply]
  refine congrArg (A : S64x8192.Idx → F .f32) ?_
  funext a
  apply Fin.ext
  match a with
  | ⟨0, _⟩ =>
    show win0_0.index t 0 * 16 + 1 * r.val = 16 * t.val + r.val
    rw [hi.1]; omega
  | ⟨1, _⟩ =>
    show win0_0.index t 1 * 8192 + 1 * l.val = l.val
    rw [hi.2]; omega

/-- Window 1's block index at point `t` is `(t, 0)`. -/
theorem index1 : ∀ t : Fin grid0.N, win0_1.index t 0 = t.val ∧ win0_1.index t 1 = 0 := by decide +kernel

/-- Window 1: the block at point `t` is rows `16 t … 16 t + 15` of the array, every lane. -/
theorem blk1_apply (c : Dev nD) (t : Fin cfg0.N)
    (A : Buf (Elt F) ((cfg0.win 1).arr.view.loc (c.tc : Thread nD τ))) (r : Fin 16) (l : Fin 8192) :
    ((cfg0.win 1).blk t).view.read (Elt F) A (ix2 r l)
      = (A : S64x8192.Idx → F .f32) (ix2 ⟨16 * t.val + r.val, row_lt t r⟩ l) := by
  have hi := index1 t
  rw [View.read_apply]
  refine congrArg (A : S64x8192.Idx → F .f32) ?_
  funext a
  apply Fin.ext
  match a with
  | ⟨0, _⟩ =>
    show win0_1.index t 0 * 16 + 1 * r.val = 16 * t.val + r.val
    rw [hi.1]; omega
  | ⟨1, _⟩ =>
    show win0_1.index t 1 * 8192 + 1 * l.val = l.val
    rw [hi.2]; omega

/-- Window 2's block index at point `t` is `(t, 0)`. -/
theorem index2 : ∀ t : Fin grid0.N, win0_2.index t 0 = t.val ∧ win0_2.index t 1 = 0 := by decide +kernel

/-- Window 2: the block at point `t` is rows `16 t … 16 t + 15` of the array, every lane. -/
theorem blk2_apply (c : Dev nD) (t : Fin cfg0.N)
    (A : Buf (Elt F) ((cfg0.win 2).arr.view.loc (c.tc : Thread nD τ))) (r : Fin 16) (l : Fin 8192) :
    ((cfg0.win 2).blk t).view.read (Elt F) A (ix2 r l)
      = (A : S64x8192.Idx → F .f32) (ix2 ⟨16 * t.val + r.val, row_lt t r⟩ l) := by
  have hi := index2 t
  rw [View.read_apply]
  refine congrArg (A : S64x8192.Idx → F .f32) ?_
  funext a
  apply Fin.ext
  match a with
  | ⟨0, _⟩ =>
    show win0_2.index t 0 * 16 + 1 * r.val = 16 * t.val + r.val
    rw [hi.1]; omega
  | ⟨1, _⟩ =>
    show win0_2.index t 1 * 8192 + 1 * l.val = l.val
    rw [hi.2]; omega

/-- Window 3's block index at point `t` is `(t, 0)`. -/
theorem index3 : ∀ t : Fin grid0.N, win0_3.index t 0 = t.val ∧ win0_3.index t 1 = 0 := by decide +kernel

/-- Window 3: the block at point `t` is rows `16 t … 16 t + 15` of the array, every lane. -/
theorem blk3_apply (c : Dev nD) (t : Fin cfg0.N)
    (A : Buf (Elt F) ((cfg0.win 3).arr.view.loc (c.tc : Thread nD τ))) (r : Fin 16) (l : Fin 8192) :
    ((cfg0.win 3).blk t).view.read (Elt F) A (ix2 r l)
      = (A : S64x8192.Idx → F .f32) (ix2 ⟨16 * t.val + r.val, row_lt t r⟩ l) := by
  have hi := index3 t
  rw [View.read_apply]
  refine congrArg (A : S64x8192.Idx → F .f32) ?_
  funext a
  apply Fin.ext
  match a with
  | ⟨0, _⟩ =>
    show win0_3.index t 0 * 16 + 1 * r.val = 16 * t.val + r.val
    rw [hi.1]; omega
  | ⟨1, _⟩ =>
    show win0_3.index t 1 * 8192 + 1 * l.val = l.val
    rw [hi.2]; omega

/-- Window 4's block index at point `t` is `(t, 0)`. -/
theorem index4 : ∀ t : Fin grid0.N, win0_4.index t 0 = t.val ∧ win0_4.index t 1 = 0 := by decide +kernel

/-- Window 4: the block at point `t` is rows `16 t … 16 t + 15` of the array, every lane. -/
theorem blk4_apply (c : Dev nD) (t : Fin cfg0.N)
    (A : Buf (Elt F) ((cfg0.win 4).arr.view.loc (c.tc : Thread nD τ))) (r : Fin 16) (l : Fin 8192) :
    ((cfg0.win 4).blk t).view.read (Elt F) A (ix2 r l)
      = (A : S64x8192.Idx → F .f32) (ix2 ⟨16 * t.val + r.val, row_lt t r⟩ l) := by
  have hi := index4 t
  rw [View.read_apply]
  refine congrArg (A : S64x8192.Idx → F .f32) ?_
  funext a
  apply Fin.ext
  match a with
  | ⟨0, _⟩ =>
    show win0_4.index t 0 * 16 + 1 * r.val = 16 * t.val + r.val
    rw [hi.1]; omega
  | ⟨1, _⟩ =>
    show win0_4.index t 1 * 8192 + 1 * l.val = l.val
    rw [hi.2]; omega

/-- Window 5's block index at point `t` is `(t, 0)`. -/
theorem index5 : ∀ t : Fin grid0.N, win0_5.index t 0 = t.val ∧ win0_5.index t 1 = 0 := by decide +kernel

/-- Window 5: the block at point `t` is rows `16 t … 16 t + 15` of the array, every lane. -/
theorem blk5_apply (c : Dev nD) (t : Fin cfg0.N)
    (A : Buf (Elt F) ((cfg0.win 5).arr.view.loc (c.tc : Thread nD τ))) (r : Fin 16) (l : Fin 8192) :
    ((cfg0.win 5).blk t).view.read (Elt F) A (ix2 r l)
      = (A : S64x8192.Idx → F .f32) (ix2 ⟨16 * t.val + r.val, row_lt t r⟩ l) := by
  have hi := index5 t
  rw [View.read_apply]
  refine congrArg (A : S64x8192.Idx → F .f32) ?_
  funext a
  apply Fin.ext
  match a with
  | ⟨0, _⟩ =>
    show win0_5.index t 0 * 16 + 1 * r.val = 16 * t.val + r.val
    rw [hi.1]; omega
  | ⟨1, _⟩ =>
    show win0_5.index t 1 * 8192 + 1 * l.val = l.val
    rw [hi.2]; omega

/-- The output window's block index is `(0, 0)` at every point. -/
theorem index6 : ∀ t : Fin grid0.N, win0_6.index t 0 = 0 ∧ win0_6.index t 1 = 0 := by decide +kernel

/-- The output window: the block at any point is the whole one-cell array. -/
theorem blk6_read (c : Dev nD) (t : Fin cfg0.N)
    (G : Buf (Elt F) ((cfg0.win 6).arr.view.loc (c.tc : Thread nD τ))) :
    ((cfg0.win 6).blk t).view.read (Elt F) G = G := by
  have hi := index6 t
  funext x
  rw [View.read_apply]
  refine congrArg (G : S1x1.Idx → F .f32) ?_
  funext a
  apply Fin.ext
  match a with
  | ⟨0, _⟩ =>
    show win0_6.index t 0 * 1 + 1 * (x 0).val = (x 0).val
    rw [hi.1]; omega
  | ⟨1, _⟩ =>
    show win0_6.index t 1 * 1 + 1 * (x 1).val = (x 1).val
    rw [hi.2]; omega

/-- The one point that writes the output back covers the whole output array. -/
theorem cover6 (c : Dev nD) (i : ((cfg0.win 6).arr.view.loc (c.tc : Thread nD τ)).2.ty.Idx) :
    ∃ t : Fin cfg0.N, (cfg0.win 6).flush t = true ∧ i ∈ ((cfg0.win 6).blk t).view.set := by
  refine ⟨t0_3, (flush0_6 t0_3).mpr rfl, ?_⟩
  have hi := index6 t0_3
  show i ∈ ((View.whole main_v164).slice (win0_6.rect t0_3)).set
  rw [View.set_slice_whole, Rect.mem_set_unit]
  intro a
  have h0 : (i 0 : Nat) < 1 := (i 0).isLt
  have h1 : (i 1 : Nat) < 1 := (i 1).isLt
  match a with
  | ⟨0, _⟩ =>
    show win0_6.index t0_3 0 * 1 ≤ (i 0 : Nat) ∧ (i 0 : Nat) < win0_6.index t0_3 0 * 1 + 1
    rw [hi.1]; omega
  | ⟨1, _⟩ =>
    show win0_6.index t0_3 1 * 1 ≤ (i 1 : Nat) ∧ (i 1 : Nat) < win0_6.index t0_3 1 * 1 + 1
    rw [hi.2]; omega

end Cert.KernelIdeal.Blocks

end
-- ==== Proof.Spec.lean ====
/-
  The birth/death interval loss, as one function of the gathered image values.

  For each family of intervals, every (batch, class, interval) triple carries a birth value `b` and a death
  value `d` read from the image; its squared length is `(b - d)²`.  The first `th c` intervals of class `c`
  are the expected ones and contribute `1 - (b - d)²`; every other interval contributes `(b - d)²`.  The loss
  of a family is the sum of all contributions, and the total is the sum over the two families (connected
  components with thresholds 1, 1, 2, 1 per class; loops with thresholds 0, 1, 0, 2).
-/
import Idealize.ShloMosaic.PureOps.Ideal
import Idealize.ShloMosaic.Lib.ValueIdx

noncomputable section

namespace Cert.BDLoss

open Idealize.ShloMosaic

/-- (batch, class, interval). -/
abbrev T3 : Shape := ⟨3, ![16, 4, 8192]⟩

/-- Expected number of components per class. -/
def th0 (c : ℕ) : ℕ := if c = 2 then 2 else 1
/-- Expected number of loops per class. -/
def th1 (c : ℕ) : ℕ := if c = 1 then 1 else if c = 3 then 2 else 0

/-- One interval's contribution: `1 - (b - d)²` when it is an expected interval, `(b - d)²` otherwise. -/
def contrib (good : Bool) (b d : EReal) : EReal :=
  if good then 1 - (b - d) * (b - d) else (b - d) * (b - d)

/-- One family's loss: the sum over all (batch, class, interval) of the contributions, interval `n` of class
    `c` being expected when `n < th c`. -/
def loss (th : ℕ → ℕ) (B D : T3.Idx → EReal) : EReal :=
  ∑ i : T3.Idx, contrib (decide ((i 2).val < th (i 1).val)) (B i) (D i)

/-- Both families. -/
def total (B0 D0 B1 D1 : T3.Idx → EReal) : EReal :=
  loss th0 B0 D0 + loss th1 B1 D1

end Cert.BDLoss

end
-- ==== Proof.KAlgebra.lean ====
/-
  The summation algebra of the interval loss.

  The flattened arrays have one row per (batch, class) pair, row `ρ = 4 * batch + class`, and one lane per
  interval.  The accumulation walks the 64 rows in four blocks of 16 and adds, for each block, the sum of the
  pointwise term `q + g * (1 - 2 * q)` (`q = (b - d)²`, `g` the 0/1 mask of the expected intervals) over both
  families.  For real `b`, `d` the pointwise term is `1 - q` where `g = 1` and `q` where `g = 0`, and sums in the
  extended reals regroup freely, so the accumulated value is the total of `Spec.lean`.
-/
import proofs.«118714_j12034498363966_1_alg».proof.Proof.Spec

noncomputable section

open scoped BigOperators

namespace Cert.BDLoss

open Idealize.ShloMosaic Idealize.ShloMosaic.ValueIdx

/-- The flattened arrays: 64 rows (batch-major, class-minor) of 8192 intervals. -/
abbrev S64 : Shape := ⟨2, ![64, 8192]⟩

/-- Row `r` of block `t`. -/
def row (t : Fin 4) (r : Fin 16) : Fin 64 := ⟨16 * t.val + r.val, by omega⟩
/-- The batch of a flattened row. -/
def bat (ρ : Fin 64) : Fin 16 := ⟨ρ.val / 4, by omega⟩
/-- The class of a flattened row. -/
def cls (ρ : Fin 64) : Fin 4 := ⟨ρ.val % 4, by omega⟩

/-- The pointwise term: `q + g * (1 - 2 * q)` with `q = (b - d)²`. -/
def kterm (b d g : EReal) : EReal := (b - d) * (b - d) + g * (1 - 2 * ((b - d) * (b - d)))

/-- The sum of the pointwise term over the 16 rows of block `t`. -/
def blockSum (b d g : S64.Idx → EReal) (t : Fin 4) : EReal :=
  ∑ r : Fin 16, ∑ l : Fin 8192, kterm (b (ix2 (row t r) l)) (d (ix2 (row t r) l)) (g (ix2 (row t r) l))

/-- On real values the pointwise term with a 0/1 mask is the contribution of `Spec.lean`. -/
theorem kterm_real (x y : ℝ) (p : Prop) [Decidable p] :
    kterm (x : EReal) (y : EReal) (if p then 1 else 0) = contrib (decide p) (x : EReal) (y : EReal) := by
  unfold kterm contrib
  have h2 : (2 : EReal) = ((2 : ℝ) : EReal) := rfl
  by_cases hp : p
  · simp only [hp, if_true, decide_true, one_mul]
    rw [h2, ← EReal.coe_sub, ← EReal.coe_mul, ← EReal.coe_mul, ← EReal.coe_one, ← EReal.coe_sub,
      ← EReal.coe_add, ← EReal.coe_sub]
    congr 1; ring
  · simp only [hp, if_false, decide_false, zero_mul, add_zero]
    rfl

/-- The (block, row, interval) triples enumerate the (batch, class, interval) triples: row `16 t + r` of the
    flattened array is batch `(16 t + r) / 4`, class `(16 t + r) % 4`. -/
def blockEquiv : Fin 4 × Fin 16 × Fin 8192 ≃ T3.Idx where
  toFun p := ix3 (bat (row p.1 p.2.1)) (cls (row p.1 p.2.1)) p.2.2
  invFun i :=
    (⟨(4 * (i 0).val + (i 1).val) / 16, by
        have h0 : (i 0).val < 16 := (i 0).isLt
        have h1 : (i 1).val < 4 := (i 1).isLt
        omega⟩,
     ⟨(4 * (i 0).val + (i 1).val) % 16, by omega⟩,
     i 2)
  left_inv := by
    rintro ⟨t, r, l⟩
    have ht := t.isLt
    have hr := r.isLt
    refine Prod.ext (Fin.ext ?_) (Prod.ext (Fin.ext ?_) rfl)
    · show (4 * ((16 * t.val + r.val) / 4) + (16 * t.val + r.val) % 4) / 16 = t.val
      omega
    · show (4 * ((16 * t.val + r.val) / 4) + (16 * t.val + r.val) % 4) % 16 = r.val
      omega
  right_inv := by
    intro i
    have h0 : (i 0).val < 16 := (i 0).isLt
    have h1 : (i 1).val < 4 := (i 1).isLt
    rw [eq_ix3 i]
    funext a
    match a with
    | ⟨0, _⟩ =>
      refine Fin.ext ?_
      show (16 * ((4 * (i 0).val + (i 1).val) / 16) + (4 * (i 0).val + (i 1).val) % 16) / 4 = (i 0).val
      omega
    | ⟨1, _⟩ =>
      refine Fin.ext ?_
      show (16 * ((4 * (i 0).val + (i 1).val) / 16) + (4 * (i 0).val + (i 1).val) % 16) % 4 = (i 1).val
      omega
    | ⟨2, _⟩ => rfl

/-- One family: the four block sums of the flattened arrays add up to the family's loss. -/
theorem sum_blockSum (th : ℕ → ℕ) (B D : T3.Idx → EReal)
    (hB : ∀ i, ∃ r : ℝ, B i = (r : EReal)) (hD : ∀ i, ∃ r : ℝ, D i = (r : EReal))
    (b d g : S64.Idx → EReal)
    (hb : ∀ (ρ : Fin 64) (l : Fin 8192), b (ix2 ρ l) = B (ix3 (bat ρ) (cls ρ) l))
    (hd : ∀ (ρ : Fin 64) (l : Fin 8192), d (ix2 ρ l) = D (ix3 (bat ρ) (cls ρ) l))
    (hg : ∀ (ρ : Fin 64) (l : Fin 8192), g (ix2 ρ l) = if l.val < th (ρ.val % 4) then 1 else 0) :
    ∑ t : Fin 4, blockSum b d g t = loss th B D := by
  unfold loss blockSum
  rw [← Equiv.sum_comp blockEquiv, Fintype.sum_prod_type]
  refine Finset.sum_congr rfl fun t _ => ?_
  rw [Fintype.sum_prod_type]
  refine Finset.sum_congr rfl fun r _ => Finset.sum_congr rfl fun l _ => ?_
  rw [hb, hd, hg]
  obtain ⟨x, hx⟩ := hB (ix3 (bat (row t r)) (cls (row t r)) l)
  obtain ⟨y, hy⟩ := hD (ix3 (bat (row t r)) (cls (row t r)) l)
  rw [hx, hy, kterm_real]
  show _ = contrib _ (B (ix3 (bat (row t r)) (cls (row t r)) l)) (D (ix3 (bat (row t r)) (cls (row t r)) l))
  rw [hx, hy]
  rfl

/-- The accumulation over the four blocks, both families added at each block, ends at the total loss. -/
theorem acc_eq_total (B0 D0 B1 D1 : T3.Idx → EReal)
    (hB0 : ∀ i, ∃ r : ℝ, B0 i = (r : EReal)) (hD0 : ∀ i, ∃ r : ℝ, D0 i = (r : EReal))
    (hB1 : ∀ i, ∃ r : ℝ, B1 i = (r : EReal)) (hD1 : ∀ i, ∃ r : ℝ, D1 i = (r : EReal))
    (b0 d0 g0 b1 d1 g1 : S64.Idx → EReal)
    (hb0 : ∀ (ρ : Fin 64) (l : Fin 8192), b0 (ix2 ρ l) = B0 (ix3 (bat ρ) (cls ρ) l))
    (hd0 : ∀ (ρ : Fin 64) (l : Fin 8192), d0 (ix2 ρ l) = D0 (ix3 (bat ρ) (cls ρ) l))
    (hb1 : ∀ (ρ : Fin 64) (l : Fin 8192), b1 (ix2 ρ l) = B1 (ix3 (bat ρ) (cls ρ) l))
    (hd1 : ∀ (ρ : Fin 64) (l : Fin 8192), d1 (ix2 ρ l) = D1 (ix3 (bat ρ) (cls ρ) l))
    (hg0 : ∀ (ρ : Fin 64) (l : Fin 8192), g0 (ix2 ρ l) = if l.val < th0 (ρ.val % 4) then 1 else 0)
    (hg1 : ∀ (ρ : Fin 64) (l : Fin 8192), g1 (ix2 ρ l) = if l.val < th1 (ρ.val % 4) then 1 else 0) :
    ((((0 + (blockSum b0 d0 g0 0 + blockSum b1 d1 g1 0)) + (blockSum b0 d0 g0 1 + blockSum b1 d1 g1 1))
        + (blockSum b0 d0 g0 2 + blockSum b1 d1 g1 2)) + (blockSum b0 d0 g0 3 + blockSum b1 d1 g1 3))
      = total B0 D0 B1 D1 := by
  unfold total
  rw [← sum_blockSum th0 B0 D0 hB0 hD0 b0 d0 g0 hb0 hd0 hg0,
    ← sum_blockSum th1 B1 D1 hB1 hD1 b1 d1 g1 hb1 hd1 hg1, Fin.sum_univ_four, Fin.sum_univ_four, zero_add]
  abel

end Cert.BDLoss

end
-- ==== Proof.KIStepValue.lean ====
/-
  The accumulator's update at one grid point, as extended-real arithmetic.

  One point adds to the one-cell accumulator the sum, over sixteen rows and 8192 lanes, of the pointwise term
  `q + g * (1 - 2 * q)` (`q = (b - d)²`) of the first family's three blocks, plus the same sum for the second
  family's.  Each sum is taken in two stages, lanes first and rows second; in the extended reals the stages are
  the iterated sum.  Started from zero and repeated over four points, the accumulator holds the nested sum
  `(((0 + S₀) + S₁) + S₂) + S₃` of the four points' contributions.
-/
import proofs.«118714_j12034498363966_1_alg».proof.Proof.KIBody
import proofs.«118714_j12034498363966_1_alg».proof.Proof.KAlgebra
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.KernelIdeal.StepValue

open Idealize.ShloMosaic Idealize.ShloMosaic.ValueIdx Cert.KernelIdeal Cert.KernelIdeal.Gen
open Cert.BDLoss (kterm)

/-- The f32 pattern `0x40000000` is the extended real two. -/
theorem ofBits_two_f32 : Ideal.ofBits .f32 0x40000000#32 = 2 := by
  rw [show (2 : EReal) = ((2 : ℝ) : EReal) from rfl]
  simp [Ideal.ofBits, Ideal.ieee, -EReal.coe_mul]; norm_num

/-- A one-cell array has one index. -/
theorem idx_cell (j : S1x1.Idx) : j = ix2 0 0 := by
  have h0 : (j 0).val < 1 := (j 0).isLt
  have h1 : (j 1).val < 1 := (j 1).isLt
  rw [eq_ix2 j]
  funext a
  match a with
  | ⟨0, _⟩ => exact Fin.ext (by show (j 0).val = 0; omega)
  | ⟨1, _⟩ => exact Fin.ext (by show (j 1).val = 0; omega)

/-- The sum of one family's pointwise term over a block of sixteen rows. -/
def bsum (b d g : Vec Ideal S16x8192 .f32) : EReal :=
  ∑ r : Fin 16, ∑ l : Fin 8192, kterm (b (ix2 r l)) (d (ix2 r l)) (g (ix2 r l))

/-- The lane sums of a block, one per row: row `r` holds the sum of the pointwise term over the row's lanes. -/
theorem rows_apply (b d g : Vec Ideal S16x8192 .f32) (r : Fin 16) :
    k0_pay4 (F := Ideal) b d g (ix2 r 0) = ∑ l : Fin 8192, kterm (b (ix2 r l)) (d (ix2 r l)) (g (ix2 r l)) := by
  unfold k0_pay4
  simp only [shapeCast_self]
  refine (shapeCast_apply _ _ (ix2 r 0) (ix1 r) ?_).trans ?_
  · rw [Shape.rowMajor_val_one, Shape.rowMajor_val_two]
    show r.val = r.val * 1 + 0
    omega
  refine (Ideal.multiReduction_add_single _ _ reduces_S16x8192_S16 _ _ (ix1 r)).trans ?_
  refine Finset.sum_congr rfl fun l _ => ?_
  have hl : reduces_S16x8192_S16.lift (ix1 r) l = ix2 r l := by
    funext a
    match a with
    | ⟨0, _⟩ => rfl
    | ⟨1, _⟩ => rfl
  rw [hl]
  show (b (ix2 r l) - d (ix2 r l)) * (b (ix2 r l) - d (ix2 r l))
      + g (ix2 r l) * (Ideal.ofBits .f32 0x3F800000#32
          - Ideal.ofBits .f32 0x40000000#32 * ((b (ix2 r l) - d (ix2 r l)) * (b (ix2 r l) - d (ix2 r l)))) = _
  rw [Ideal.ofBits_one_f32, ofBits_two_f32]
  rfl

/-- The row sums added up: the one cell holds the sum over the sixteen rows. -/
theorem total_apply (w : FVec Ideal S16x1 .f32) (hφ : FKind.Formats .f32)
    (hacc : (0x00000000#32 : BitVec 32) = FKind.add.neutral .f32 hφ) (j : S1x1.Idx) :
    shapeCast S1x1 (multiReduction .add [0] S1 w 0x00000000#32 reduces_S16x1_S1 hφ hacc) shapeCasts_S1_S1x1 j
      = ∑ r : Fin 16, w (ix2 r 0) := by
  rw [idx_cell j]
  refine (shapeCast_apply _ _ (ix2 0 0) (ix1 0) ?_).trans ?_
  · rw [Shape.rowMajor_val_one, Shape.rowMajor_val_two]
    rfl
  refine (Ideal.multiReduction_add_single w _ reduces_S16x1_S1 hφ hacc (ix1 0)).trans ?_
  refine Finset.sum_congr rfl fun r _ => congrArg w ?_
  funext a
  match a with
  | ⟨0, _⟩ => rfl
  | ⟨1, _⟩ => rfl

/-- The same, with the accumulator's zero pattern as the program writes it. -/
theorem total_apply' (w : FVec Ideal S16x1 .f32) (j : S1x1.Idx) :
    shapeCast S1x1 (multiReduction .add [0] S1 w 0x00000000#32 reduces_S16x1_S1 (.inl rfl) rfl) shapeCasts_S1_S1x1 j
      = ∑ r : Fin 16, w (ix2 r 0) :=
  total_apply w _ _ j

/-- One point: the accumulator's old value plus the two families' block sums. -/
theorem step_apply (x0 x1 x2 x3 x4 x5 : Vec Ideal S16x8192 .f32) (old : Vec Ideal S1x1 .f32) (j : S1x1.Idx) :
    Hand.step (F := Ideal) x0 x1 x2 x3 x4 x5 old j = old (ix2 0 0) + (bsum x0 x1 x2 + bsum x3 x4 x5) := by
  unfold Hand.step k0_pay1
  simp only [shapeCast_self]
  show old j + (k0_pay3 (F := Ideal) x0 x1 x2 j
      + shapeCast S1x1 (multiReduction .add [0] S1 (k0_pay4 (F := Ideal) x3 x4 x5) 0x00000000#32 reduces_S16x1_S1 (.inl rfl) rfl)
          shapeCasts_S1_S1x1 j) = _
  have h3 : k0_pay3 (F := Ideal) x0 x1 x2 j
      = shapeCast S1x1 (multiReduction .add [0] S1 (k0_pay4 (F := Ideal) x0 x1 x2) 0x00000000#32 reduces_S16x1_S1 (.inl rfl) rfl)
          shapeCasts_S1_S1x1 j := rfl
  rw [h3, total_apply', total_apply', idx_cell j]
  simp only [rows_apply]
  rfl

/-- The reset value is zero. -/
theorem zeroAcc_apply (j : S1x1.Idx) : Hand.zeroAcc (F := Ideal) j = 0 := by
  unfold Hand.zeroAcc k0_pay2
  simp only [shapeCast_self]
  exact Ideal.ofBits_zero_f32

/-- Four points from the reset: the nested sum of the four points' contributions. -/
theorem iterate_apply (B : Fin 4 → Fin 6 → Vec Ideal S16x8192 .f32) (j : S1x1.Idx) :
    Hand.step (F := Ideal) (B 3 0) (B 3 1) (B 3 2) (B 3 3) (B 3 4) (B 3 5)
      (Hand.step (B 2 0) (B 2 1) (B 2 2) (B 2 3) (B 2 4) (B 2 5)
        (Hand.step (B 1 0) (B 1 1) (B 1 2) (B 1 3) (B 1 4) (B 1 5)
          (Hand.step (B 0 0) (B 0 1) (B 0 2) (B 0 3) (B 0 4) (B 0 5) Hand.zeroAcc))) j
      = ((((0 + (bsum (B 0 0) (B 0 1) (B 0 2) + bsum (B 0 3) (B 0 4) (B 0 5)))
            + (bsum (B 1 0) (B 1 1) (B 1 2) + bsum (B 1 3) (B 1 4) (B 1 5)))
          + (bsum (B 2 0) (B 2 1) (B 2 2) + bsum (B 2 3) (B 2 4) (B 2 5)))
        + (bsum (B 3 0) (B 3 1) (B 3 2) + bsum (B 3 3) (B 3 4) (B 3 5))) := by
  rw [step_apply, step_apply, step_apply, step_apply, zeroAcc_apply]

/-- A block that is sixteen consecutive rows of three flattened arrays sums to that block's sum of the arrays. -/
theorem bsum_eq_blockSum (b d g : Vec Ideal S16x8192 .f32) (Wb Wd Wg : Cert.BDLoss.S64.Idx → EReal) (t : Fin 4)
    (hb : ∀ (r : Fin 16) (l : Fin 8192), b (ix2 r l) = Wb (ix2 (Cert.BDLoss.row t r) l))
    (hd : ∀ (r : Fin 16) (l : Fin 8192), d (ix2 r l) = Wd (ix2 (Cert.BDLoss.row t r) l))
    (hg : ∀ (r : Fin 16) (l : Fin 8192), g (ix2 r l) = Wg (ix2 (Cert.BDLoss.row t r) l)) :
    bsum b d g = Cert.BDLoss.blockSum Wb Wd Wg t := by
  unfold bsum Cert.BDLoss.blockSum
  refine Finset.sum_congr rfl fun r _ => Finset.sum_congr rfl fun l _ => ?_
  rw [hb, hd, hg]

end Cert.KernelIdeal.StepValue

end
-- ==== Proof.KHostDefs.lean ====
/-
  The arrays the summation reads, as functions of the three inputs.

  Each family of intervals gives two arrays of image values, one per (batch, class, interval): the image read
  at the interval's first point (its birth) and at its second point (its death).  The read is one gather whose
  four index columns are the batch, the class and the point's two coordinates, each with a negative value
  counted from the end of its axis.  The two masks mark, per class, the first `th` intervals.  All six arrays
  are then flattened from (batch, class, interval) to (4 * batch + class, interval).
-/
import proofs.«118714_j12034498363966_1_alg».proof.Proof.Gen.KernelIdeal
import proofs.«118714_j12034498363966_1_alg».proof.Proof.KAlgebra
import Idealize.ShloMosaic.PureOps.Ideal.Laws
import Idealize.ShloMosaic.Lib.ValueIdx
import Idealize.ShloMosaic.Lib.Pipeline.Value

noncomputable section

namespace Cert.KernelIdeal.KValue

open Idealize.ShloMosaic Idealize.ShloMosaic.ValueIdx Cert.KernelIdeal Cert.KernelIdeal.Gen
open Cert.BDLoss (bat cls th0 th1)

/-- Four index columns side by side: the last axis of the result picks the column. -/
def cat4 (x0 x1 x2 x3 : S16x4x8192x1.Idx → BitVec 32) : S16x4x8192x4.Idx → BitVec 32 :=
  concatenate S16x4x8192x4 3 [⟨S16x4x8192x1, x0⟩, ⟨S16x4x8192x1, x1⟩, ⟨S16x4x8192x1, x2⟩, ⟨S16x4x8192x1, x3⟩]
    concatenates_S16x4x8192x1_S16x4x8192x1_S16x4x8192x1_S16x4x8192x1_S16x4x8192x4_d3

/-- The gather's start indices for the FIRST point of each interval: (batch, class, row, column), the last
    two read from the intervals at position 0 of their point axis. -/
def birthIdx (a : S16x4x8192x2x2.Idx → BitVec 32) : S16x4x8192x4.Idx → BitVec 32 :=
  cat4
    (broadcastInDim S16x4x8192x1 ![0, 1, 2] bcast_S16x4x8192_S16x4x8192x1_0_1_2
      (broadcastInDim S16x4x8192 ![0, 1, 2] bcast_S16x1x1_S16x4x8192_0_1_2
        (select
          (cmpi CmpIPredicate.slt (broadcastInDim S16x1x1 ![0] bcast_S16_S16x1x1_0 (iotaInDim S16 32 0))
            (broadcastInDim S16x1x1 ![] bcast_S_S16x1x1 (constantI S_ 32 0#32)))
          (addi (broadcastInDim S16x1x1 ![0] bcast_S16_S16x1x1_0 (iotaInDim S16 32 0))
            (broadcastInDim S16x1x1 ![] bcast_S_S16x1x1 (constantI S_ 32 16#32)))
          (broadcastInDim S16x1x1 ![0] bcast_S16_S16x1x1_0 (iotaInDim S16 32 0)))))
    (broadcastInDim S16x4x8192x1 ![0, 1, 2] bcast_S16x4x8192_S16x4x8192x1_0_1_2
      (broadcastInDim S16x4x8192 ![0, 1, 2] bcast_S1x4x1_S16x4x8192_0_1_2
        (select
          (cmpi CmpIPredicate.slt (broadcastInDim S1x4x1 ![1] bcast_S4_S1x4x1_1 (iotaInDim S4 32 0))
            (broadcastInDim S1x4x1 ![] bcast_S_S1x4x1 (constantI S_ 32 0#32)))
          (addi (broadcastInDim S1x4x1 ![1] bcast_S4_S1x4x1_1 (iotaInDim S4 32 0))
            (broadcastInDim S1x4x1 ![] bcast_S_S1x4x1 (constantI S_ 32 4#32)))
          (broadcastInDim S1x4x1 ![1] bcast_S4_S1x4x1_1 (iotaInDim S4 32 0)))))
    (broadcastInDim S16x4x8192x1 ![0, 1, 2] bcast_S16x4x8192_S16x4x8192x1_0_1_2
      (select
        (cmpi CmpIPredicate.slt
          (shapeCast S16x4x8192
            (extractStridedSlice S16x4x8192x1x1 ![0, 0, 0, 0, 0] a slices_S16x4x8192x2x2_S16x4x8192x1x1_0_0_0_0_0)
            shapeCasts_S16x4x8192x1x1_S16x4x8192)
          (broadcastInDim S16x4x8192 ![] bcast_S_S16x4x8192 (constantI S_ 32 0#32)))
        (addi
          (shapeCast S16x4x8192
            (extractStridedSlice S16x4x8192x1x1 ![0, 0, 0, 0, 0] a slices_S16x4x8192x2x2_S16x4x8192x1x1_0_0_0_0_0)
            shapeCasts_S16x4x8192x1x1_S16x4x8192)
          (broadcastInDim S16x4x8192 ![] bcast_S_S16x4x8192 (constantI S_ 32 512#32)))
        (shapeCast S16x4x8192
          (extractStridedSlice S16x4x8192x1x1 ![0, 0, 0, 0, 0] a slices_S16x4x8192x2x2_S16x4x8192x1x1_0_0_0_0_0)
          shapeCasts_S16x4x8192x1x1_S16x4x8192)))
    (broadcastInDim S16x4x8192x1 ![0, 1, 2] bcast_S16x4x8192_S16x4x8192x1_0_1_2
      (select
        (cmpi CmpIPredicate.slt
          (shapeCast S16x4x8192
            (extractStridedSlice S16x4x8192x1x1 ![0, 0, 0, 0, 1] a slices_S16x4x8192x2x2_S16x4x8192x1x1_0_0_0_0_1)
            shapeCasts_S16x4x8192x1x1_S16x4x8192)
          (broadcastInDim S16x4x8192 ![] bcast_S_S16x4x8192 (constantI S_ 32 0#32)))
        (addi
          (shapeCast S16x4x8192
            (extractStridedSlice S16x4x8192x1x1 ![0, 0, 0, 0, 1] a slices_S16x4x8192x2x2_S16x4x8192x1x1_0_0_0_0_1)
            shapeCasts_S16x4x8192x1x1_S16x4x8192)
          (broadcastInDim S16x4x8192 ![] bcast_S_S16x4x8192 (constantI S_ 32 512#32)))
        (shapeCast S16x4x8192
          (extractStridedSlice S16x4x8192x1x1 ![0, 0, 0, 0, 1] a slices_S16x4x8192x2x2_S16x4x8192x1x1_0_0_0_0_1)
          shapeCasts_S16x4x8192x1x1_S16x4x8192)))

/-- The same for the SECOND point of each interval (position 1 of the point axis). -/
def deathIdx (a : S16x4x8192x2x2.Idx → BitVec 32) : S16x4x8192x4.Idx → BitVec 32 :=
  cat4
    (broadcastInDim S16x4x8192x1 ![0, 1, 2] bcast_S16x4x8192_S16x4x8192x1_0_1_2
      (broadcastInDim S16x4x8192 ![0, 1, 2] bcast_S16x1x1_S16x4x8192_0_1_2
        (select
          (cmpi CmpIPredicate.slt (broadcastInDim S16x1x1 ![0] bcast_S16_S16x1x1_0 (iotaInDim S16 32 0))
            (broadcastInDim S16x1x1 ![] bcast_S_S16x1x1 (constantI S_ 32 0#32)))
          (addi (broadcastInDim S16x1x1 ![0] bcast_S16_S16x1x1_0 (iotaInDim S16 32 0))
            (broadcastInDim S16x1x1 ![] bcast_S_S16x1x1 (constantI S_ 32 16#32)))
          (broadcastInDim S16x1x1 ![0] bcast_S16_S16x1x1_0 (iotaInDim S16 32 0)))))
    (broadcastInDim S16x4x8192x1 ![0, 1, 2] bcast_S16x4x8192_S16x4x8192x1_0_1_2
      (broadcastInDim S16x4x8192 ![0, 1, 2] bcast_S1x4x1_S16x4x8192_0_1_2
        (select
          (cmpi CmpIPredicate.slt (broadcastInDim S1x4x1 ![1] bcast_S4_S1x4x1_1 (iotaInDim S4 32 0))
            (broadcastInDim S1x4x1 ![] bcast_S_S1x4x1 (constantI S_ 32 0#32)))
          (addi (broadcastInDim S1x4x1 ![1] bcast_S4_S1x4x1_1 (iotaInDim S4 32 0))
            (broadcastInDim S1x4x1 ![] bcast_S_S1x4x1 (constantI S_ 32 4#32)))
          (broadcastInDim S1x4x1 ![1] bcast_S4_S1x4x1_1 (iotaInDim S4 32 0)))))
    (broadcastInDim S16x4x8192x1 ![0, 1, 2] bcast_S16x4x8192_S16x4x8192x1_0_1_2
      (select
        (cmpi CmpIPredicate.slt
          (shapeCast S16x4x8192
            (extractStridedSlice S16x4x8192x1x1 ![0, 0, 0, 1, 0] a slices_S16x4x8192x2x2_S16x4x8192x1x1_0_0_0_1_0)
            shapeCasts_S16x4x8192x1x1_S16x4x8192)
          (broadcastInDim S16x4x8192 ![] bcast_S_S16x4x8192 (constantI S_ 32 0#32)))
        (addi
          (shapeCast S16x4x8192
            (extractStridedSlice S16x4x8192x1x1 ![0, 0, 0, 1, 0] a slices_S16x4x8192x2x2_S16x4x8192x1x1_0_0_0_1_0)
            shapeCasts_S16x4x8192x1x1_S16x4x8192)
          (broadcastInDim S16x4x8192 ![] bcast_S_S16x4x8192 (constantI S_ 32 512#32)))
        (shapeCast S16x4x8192
          (extractStridedSlice S16x4x8192x1x1 ![0, 0, 0, 1, 0] a slices_S16x4x8192x2x2_S16x4x8192x1x1_0_0_0_1_0)
          shapeCasts_S16x4x8192x1x1_S16x4x8192)))
    (broadcastInDim S16x4x8192x1 ![0, 1, 2] bcast_S16x4x8192_S16x4x8192x1_0_1_2
      (select
        (cmpi CmpIPredicate.slt
          (shapeCast S16x4x8192
            (extractStridedSlice S16x4x8192x1x1 ![0, 0, 0, 1, 1] a slices_S16x4x8192x2x2_S16x4x8192x1x1_0_0_0_1_1)
            shapeCasts_S16x4x8192x1x1_S16x4x8192)
          (broadcastInDim S16x4x8192 ![] bcast_S_S16x4x8192 (constantI S_ 32 0#32)))
        (addi
          (shapeCast S16x4x8192
            (extractStridedSlice S16x4x8192x1x1 ![0, 0, 0, 1, 1] a slices_S16x4x8192x2x2_S16x4x8192x1x1_0_0_0_1_1)
            shapeCasts_S16x4x8192x1x1_S16x4x8192)
          (broadcastInDim S16x4x8192 ![] bcast_S_S16x4x8192 (constantI S_ 32 512#32)))
        (shapeCast S16x4x8192
          (extractStridedSlice S16x4x8192x1x1 ![0, 0, 0, 1, 1] a slices_S16x4x8192x2x2_S16x4x8192x1x1_0_0_0_1_1)
          shapeCasts_S16x4x8192x1x1_S16x4x8192)))

/-- The image at the first point of each interval. -/
def birth (a0 : S16x4x512x512.Idx → EReal) (a : S16x4x8192x2x2.Idx → BitVec 32) : S16x4x8192.Idx → EReal :=
  Host.gather gather_S16x4x512x512_S16x4x8192x4_S16x4x8192_n_0123_n_n_0123_3_1111 a0 (birthIdx a)

/-- The image at the second point of each interval. -/
def death (a0 : S16x4x512x512.Idx → EReal) (a : S16x4x8192x2x2.Idx → BitVec 32) : S16x4x8192.Idx → EReal :=
  Host.gather gather_S16x4x512x512_S16x4x8192x4_S16x4x8192_n_0123_n_n_0123_3_1111 a0 (deathIdx a)

/-- Every birth value is an entry of the image. -/
theorem birth_mem (a0 : S16x4x512x512.Idx → EReal) (a : S16x4x8192x2x2.Idx → BitVec 32) (i : S16x4x8192.Idx) :
    ∃ j, birth a0 a i = a0 j := ⟨_, rfl⟩
/-- Every death value is an entry of the image. -/
theorem death_mem (a0 : S16x4x512x512.Idx → EReal) (a : S16x4x8192x2x2.Idx → BitVec 32) (i : S16x4x8192.Idx) :
    ∃ j, death a0 a i = a0 j := ⟨_, rfl⟩
/-- So the birth values are real when the image is. -/
theorem birth_real (a0 : S16x4x512x512.Idx → EReal) (a : S16x4x8192x2x2.Idx → BitVec 32)
    (h : ∀ j, ∃ r : ℝ, a0 j = (r : EReal)) (i : S16x4x8192.Idx) : ∃ r : ℝ, birth a0 a i = (r : EReal) := by
  obtain ⟨j, hj⟩ := birth_mem a0 a i
  rw [hj]; exact h j
/-- And so are the death values. -/
theorem death_real (a0 : S16x4x512x512.Idx → EReal) (a : S16x4x8192x2x2.Idx → BitVec 32)
    (h : ∀ j, ∃ r : ℝ, a0 j = (r : EReal)) (i : S16x4x8192.Idx) : ∃ r : ℝ, death a0 a i = (r : EReal) := by
  obtain ⟨j, hj⟩ := death_mem a0 a i
  rw [hj]; exact h j

/-- Flattening (batch, class, interval) to (4 * batch + class, interval). -/
def flat {α : Type} (x : S16x4x8192.Idx → α) : S64x8192.Idx → α :=
  shapeCast S64x8192 x shapeCasts_S16x4x8192_S64x8192

/-- Row `ρ` of the flattened array is batch `ρ / 4`, class `ρ % 4`. -/
theorem flat_apply {α : Type} (x : S16x4x8192.Idx → α) (ρ : Fin 64) (l : Fin 8192) :
    flat x (ix2 ρ l) = x (ix3 (bat ρ) (cls ρ) l) := by
  unfold flat
  refine shapeCast_apply x _ (ix2 ρ l) (ix3 (bat ρ) (cls ρ) l) ?_
  rw [Shape.rowMajor_val_three, Shape.rowMajor_val_two]
  show (ρ.val / 4 * 4 + ρ.val % 4) * 8192 + l.val = ρ.val * 8192 + l.val
  omega

/-- The mask of the expected intervals, flattened: lane `l` of class `c` holds 1 when `l` is below the
    class's entry of the table (capped at the number of intervals), else 0; the same for every batch. -/
def mask (tab : S4.Idx → BitVec 32) : S64x8192.Idx → EReal :=
  shapeCast S64x8192
    (broadcastInDim S16x4x1x8192 ![0, 1, 2, 3] bcast_S1x4x1x8192_S16x4x1x8192_0_1_2_3
      (shapeCast S1x4x1x8192
        (uitofp (F := Ideal) FTy.f32
          (cmpi CmpIPredicate.slt
            (broadcastInDim S4x8192 ![0, 1] bcast_S1x8192_S4x8192_0_1
              (broadcastInDim S1x8192 ![1] bcast_S8192_S1x8192_1 (iotaInDim S8192 32 0)))
            (broadcastInDim S4x8192 ![0, 1] bcast_S4x1_S4x8192_0_1
              (broadcastInDim S4x1 ![0] bcast_S4_S4x1_0
                (minsi tab (broadcastInDim S4 ![] bcast_S_S4 (constantI S_ 32 8192#32)))))))
        shapeCasts_S4x8192_S1x4x1x8192))
    shapeCasts_S16x4x1x8192_S64x8192

/-- A small natural number read as a signed 32-bit word is itself. -/
theorem toInt_ofNat_small (l : ℕ) (hl : l < 2 ^ 31) : (BitVec.ofNat 32 l).toInt = (l : ℤ) := by
  have h : (BitVec.ofNat 32 l).toNat = l := by
    rw [BitVec.toNat_ofNat]; exact Nat.mod_eq_of_lt (by omega)
  rw [BitVec.toInt_eq_toNat_of_lt (by rw [h]; omega), h]

/-- The signed comparison of two small naturals, as a one-bit word read back as a number. -/
theorem slt_ofNat_toNat (l k : ℕ) (hl : l < 2 ^ 31) (hk : k < 2 ^ 31) :
    (IntOp.cmpi CmpIPredicate.slt (BitVec.ofNat 32 l) (BitVec.ofNat 32 k)).toNat = if l < k then 1 else 0 := by
  show (BitVec.ofBool ((BitVec.ofNat 32 l).slt (BitVec.ofNat 32 k))).toNat = _
  rw [BitVec.toNat_ofBool, BitVec.slt, toInt_ofNat_small l hl, toInt_ofNat_small k hk]
  by_cases h : l < k
  · simp [h]
  · simp [h]

/-- The mask read at a row and a lane: the comparison of the lane with the class's capped table entry. -/
theorem mask_apply (tab : S4.Idx → BitVec 32) (ρ : Fin 64) (l : Fin 8192) :
    mask tab (ix2 ρ l)
      = (((IntOp.cmpi CmpIPredicate.slt (BitVec.ofNat 32 l.val) (IntOp.minsi (tab (ix1 (cls ρ))) 8192#32)).toNat : ℝ) : EReal) := by
  have hA : broadcastInDim S4x8192 ![0, 1] bcast_S1x8192_S4x8192_0_1
      (broadcastInDim S1x8192 ![1] bcast_S8192_S1x8192_1 (iotaInDim S8192 32 0)) (ix2 (cls ρ) l) = BitVec.ofNat 32 l.val := by
    refine (broadcastInDim_apply _ _ _ (ix2 (cls ρ) l) (ix2 0 l) ?_).trans ?_
    · intro a; match a with | ⟨0, _⟩ => rfl | ⟨1, _⟩ => rfl
    refine (broadcastInDim_apply _ _ _ (ix2 0 l) (ix1 l) ?_).trans rfl
    intro a; match a with | ⟨0, _⟩ => rfl
  have hB : broadcastInDim S4x8192 ![0, 1] bcast_S4x1_S4x8192_0_1
      (broadcastInDim S4x1 ![0] bcast_S4_S4x1_0
        (minsi tab (broadcastInDim S4 ![] bcast_S_S4 (constantI S_ 32 8192#32)))) (ix2 (cls ρ) l)
        = IntOp.minsi (tab (ix1 (cls ρ))) 8192#32 := by
    refine (broadcastInDim_apply _ _ _ (ix2 (cls ρ) l) (ix2 (cls ρ) 0) ?_).trans ?_
    · intro a; match a with | ⟨0, _⟩ => rfl | ⟨1, _⟩ => rfl
    refine (broadcastInDim_apply _ _ _ (ix2 (cls ρ) 0) (ix1 (cls ρ)) ?_).trans rfl
    intro a; match a with | ⟨0, _⟩ => rfl
  unfold mask
  refine (shapeCast_apply _ _ (ix2 ρ l) (ix4 (bat ρ) (cls ρ) 0 l) ?_).trans ?_
  · rw [Shape.rowMajor_val_four, Shape.rowMajor_val_two]
    show ((ρ.val / 4 * 4 + ρ.val % 4) * 1 + 0) * 8192 + l.val = ρ.val * 8192 + l.val
    omega
  refine (broadcastInDim_apply _ _ _ (ix4 (bat ρ) (cls ρ) 0 l) (ix4 0 (cls ρ) 0 l) ?_).trans ?_
  · intro a; match a with | ⟨0, _⟩ => rfl | ⟨1, _⟩ => rfl | ⟨2, _⟩ => rfl | ⟨3, _⟩ => rfl
  refine (shapeCast_apply _ _ (ix4 0 (cls ρ) 0 l) (ix2 (cls ρ) l) ?_).trans ?_
  · rw [Shape.rowMajor_val_four, Shape.rowMajor_val_two]
    show ρ.val % 4 * 8192 + l.val = ((0 * 4 + ρ.val % 4) * 1 + 0) * 8192 + l.val
    omega
  rw [← hA, ← hB]
  rfl

/-- The table of expected components per class, as the 32-bit words the program holds. -/
theorem tab0_apply (c : Fin 4) : lit0 (S4.rowMajor (ix1 c)) = BitVec.ofNat 32 (th0 c.val) := by
  fin_cases c <;> rfl
/-- The table of expected loops per class. -/
theorem tab1_apply (c : Fin 4) : lit1 (S4.rowMajor (ix1 c)) = BitVec.ofNat 32 (th1 c.val) := by
  fin_cases c <;> rfl

/-- Capping a table entry at the number of intervals changes nothing: the entries are at most 2. -/
theorem minsi_small (k : ℕ) (hk : k ≤ 2) : IntOp.minsi (BitVec.ofNat 32 k) 8192#32 = BitVec.ofNat 32 k := by
  interval_cases k <;> rfl

theorem th0_le (c : ℕ) : th0 c ≤ 2 := by unfold th0; split <;> omega
theorem th1_le (c : ℕ) : th1 c ≤ 2 := by unfold th1; split_ifs <;> omega

/-- A 0/1 natural number as an extended real. -/
theorem coe_ite (p : Prop) [Decidable p] : (((if p then 1 else 0 : ℕ) : ℝ) : EReal) = if p then 1 else 0 := by
  by_cases h : p <;> simp [h]

/-- The components' mask at row `ρ`, lane `l`: 1 on the first `th0 (ρ % 4)` lanes, else 0. -/
theorem mask0_apply (ρ : Fin 64) (l : Fin 8192) :
    mask (fun i => lit0 (S4.rowMajor i)) (ix2 ρ l) = if l.val < th0 (ρ.val % 4) then 1 else 0 := by
  rw [mask_apply]
  show (((IntOp.cmpi CmpIPredicate.slt (BitVec.ofNat 32 l.val) (IntOp.minsi (lit0 (S4.rowMajor (ix1 (cls ρ)))) 8192#32)).toNat : ℝ) : EReal) = _
  have hl := l.isLt
  have hk := th0_le (cls ρ).val
  rw [tab0_apply, minsi_small _ hk, slt_ofNat_toNat _ _ (by omega) (by omega), coe_ite]
  rfl

/-- The loops' mask at row `ρ`, lane `l`: 1 on the first `th1 (ρ % 4)` lanes, else 0. -/
theorem mask1_apply (ρ : Fin 64) (l : Fin 8192) :
    mask (fun i => lit1 (S4.rowMajor i)) (ix2 ρ l) = if l.val < th1 (ρ.val % 4) then 1 else 0 := by
  rw [mask_apply]
  show (((IntOp.cmpi CmpIPredicate.slt (BitVec.ofNat 32 l.val) (IntOp.minsi (lit1 (S4.rowMajor (ix1 (cls ρ)))) 8192#32)).toNat : ℝ) : EReal) = _
  have hl := l.isLt
  have hk := th1_le (cls ρ).val
  rw [tab1_apply, minsi_small _ hk, slt_ofNat_toNat _ _ (by omega) (by omega), coe_ite]
  rfl

end Cert.KernelIdeal.KValue

end
-- ==== Proof.KHost.lean ====
/-
  The six arrays the summation reads, as the program's host operations leave them.

  Before the summation the program runs a straight line of array operations from the three inputs.  Folding
  that line over an arbitrary memory, the six arrays it leaves are: the flattened birth and death values of
  the first family, the flattened mask of the first table, and the same three for the second family.
-/
import proofs.«118714_j12034498363966_1_alg».proof.Proof.KHostDefs
import proofs.«118714_j12034498363966_1_alg».proof.Proof.Gen.KernelIdeal.Launch
import Idealize.ShloMosaic.Lib.StableHlo.Run

set_option maxRecDepth 4000
set_option Elab.async false

noncomputable section

namespace Cert.KernelIdeal.KValue

open Idealize.ShloMosaic Idealize.ShloMosaic.StableHlo Idealize.ShloMosaic.ValueIdx Cert.KernelIdeal Cert.KernelIdeal.Gen

/-! ## The four joins of index columns, with each column's contents at its own array -/

theorem cat34_result (F : Valuation τ sig (Elt Ideal)) (hxs hy) :
    (StableHlo.nary (τ := τ) ![main_v30, main_v31, main_v32, main_v33] main_v34
        (fun u => concatenate S16x4x8192x4 3 [⟨S16x4x8192x1, u 0⟩, ⟨S16x4x8192x1, u 1⟩, ⟨S16x4x8192x1, u 2⟩, ⟨S16x4x8192x1, u 3⟩]
          concatenates_S16x4x8192x1_S16x4x8192x1_S16x4x8192x1_S16x4x8192x1_S16x4x8192x4_d3) hxs hy).result F (no_index (Proc.devRef .tc main_v34))
      = cat4 (F (Proc.devRef .tc main_v30)) (F (Proc.devRef .tc main_v31)) (F (Proc.devRef .tc main_v32)) (F (Proc.devRef .tc main_v33)) := by
  rw [nary_result]; rfl

theorem cat66_result (F : Valuation τ sig (Elt Ideal)) (hxs hy) :
    (StableHlo.nary (τ := τ) ![main_v62, main_v63, main_v64, main_v65] main_v66
        (fun u => concatenate S16x4x8192x4 3 [⟨S16x4x8192x1, u 0⟩, ⟨S16x4x8192x1, u 1⟩, ⟨S16x4x8192x1, u 2⟩, ⟨S16x4x8192x1, u 3⟩]
          concatenates_S16x4x8192x1_S16x4x8192x1_S16x4x8192x1_S16x4x8192x1_S16x4x8192x4_d3) hxs hy).result F (no_index (Proc.devRef .tc main_v66))
      = cat4 (F (Proc.devRef .tc main_v62)) (F (Proc.devRef .tc main_v63)) (F (Proc.devRef .tc main_v64)) (F (Proc.devRef .tc main_v65)) := by
  rw [nary_result]; rfl

theorem cat102_result (F : Valuation τ sig (Elt Ideal)) (hxs hy) :
    (StableHlo.nary (τ := τ) ![main_v98, main_v99, main_v100, main_v101] main_v102
        (fun u => concatenate S16x4x8192x4 3 [⟨S16x4x8192x1, u 0⟩, ⟨S16x4x8192x1, u 1⟩, ⟨S16x4x8192x1, u 2⟩, ⟨S16x4x8192x1, u 3⟩]
          concatenates_S16x4x8192x1_S16x4x8192x1_S16x4x8192x1_S16x4x8192x1_S16x4x8192x4_d3) hxs hy).result F (no_index (Proc.devRef .tc main_v102))
      = cat4 (F (Proc.devRef .tc main_v98)) (F (Proc.devRef .tc main_v99)) (F (Proc.devRef .tc main_v100)) (F (Proc.devRef .tc main_v101)) := by
  rw [nary_result]; rfl

theorem cat134_result (F : Valuation τ sig (Elt Ideal)) (hxs hy) :
    (StableHlo.nary (τ := τ) ![main_v130, main_v131, main_v132, main_v133] main_v134
        (fun u => concatenate S16x4x8192x4 3 [⟨S16x4x8192x1, u 0⟩, ⟨S16x4x8192x1, u 1⟩, ⟨S16x4x8192x1, u 2⟩, ⟨S16x4x8192x1, u 3⟩]
          concatenates_S16x4x8192x1_S16x4x8192x1_S16x4x8192x1_S16x4x8192x1_S16x4x8192x4_d3) hxs hy).result F (no_index (Proc.devRef .tc main_v134))
      = cat4 (F (Proc.devRef .tc main_v130)) (F (Proc.devRef .tc main_v131)) (F (Proc.devRef .tc main_v132)) (F (Proc.devRef .tc main_v133)) := by
  rw [nary_result]; rfl

/-- Rewrites an array's contents after the line of operations to the operations' functions applied to the
    inputs: each operation's result at its own array, and what was there before at every other array. -/
macro "host_results" : tactic =>
  `(tactic| (simp (disch := decide) only [after_cons, after_nil,
      nullary_result', unary_result', binary_result', ternary_result', reshape_result',
      cat34_result, cat66_result, cat102_result, cat134_result,
      nullary_result_ne', unary_result_ne', binary_result_ne', ternary_result_ne', reshape_result_ne', nary_result_ne']))

/-! ## The six arrays -/

set_option maxHeartbeats 8000000 in
/-- Window 0: the first family's birth values, flattened. -/
theorem after_birth0 (M : Valuation τ sig (Elt Ideal)) :
    StableHlo.after (hostOps0 (F := Ideal)) M (Proc.devRef .tc main_v160)
      = flat (birth (M (Proc.devRef .tc main_arg0)) (M (Proc.devRef .tc main_arg1))) := by
  host_results
  rfl

set_option maxHeartbeats 8000000 in
/-- Window 1: the first family's death values, flattened. -/
theorem after_death0 (M : Valuation τ sig (Elt Ideal)) :
    StableHlo.after (hostOps0 (F := Ideal)) M (Proc.devRef .tc main_v161)
      = flat (death (M (Proc.devRef .tc main_arg0)) (M (Proc.devRef .tc main_arg1))) := by
  host_results
  rfl

set_option maxHeartbeats 8000000 in
/-- Window 2: the first table's mask. -/
theorem after_good0 (M : Valuation τ sig (Elt Ideal)) :
    StableHlo.after (hostOps0 (F := Ideal)) M (Proc.devRef .tc main_v156)
      = mask (fun i => lit0 (S4.rowMajor i)) := by
  host_results
  rfl

set_option maxHeartbeats 8000000 in
/-- Window 3: the second family's birth values, flattened. -/
theorem after_birth1 (M : Valuation τ sig (Elt Ideal)) :
    StableHlo.after (hostOps0 (F := Ideal)) M (Proc.devRef .tc main_v162)
      = flat (birth (M (Proc.devRef .tc main_arg0)) (M (Proc.devRef .tc main_arg2))) := by
  host_results
  rfl

set_option maxHeartbeats 8000000 in
/-- Window 4: the second family's death values, flattened. -/
theorem after_death1 (M : Valuation τ sig (Elt Ideal)) :
    StableHlo.after (hostOps0 (F := Ideal)) M (Proc.devRef .tc main_v163)
      = flat (death (M (Proc.devRef .tc main_arg0)) (M (Proc.devRef .tc main_arg2))) := by
  host_results
  rfl

set_option maxHeartbeats 8000000 in
/-- Window 5: the second table's mask. -/
theorem after_good1 (M : Valuation τ sig (Elt Ideal)) :
    StableHlo.after (hostOps0 (F := Ideal)) M (Proc.devRef .tc main_v159)
      = mask (fun i => lit1 (S4.rowMajor i)) := by
  host_results
  rfl

end Cert.KernelIdeal.KValue

end
-- ==== Proof.KHostRead.lean ====
/-
  The six arrays the summation reads, at a row and a lane.

  Row `ρ` of each flattened array belongs to batch `ρ / 4` and class `ρ % 4`: the birth and death arrays hold
  there the family's birth and death value of interval `l`, the masks hold 1 on the class's expected intervals
  and 0 elsewhere.
-/
import proofs.«118714_j12034498363966_1_alg».proof.Proof.KHost

noncomputable section

namespace Cert.KernelIdeal.KValue

open Idealize.ShloMosaic Idealize.ShloMosaic.StableHlo Idealize.ShloMosaic.ValueIdx Cert.KernelIdeal Cert.KernelIdeal.Gen
open Cert.BDLoss (bat cls th0 th1)

/-- Window 0 at (ρ, l): the first family's birth value of interval `l` of (batch, class) = (ρ / 4, ρ % 4). -/
theorem birth0_at (M : Valuation τ sig (Elt Ideal)) (ρ : Fin 64) (l : Fin 8192) :
    (StableHlo.after (hostOps0 (F := Ideal)) M (Proc.devRef .tc main_v160) : S64x8192.Idx → EReal) (ix2 ρ l)
      = birth (M (Proc.devRef .tc main_arg0)) (M (Proc.devRef .tc main_arg1)) (ix3 (bat ρ) (cls ρ) l) := by
  rw [after_birth0]; exact flat_apply _ ρ l

/-- Window 1 at (ρ, l): the first family's death value. -/
theorem death0_at (M : Valuation τ sig (Elt Ideal)) (ρ : Fin 64) (l : Fin 8192) :
    (StableHlo.after (hostOps0 (F := Ideal)) M (Proc.devRef .tc main_v161) : S64x8192.Idx → EReal) (ix2 ρ l)
      = death (M (Proc.devRef .tc main_arg0)) (M (Proc.devRef .tc main_arg1)) (ix3 (bat ρ) (cls ρ) l) := by
  rw [after_death0]; exact flat_apply _ ρ l

/-- Window 2 at (ρ, l): 1 on the first `th0 (ρ % 4)` intervals, else 0. -/
theorem good0_at (M : Valuation τ sig (Elt Ideal)) (ρ : Fin 64) (l : Fin 8192) :
    (StableHlo.after (hostOps0 (F := Ideal)) M (Proc.devRef .tc main_v156) : S64x8192.Idx → EReal) (ix2 ρ l)
      = (if l.val < th0 (ρ.val % 4) then 1 else 0 : EReal) := by
  rw [after_good0]; exact mask0_apply ρ l

/-- Window 3 at (ρ, l): the second family's birth value. -/
theorem birth1_at (M : Valuation τ sig (Elt Ideal)) (ρ : Fin 64) (l : Fin 8192) :
    (StableHlo.after (hostOps0 (F := Ideal)) M (Proc.devRef .tc main_v162) : S64x8192.Idx → EReal) (ix2 ρ l)
      = birth (M (Proc.devRef .tc main_arg0)) (M (Proc.devRef .tc main_arg2)) (ix3 (bat ρ) (cls ρ) l) := by
  rw [after_birth1]; exact flat_apply _ ρ l

/-- Window 4 at (ρ, l): the second family's death value. -/
theorem death1_at (M : Valuation τ sig (Elt Ideal)) (ρ : Fin 64) (l : Fin 8192) :
    (StableHlo.after (hostOps0 (F := Ideal)) M (Proc.devRef .tc main_v163) : S64x8192.Idx → EReal) (ix2 ρ l)
      = death (M (Proc.devRef .tc main_arg0)) (M (Proc.devRef .tc main_arg2)) (ix3 (bat ρ) (cls ρ) l) := by
  rw [after_death1]; exact flat_apply _ ρ l

/-- Window 5 at (ρ, l): 1 on the first `th1 (ρ % 4)` intervals, else 0. -/
theorem good1_at (M : Valuation τ sig (Elt Ideal)) (ρ : Fin 64) (l : Fin 8192) :
    (StableHlo.after (hostOps0 (F := Ideal)) M (Proc.devRef .tc main_v159) : S64x8192.Idx → EReal) (ix2 ρ l)
      = (if l.val < th1 (ρ.val % 4) then 1 else 0 : EReal) := by
  rw [after_good1]; exact mask1_apply ρ l

/-- The accumulation over the four blocks of the six arrays the program leaves, both families added at each
    block, is the total loss of the two families' birth and death values — when every image entry is real. -/
theorem acc_host_eq_total (M : Valuation τ sig (Elt Ideal))
    (hfin : ∀ j, ∃ r : ℝ, (M (Proc.devRef .tc main_arg0) : S16x4x512x512.Idx → EReal) j = (r : EReal)) :
    ((((0 + (Cert.BDLoss.blockSum (StableHlo.after (hostOps0 (F := Ideal)) M (Proc.devRef .tc main_v160) : S64x8192.Idx → EReal) (StableHlo.after (hostOps0 (F := Ideal)) M (Proc.devRef .tc main_v161) : S64x8192.Idx → EReal) (StableHlo.after (hostOps0 (F := Ideal)) M (Proc.devRef .tc main_v156) : S64x8192.Idx → EReal) 0
          + Cert.BDLoss.blockSum (StableHlo.after (hostOps0 (F := Ideal)) M (Proc.devRef .tc main_v162) : S64x8192.Idx → EReal) (StableHlo.after (hostOps0 (F := Ideal)) M (Proc.devRef .tc main_v163) : S64x8192.Idx → EReal) (StableHlo.after (hostOps0 (F := Ideal)) M (Proc.devRef .tc main_v159) : S64x8192.Idx → EReal) 0))
        + (Cert.BDLoss.blockSum (StableHlo.after (hostOps0 (F := Ideal)) M (Proc.devRef .tc main_v160) : S64x8192.Idx → EReal) (StableHlo.after (hostOps0 (F := Ideal)) M (Proc.devRef .tc main_v161) : S64x8192.Idx → EReal) (StableHlo.after (hostOps0 (F := Ideal)) M (Proc.devRef .tc main_v156) : S64x8192.Idx → EReal) 1
          + Cert.BDLoss.blockSum (StableHlo.after (hostOps0 (F := Ideal)) M (Proc.devRef .tc main_v162) : S64x8192.Idx → EReal) (StableHlo.after (hostOps0 (F := Ideal)) M (Proc.devRef .tc main_v163) : S64x8192.Idx → EReal) (StableHlo.after (hostOps0 (F := Ideal)) M (Proc.devRef .tc main_v159) : S64x8192.Idx → EReal) 1))
        + (Cert.BDLoss.blockSum (StableHlo.after (hostOps0 (F := Ideal)) M (Proc.devRef .tc main_v160) : S64x8192.Idx → EReal) (StableHlo.after (hostOps0 (F := Ideal)) M (Proc.devRef .tc main_v161) : S64x8192.Idx → EReal) (StableHlo.after (hostOps0 (F := Ideal)) M (Proc.devRef .tc main_v156) : S64x8192.Idx → EReal) 2
          + Cert.BDLoss.blockSum (StableHlo.after (hostOps0 (F := Ideal)) M (Proc.devRef .tc main_v162) : S64x8192.Idx → EReal) (StableHlo.after (hostOps0 (F := Ideal)) M (Proc.devRef .tc main_v163) : S64x8192.Idx → EReal) (StableHlo.after (hostOps0 (F := Ideal)) M (Proc.devRef .tc main_v159) : S64x8192.Idx → EReal) 2))
        + (Cert.BDLoss.blockSum (StableHlo.after (hostOps0 (F := Ideal)) M (Proc.devRef .tc main_v160) : S64x8192.Idx → EReal) (StableHlo.after (hostOps0 (F := Ideal)) M (Proc.devRef .tc main_v161) : S64x8192.Idx → EReal) (StableHlo.after (hostOps0 (F := Ideal)) M (Proc.devRef .tc main_v156) : S64x8192.Idx → EReal) 3
          + Cert.BDLoss.blockSum (StableHlo.after (hostOps0 (F := Ideal)) M (Proc.devRef .tc main_v162) : S64x8192.Idx → EReal) (StableHlo.after (hostOps0 (F := Ideal)) M (Proc.devRef .tc main_v163) : S64x8192.Idx → EReal) (StableHlo.after (hostOps0 (F := Ideal)) M (Proc.devRef .tc main_v159) : S64x8192.Idx → EReal) 3))
      = Cert.BDLoss.total (birth (M (Proc.devRef .tc main_arg0)) (M (Proc.devRef .tc main_arg1))) (death (M (Proc.devRef .tc main_arg0)) (M (Proc.devRef .tc main_arg1)))
          (birth (M (Proc.devRef .tc main_arg0)) (M (Proc.devRef .tc main_arg2))) (death (M (Proc.devRef .tc main_arg0)) (M (Proc.devRef .tc main_arg2))) :=
  Cert.BDLoss.acc_eq_total _ _ _ _
    (birth_real _ _ hfin) (death_real _ _ hfin) (birth_real _ _ hfin) (death_real _ _ hfin)
    _ _ _ _ _ _
    (birth0_at M) (death0_at M) (birth1_at M) (death1_at M) (good0_at M) (good1_at M)

end Cert.KernelIdeal.KValue

end
-- ==== Proof.KIValue.lean ====
/-
  What the kernel program returns, at the instance where floats are extended reals.

  The pipeline writes the output's staging buffer back once, after the last grid point, and that one block is the whole
  1×1 output array; so the array ends at the accumulator's final contents  acc 3, and the program's scalar result is its
  one entry.  Unfolding the accumulator gives zero plus, for each of the four points, the two block sums of that point
  (block t of an array is its rows 16·t … 16·t + 15).  Over the arrays the host operations computed — the gathered birth
  and death values and the 0/1 masks, one row per (batch, class) — those block sums add up to the interval loss of the
  gathered values, provided every entry of the image is a real number (the pointwise identity
  d + g·(1 − 2·d) = 1 − d  for g = 1 needs d finite).
-/
import proofs.«118714_j12034498363966_1_alg».proof.Proof.KIRun
import proofs.«118714_j12034498363966_1_alg».proof.Proof.KIBlocks
import proofs.«118714_j12034498363966_1_alg».proof.Proof.KIStepValue
import proofs.«118714_j12034498363966_1_alg».proof.Proof.KHostRead
import Idealize.ShloMosaic.Lib.StableHlo.Run

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Hand

open Cert.KernelIdeal Cert.KernelIdeal.Gen
open Idealize.ShloMosaic.ValueIdx

variable (m : (ℓ : Loc nD τ sig) → Buf (Elt Ideal) ℓ) (ρ : Dev nD → PrngReg)

/-- After the run the output array holds the accumulator's final contents. -/
theorem out_array (c : Dev nD) : (dat m c).arrAt 6 cfg0.N = acc m c 3 := by
  refine (dat m c).arrAt_eq_of_cover 6 (acc m c 3) (fun t hf => ?_) (fun i => Blocks.cover6 c i)
  have h3 : t.val = 3 := by
    have := (flush0_6 t).mp hf
    have hN : t.val < 4 := lt_of_lt_of_eq t.isLt four_points
    omega
  rw [Blocks.blk6_read c t]
  show acc m c t.val = acc m c 3
  rw [h3]

/-- The six blocks of point `n`, as one family. -/
def blocksOf (c : Dev nD) (n : Fin 4) : Fin 6 → Vec Ideal S16x8192 .f32
  | 0 => blockAt m c 0 (pt n.val)
  | 1 => blockAt m c 1 (pt n.val)
  | 2 => blockAt m c 2 (pt n.val)
  | 3 => blockAt m c 3 (pt n.val)
  | 4 => blockAt m c 4 (pt n.val)
  | 5 => blockAt m c 5 (pt n.val)

/-- The accumulator's final contents: the four updates applied to zero. -/
theorem acc_three (c : Dev nD) :
    acc m c 3 = step (blocksOf m c 3 0) (blocksOf m c 3 1) (blocksOf m c 3 2) (blocksOf m c 3 3) (blocksOf m c 3 4) (blocksOf m c 3 5)
      (step (blocksOf m c 2 0) (blocksOf m c 2 1) (blocksOf m c 2 2) (blocksOf m c 2 3) (blocksOf m c 2 4) (blocksOf m c 2 5)
        (step (blocksOf m c 1 0) (blocksOf m c 1 1) (blocksOf m c 1 2) (blocksOf m c 1 3) (blocksOf m c 1 4) (blocksOf m c 1 5)
          (step (blocksOf m c 0 0) (blocksOf m c 0 1) (blocksOf m c 0 2) (blocksOf m c 0 3) (blocksOf m c 0 4) (blocksOf m c 0 5) zeroAcc))) := rfl

/-- Block `t` of an input window, at row `r` and lane `l`, is the host-computed array at row `16·t + r`. -/
theorem block_row_0 (c : Dev nD) (t : Fin 4) (r : Fin 16) (l : Fin 8192) :
    blocksOf m c t 0 (ix2 r l) = (StableHlo.after (hostOps0 (F := Ideal)) (fun b => m (c, b)) (Proc.devRef .tc main_v160) : S64x8192.Idx → EReal) (ix2 (Cert.BDLoss.row t r) l) := by
  show blockAt m c 0 (pt t.val) (ix2 r l) = _
  unfold blockAt
  rw [Blocks.blk0_apply c (pt t.val) _ r l, entry_eq_after]
  fin_cases t <;> rfl
theorem block_row_1 (c : Dev nD) (t : Fin 4) (r : Fin 16) (l : Fin 8192) :
    blocksOf m c t 1 (ix2 r l) = (StableHlo.after (hostOps0 (F := Ideal)) (fun b => m (c, b)) (Proc.devRef .tc main_v161) : S64x8192.Idx → EReal) (ix2 (Cert.BDLoss.row t r) l) := by
  show blockAt m c 1 (pt t.val) (ix2 r l) = _
  unfold blockAt
  rw [Blocks.blk1_apply c (pt t.val) _ r l, entry_eq_after]
  fin_cases t <;> rfl
theorem block_row_2 (c : Dev nD) (t : Fin 4) (r : Fin 16) (l : Fin 8192) :
    blocksOf m c t 2 (ix2 r l) = (StableHlo.after (hostOps0 (F := Ideal)) (fun b => m (c, b)) (Proc.devRef .tc main_v156) : S64x8192.Idx → EReal) (ix2 (Cert.BDLoss.row t r) l) := by
  show blockAt m c 2 (pt t.val) (ix2 r l) = _
  unfold blockAt
  rw [Blocks.blk2_apply c (pt t.val) _ r l, entry_eq_after]
  fin_cases t <;> rfl
theorem block_row_3 (c : Dev nD) (t : Fin 4) (r : Fin 16) (l : Fin 8192) :
    blocksOf m c t 3 (ix2 r l) = (StableHlo.after (hostOps0 (F := Ideal)) (fun b => m (c, b)) (Proc.devRef .tc main_v162) : S64x8192.Idx → EReal) (ix2 (Cert.BDLoss.row t r) l) := by
  show blockAt m c 3 (pt t.val) (ix2 r l) = _
  unfold blockAt
  rw [Blocks.blk3_apply c (pt t.val) _ r l, entry_eq_after]
  fin_cases t <;> rfl
theorem block_row_4 (c : Dev nD) (t : Fin 4) (r : Fin 16) (l : Fin 8192) :
    blocksOf m c t 4 (ix2 r l) = (StableHlo.after (hostOps0 (F := Ideal)) (fun b => m (c, b)) (Proc.devRef .tc main_v163) : S64x8192.Idx → EReal) (ix2 (Cert.BDLoss.row t r) l) := by
  show blockAt m c 4 (pt t.val) (ix2 r l) = _
  unfold blockAt
  rw [Blocks.blk4_apply c (pt t.val) _ r l, entry_eq_after]
  fin_cases t <;> rfl
theorem block_row_5 (c : Dev nD) (t : Fin 4) (r : Fin 16) (l : Fin 8192) :
    blocksOf m c t 5 (ix2 r l) = (StableHlo.after (hostOps0 (F := Ideal)) (fun b => m (c, b)) (Proc.devRef .tc main_v159) : S64x8192.Idx → EReal) (ix2 (Cert.BDLoss.row t r) l) := by
  show blockAt m c 5 (pt t.val) (ix2 r l) = _
  unfold blockAt
  rw [Blocks.blk5_apply c (pt t.val) _ r l, entry_eq_after]
  fin_cases t <;> rfl

/-- The gathered values and the loss they define, for core `c`'s arguments. -/
abbrev lossOf (c : Dev nD) : EReal :=
  Cert.BDLoss.total
    (KValue.birth (m ((c.tc : Thread nD τ).loc main_arg0)) (m ((c.tc : Thread nD τ).loc main_arg1)))
    (KValue.death (m ((c.tc : Thread nD τ).loc main_arg0)) (m ((c.tc : Thread nD τ).loc main_arg1)))
    (KValue.birth (m ((c.tc : Thread nD τ).loc main_arg0)) (m ((c.tc : Thread nD τ).loc main_arg2)))
    (KValue.death (m ((c.tc : Thread nD τ).loc main_arg0)) (m ((c.tc : Thread nD τ).loc main_arg2)))

/-- The accumulator's final contents are the loss of the gathered values, when the image is real-valued. -/
theorem acc_value (c : Dev nD)
    (hfin : ∀ j, ∃ r : ℝ, (m ((c.tc : Thread nD τ).loc main_arg0) : S16x4x512x512.Idx → EReal) j = (r : EReal)) :
    acc m c 3 (ix2 0 0) = lossOf m c := by
  rw [acc_three]
  refine (StepValue.iterate_apply (blocksOf m c) (ix2 0 0)).trans ?_
  rw [StepValue.bsum_eq_blockSum _ _ _ (StableHlo.after (hostOps0 (F := Ideal)) (fun b => m (c, b)) (Proc.devRef .tc main_v160) : S64x8192.Idx → EReal) (StableHlo.after (hostOps0 (F := Ideal)) (fun b => m (c, b)) (Proc.devRef .tc main_v161) : S64x8192.Idx → EReal) (StableHlo.after (hostOps0 (F := Ideal)) (fun b => m (c, b)) (Proc.devRef .tc main_v156) : S64x8192.Idx → EReal) 0 (block_row_0 m c 0) (block_row_1 m c 0) (block_row_2 m c 0),
    StepValue.bsum_eq_blockSum _ _ _ (StableHlo.after (hostOps0 (F := Ideal)) (fun b => m (c, b)) (Proc.devRef .tc main_v162) : S64x8192.Idx → EReal) (StableHlo.after (hostOps0 (F := Ideal)) (fun b => m (c, b)) (Proc.devRef .tc main_v163) : S64x8192.Idx → EReal) (StableHlo.after (hostOps0 (F := Ideal)) (fun b => m (c, b)) (Proc.devRef .tc main_v159) : S64x8192.Idx → EReal) 0 (block_row_3 m c 0) (block_row_4 m c 0) (block_row_5 m c 0),
    StepValue.bsum_eq_blockSum _ _ _ (StableHlo.after (hostOps0 (F := Ideal)) (fun b => m (c, b)) (Proc.devRef .tc main_v160) : S64x8192.Idx → EReal) (StableHlo.after (hostOps0 (F := Ideal)) (fun b => m (c, b)) (Proc.devRef .tc main_v161) : S64x8192.Idx → EReal) (StableHlo.after (hostOps0 (F := Ideal)) (fun b => m (c, b)) (Proc.devRef .tc main_v156) : S64x8192.Idx → EReal) 1 (block_row_0 m c 1) (block_row_1 m c 1) (block_row_2 m c 1),
    StepValue.bsum_eq_blockSum _ _ _ (StableHlo.after (hostOps0 (F := Ideal)) (fun b => m (c, b)) (Proc.devRef .tc main_v162) : S64x8192.Idx → EReal) (StableHlo.after (hostOps0 (F := Ideal)) (fun b => m (c, b)) (Proc.devRef .tc main_v163) : S64x8192.Idx → EReal) (StableHlo.after (hostOps0 (F := Ideal)) (fun b => m (c, b)) (Proc.devRef .tc main_v159) : S64x8192.Idx → EReal) 1 (block_row_3 m c 1) (block_row_4 m c 1) (block_row_5 m c 1),
    StepValue.bsum_eq_blockSum _ _ _ (StableHlo.after (hostOps0 (F := Ideal)) (fun b => m (c, b)) (Proc.devRef .tc main_v160) : S64x8192.Idx → EReal) (StableHlo.after (hostOps0 (F := Ideal)) (fun b => m (c, b)) (Proc.devRef .tc main_v161) : S64x8192.Idx → EReal) (StableHlo.after (hostOps0 (F := Ideal)) (fun b => m (c, b)) (Proc.devRef .tc main_v156) : S64x8192.Idx → EReal) 2 (block_row_0 m c 2) (block_row_1 m c 2) (block_row_2 m c 2),
    StepValue.bsum_eq_blockSum _ _ _ (StableHlo.after (hostOps0 (F := Ideal)) (fun b => m (c, b)) (Proc.devRef .tc main_v162) : S64x8192.Idx → EReal) (StableHlo.after (hostOps0 (F := Ideal)) (fun b => m (c, b)) (Proc.devRef .tc main_v163) : S64x8192.Idx → EReal) (StableHlo.after (hostOps0 (F := Ideal)) (fun b => m (c, b)) (Proc.devRef .tc main_v159) : S64x8192.Idx → EReal) 2 (block_row_3 m c 2) (block_row_4 m c 2) (block_row_5 m c 2),
    StepValue.bsum_eq_blockSum _ _ _ (StableHlo.after (hostOps0 (F := Ideal)) (fun b => m (c, b)) (Proc.devRef .tc main_v160) : S64x8192.Idx → EReal) (StableHlo.after (hostOps0 (F := Ideal)) (fun b => m (c, b)) (Proc.devRef .tc main_v161) : S64x8192.Idx → EReal) (StableHlo.after (hostOps0 (F := Ideal)) (fun b => m (c, b)) (Proc.devRef .tc main_v156) : S64x8192.Idx → EReal) 3 (block_row_0 m c 3) (block_row_1 m c 3) (block_row_2 m c 3),
    StepValue.bsum_eq_blockSum _ _ _ (StableHlo.after (hostOps0 (F := Ideal)) (fun b => m (c, b)) (Proc.devRef .tc main_v162) : S64x8192.Idx → EReal) (StableHlo.after (hostOps0 (F := Ideal)) (fun b => m (c, b)) (Proc.devRef .tc main_v163) : S64x8192.Idx → EReal) (StableHlo.after (hostOps0 (F := Ideal)) (fun b => m (c, b)) (Proc.devRef .tc main_v159) : S64x8192.Idx → EReal) 3 (block_row_3 m c 3) (block_row_4 m c 3) (block_row_5 m c 3)]
  exact KValue.acc_host_eq_total (fun b => m (c, b)) hfin

/-- The one cell of a 1×1 array, reshaped to a scalar. -/
theorem cell_to_scalar (X : Vec Ideal S1x1 .f32) (j : S_.Idx) : shapeCast S_ X shapeCasts_S1x1_S_ j = X (ix2 0 0) :=
  shapeCast_apply X shapeCasts_S1x1_S_ j (ix2 0 0) (by
    have h1 : (S1x1.rowMajor (ix2 0 0)).val < 1 := (S1x1.rowMajor (ix2 0 0)).isLt
    have h2 : (S_.rowMajor j).val < 1 := (S_.rowMajor j).isLt
    omega)

/-- After the run the result buffer holds the reshape of the output array. -/
theorem result_cell (c : Dev nD) (r : PUnit × MemSt nD τ sig (Elt Ideal))
    (h : Pipeline.FramePost cfgs (dats m) 0 (Pipeline.afterTail₀ cfgs (dats m) 0 (entry m) [hostOps1]) r) :
    r.2.mem ((c.tc : Thread nD τ).loc main_v165) = shapeCast S_ (acc m c 3) shapeCasts_S1x1_S_ := by
  refine ((h c).2 main_v165 (Pipeline.mem_restRefs_of main_v165 rfl (by decide))).trans ?_
  unfold Pipeline.afterTail₀
  show StableHlo.after hostOps1 _ (Proc.devRef .tc main_v165) = _
  after_results
  have e : Pipeline.withArrays (cfgs 0).spec c (entry m c) (fun w => (dats m 0 c).arrAt w (cfgs 0).N) (Proc.devRef .tc main_v164)
      = acc m c 3 :=
    (Pipeline.withArrays_arr spec0 launch0.win.arr_inj c _ _ 6).trans (out_array m c)
  funext i
  show shapeCast S_ (Pipeline.withArrays (cfgs 0).spec c (entry m c) (fun w => (dats m 0 c).arrAt w (cfgs 0).N) (Proc.devRef .tc main_v164))
      shapeCasts_S1x1_S_ i = _
  rw [e]

/-- The kernel program, run from a memory whose image array is real-valued: every weakly fair execution terminates without
    a fault with the scalar result at the interval loss of the gathered values, and the three arguments as launched. -/
theorem run_value
    (hfin : ∀ (c : Dev nD) j, ∃ r : ℝ, (m ((c.tc : Thread nD τ).loc main_arg0) : S16x4x512x512.Idx → EReal) j = (r : EReal)) :
    θ_run defs (onTc (τ := τ) (main (F := Ideal))) ⟨m, fun _ => 0, ρ⟩ (fun r => ∀ c : Dev nD,
      r.2.mem ((c.tc : Thread nD τ).loc main_v165) = (fun _ => lossOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(result_cell m c r h).trans (funext fun j => (cell_to_scalar _ j).trans (acc_value m c (hfin c))),
     args_at_end m (dats m) r h c⟩) (run m ρ)

end Cert.KernelIdeal.Hand

end
-- ==== Proof.RefOps.lean ====
/-
  The reference program as a list of operations.

  @main of the reference is a straight line of 207 host operations: the 205 it prints, the two calls of the outlined
  `_where` each replaced by the callee's two operations (the broadcast of the mask, then the select) at the call's own
  buffers.  The list is cut where the computation's stages end (the gathers of the birth and the death values and the
  loss, for each of the two interval families) and where the printed windows end.  This module states that @main is the
  list run in order, that every operation touches TensorCore buffers only, and that none leaves a result undetermined.
-/
import proofs.«118714_j12034498363966_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- The birth values of the first interval family: the batch and class coordinates, the two pixel coordinates read from `main_arg1` at position 0 of the fourth axis, and the gather of the image at the four. -/
abbrev A : List (HloOp τ sig (Elt F)) :=
  [ nullary main_c (fun i => lit0 (S4.rowMajor i)),
    nullary main_c_0 (fun i => lit1 (S4.rowMajor i)),
    nullary main_v0 (iotaInDim S16 32 0),
    unary main_v0 main_v1 (broadcastInDim S16x1x1 ![0] bcast_S16_S16x1x1_0 : (⟨S16, .i32⟩ : BufTy).Contents (Elt F) → (⟨S16x1x1, .i32⟩ : BufTy).Contents (Elt F)),
    nullary main_v2 (iotaInDim S4 32 0),
    unary main_v2 main_v3 (broadcastInDim S1x4x1 ![1] bcast_S4_S1x4x1_1 : (⟨S4, .i32⟩ : BufTy).Contents (Elt F) → (⟨S1x4x1, .i32⟩ : BufTy).Contents (Elt F)),
    unary main_arg1 main_v4 ((extractStridedSlice S16x4x8192x1x1 ![0, 0, 0, 0, 0] · slices_S16x4x8192x2x2_S16x4x8192x1x1_0_0_0_0_0) : (⟨S16x4x8192x2x2, .i32⟩ : BufTy).Contents (Elt F) → (⟨S16x4x8192x1x1, .i32⟩ : BufTy).Contents (Elt F)),
    reshape main_v4 main_v5 rfl shapeCasts_S16x4x8192x1x1_S16x4x8192,
    unary main_arg1 main_v6 ((extractStridedSlice S16x4x8192x1x1 ![0, 0, 0, 0, 1] · slices_S16x4x8192x2x2_S16x4x8192x1x1_0_0_0_0_1) : (⟨S16x4x8192x2x2, .i32⟩ : BufTy).Contents (Elt F) → (⟨S16x4x8192x1x1, .i32⟩ : BufTy).Contents (Elt F)),
    reshape main_v6 main_v7 rfl shapeCasts_S16x4x8192x1x1_S16x4x8192,
    nullary main_c_1 (constantI S_ 32 0#32),
    unary main_c_1 main_v8 (broadcastInDim S16x1x1 ![] bcast_S_S16x1x1 : (⟨S_, .i32⟩ : BufTy).Contents (Elt F) → (⟨S16x1x1, .i32⟩ : BufTy).Contents (Elt F)),
    binary main_v1 main_v8 main_v9 (cmpi .slt : (⟨S16x1x1, .i32⟩ : BufTy).Contents (Elt F) → (⟨S16x1x1, .i32⟩ : BufTy).Contents (Elt F) → (⟨S16x1x1, .i1⟩ : BufTy).Contents (Elt F)),
    nullary main_c_2 (constantI S_ 32 16#32),
    unary main_c_2 main_v10 (broadcastInDim S16x1x1 ![] bcast_S_S16x1x1 : (⟨S_, .i32⟩ : BufTy).Contents (Elt F) → (⟨S16x1x1, .i32⟩ : BufTy).Contents (Elt F)),
    binary main_v1 main_v10 main_v11 (addi : (⟨S16x1x1, .i32⟩ : BufTy).Contents (Elt F) → (⟨S16x1x1, .i32⟩ : BufTy).Contents (Elt F) → (⟨S16x1x1, .i32⟩ : BufTy).Contents (Elt F)),
    ternary main_v9 main_v11 main_v1 main_v12 (select : (⟨S16x1x1, .i1⟩ : BufTy).Contents (Elt F) → (⟨S16x1x1, .i32⟩ : BufTy).Contents (Elt F) → (⟨S16x1x1, .i32⟩ : BufTy).Contents (Elt F) → (⟨S16x1x1, .i32⟩ : BufTy).Contents (Elt F)),
    nullary main_c_3 (constantI S_ 32 0#32),
    unary main_c_3 main_v13 (broadcastInDim S1x4x1 ![] bcast_S_S1x4x1 : (⟨S_, .i32⟩ : BufTy).Contents (Elt F) → (⟨S1x4x1, .i32⟩ : BufTy).Contents (Elt F)),
    binary main_v3 main_v13 main_v14 (cmpi .slt : (⟨S1x4x1, .i32⟩ : BufTy).Contents (Elt F) → (⟨S1x4x1, .i32⟩ : BufTy).Contents (Elt F) → (⟨S1x4x1, .i1⟩ : BufTy).Contents (Elt F)),
    nullary main_c_4 (constantI S_ 32 4#32),
    unary main_c_4 main_v15 (broadcastInDim S1x4x1 ![] bcast_S_S1x4x1 : (⟨S_, .i32⟩ : BufTy).Contents (Elt F) → (⟨S1x4x1, .i32⟩ : BufTy).Contents (Elt F)),
    binary main_v3 main_v15 main_v16 (addi : (⟨S1x4x1, .i32⟩ : BufTy).Contents (Elt F) → (⟨S1x4x1, .i32⟩ : BufTy).Contents (Elt F) → (⟨S1x4x1, .i32⟩ : BufTy).Contents (Elt F)),
    ternary main_v14 main_v16 main_v3 main_v17 (select : (⟨S1x4x1, .i1⟩ : BufTy).Contents (Elt F) → (⟨S1x4x1, .i32⟩ : BufTy).Contents (Elt F) → (⟨S1x4x1, .i32⟩ : BufTy).Contents (Elt F) → (⟨S1x4x1, .i32⟩ : BufTy).Contents (Elt F)),
    nullary main_c_5 (constantI S_ 32 0#32),
    unary main_c_5 main_v18 (broadcastInDim S16x4x8192 ![] bcast_S_S16x4x8192 : (⟨S_, .i32⟩ : BufTy).Contents (Elt F) → (⟨S16x4x8192, .i32⟩ : BufTy).Contents (Elt F)),
    binary main_v5 main_v18 main_v19 (cmpi .slt : (⟨S16x4x8192, .i32⟩ : BufTy).Contents (Elt F) → (⟨S16x4x8192, .i32⟩ : BufTy).Contents (Elt F) → (⟨S16x4x8192, .i1⟩ : BufTy).Contents (Elt F)),
    nullary main_c_6 (constantI S_ 32 512#32),
    unary main_c_6 main_v20 (broadcastInDim S16x4x8192 ![] bcast_S_S16x4x8192 : (⟨S_, .i32⟩ : BufTy).Contents (Elt F) → (⟨S16x4x8192, .i32⟩ : BufTy).Contents (Elt F)),
    binary main_v5 main_v20 main_v21 (addi : (⟨S16x4x8192, .i32⟩ : BufTy).Contents (Elt F) → (⟨S16x4x8192, .i32⟩ : BufTy).Contents (Elt F) → (⟨S16x4x8192, .i32⟩ : BufTy).Contents (Elt F)),
    ternary main_v19 main_v21 main_v5 main_v22 (select : (⟨S16x4x8192, .i1⟩ : BufTy).Contents (Elt F) → (⟨S16x4x8192, .i32⟩ : BufTy).Contents (Elt F) → (⟨S16x4x8192, .i32⟩ : BufTy).Contents (Elt F) → (⟨S16x4x8192, .i32⟩ : BufTy).Contents (Elt F)),
    nullary main_c_7 (constantI S_ 32 0#32),
    unary main_c_7 main_v23 (broadcastInDim S16x4x8192 ![] bcast_S_S16x4x8192 : (⟨S_, .i32⟩ : BufTy).Contents (Elt F) → (⟨S16x4x8192, .i32⟩ : BufTy).Contents (Elt F)),
    binary main_v7 main_v23 main_v24 (cmpi .slt : (⟨S16x4x8192, .i32⟩ : BufTy).Contents (Elt F) → (⟨S16x4x8192, .i32⟩ : BufTy).Contents (Elt F) → (⟨S16x4x8192, .i1⟩ : BufTy).Contents (Elt F)),
    nullary main_c_8 (constantI S_ 32 512#32),
    unary main_c_8 main_v25 (broadcastInDim S16x4x8192 ![] bcast_S_S16x4x8192 : (⟨S_, .i32⟩ : BufTy).Contents (Elt F) → (⟨S16x4x8192, .i32⟩ : BufTy).Contents (Elt F)),
    binary main_v7 main_v25 main_v26 (addi : (⟨S16x4x8192, .i32⟩ : BufTy).Contents (Elt F) → (⟨S16x4x8192, .i32⟩ : BufTy).Contents (Elt F) → (⟨S16x4x8192, .i32⟩ : BufTy).Contents (Elt F)),
    ternary main_v24 main_v26 main_v7 main_v27 (select : (⟨S16x4x8192, .i1⟩ : BufTy).Contents (Elt F) → (⟨S16x4x8192, .i32⟩ : BufTy).Contents (Elt F) → (⟨S16x4x8192, .i32⟩ : BufTy).Contents (Elt F) → (⟨S16x4x8192, .i32⟩ : BufTy).Contents (Elt F)),
    unary main_v12 main_v28 (broadcastInDim S16x4x8192 ![0, 1, 2] bcast_S16x1x1_S16x4x8192_0_1_2 : (⟨S16x1x1, .i32⟩ : BufTy).Contents (Elt F) → (⟨S16x4x8192, .i32⟩ : BufTy).Contents (Elt F)),
    unary main_v17 main_v29 (broadcastInDim S16x4x8192 ![0, 1, 2] bcast_S1x4x1_S16x4x8192_0_1_2 : (⟨S1x4x1, .i32⟩ : BufTy).Contents (Elt F) → (⟨S16x4x8192, .i32⟩ : BufTy).Contents (Elt F)),
    unary main_v28 main_v30 (broadcastInDim S16x4x8192x1 ![0, 1, 2] bcast_S16x4x8192_S16x4x8192x1_0_1_2 : (⟨S16x4x8192, .i32⟩ : BufTy).Contents (Elt F) → (⟨S16x4x8192x1, .i32⟩ : BufTy).Contents (Elt F)),
    unary main_v29 main_v31 (broadcastInDim S16x4x8192x1 ![0, 1, 2] bcast_S16x4x8192_S16x4x8192x1_0_1_2 : (⟨S16x4x8192, .i32⟩ : BufTy).Contents (Elt F) → (⟨S16x4x8192x1, .i32⟩ : BufTy).Contents (Elt F)),
    unary main_v22 main_v32 (broadcastInDim S16x4x8192x1 ![0, 1, 2] bcast_S16x4x8192_S16x4x8192x1_0_1_2 : (⟨S16x4x8192, .i32⟩ : BufTy).Contents (Elt F) → (⟨S16x4x8192x1, .i32⟩ : BufTy).Contents (Elt F)),
    unary main_v27 main_v33 (broadcastInDim S16x4x8192x1 ![0, 1, 2] bcast_S16x4x8192_S16x4x8192x1_0_1_2 : (⟨S16x4x8192, .i32⟩ : BufTy).Contents (Elt F) → (⟨S16x4x8192x1, .i32⟩ : BufTy).Contents (Elt F)),
    nary ![main_v30, main_v31, main_v32, main_v33] main_v34 (fun u => concatenate S16x4x8192x4 3 [⟨S16x4x8192x1, u 0⟩, ⟨S16x4x8192x1, u 1⟩, ⟨S16x4x8192x1, u 2⟩, ⟨S16x4x8192x1, u 3⟩] concatenates_S16x4x8192x1_S16x4x8192x1_S16x4x8192x1_S16x4x8192x1_S16x4x8192x4_d3),
    binary main_arg0 main_v34 main_v35 ((fun x i => Host.gather gather_S16x4x512x512_S16x4x8192x4_S16x4x8192_n_0123_n_n_0123_3_1111 x i) : (⟨S16x4x512x512, .f32⟩ : BufTy).Contents (Elt F) → (⟨S16x4x8192x4, .i32⟩ : BufTy).Contents (Elt F) → (⟨S16x4x8192, .f32⟩ : BufTy).Contents (Elt F)) ]

/-- The death values of the first family, first half: the two pixel coordinates read from `main_arg1` at position 1 of the fourth axis, and the wrap tests of the batch and class coordinates. -/
abbrev B1 : List (HloOp τ sig (Elt F)) :=
  [ unary main_arg1 main_v36 ((extractStridedSlice S16x4x8192x1x1 ![0, 0, 0, 1, 0] · slices_S16x4x8192x2x2_S16x4x8192x1x1_0_0_0_1_0) : (⟨S16x4x8192x2x2, .i32⟩ : BufTy).Contents (Elt F) → (⟨S16x4x8192x1x1, .i32⟩ : BufTy).Contents (Elt F)),
    reshape main_v36 main_v37 rfl shapeCasts_S16x4x8192x1x1_S16x4x8192,
    unary main_arg1 main_v38 ((extractStridedSlice S16x4x8192x1x1 ![0, 0, 0, 1, 1] · slices_S16x4x8192x2x2_S16x4x8192x1x1_0_0_0_1_1) : (⟨S16x4x8192x2x2, .i32⟩ : BufTy).Contents (Elt F) → (⟨S16x4x8192x1x1, .i32⟩ : BufTy).Contents (Elt F)),
    reshape main_v38 main_v39 rfl shapeCasts_S16x4x8192x1x1_S16x4x8192,
    nullary main_c_9 (constantI S_ 32 0#32),
    unary main_c_9 main_v40 (broadcastInDim S16x1x1 ![] bcast_S_S16x1x1 : (⟨S_, .i32⟩ : BufTy).Contents (Elt F) → (⟨S16x1x1, .i32⟩ : BufTy).Contents (Elt F)),
    binary main_v1 main_v40 main_v41 (cmpi .slt : (⟨S16x1x1, .i32⟩ : BufTy).Contents (Elt F) → (⟨S16x1x1, .i32⟩ : BufTy).Contents (Elt F) → (⟨S16x1x1, .i1⟩ : BufTy).Contents (Elt F)),
    nullary main_c_10 (constantI S_ 32 16#32),
    unary main_c_10 main_v42 (broadcastInDim S16x1x1 ![] bcast_S_S16x1x1 : (⟨S_, .i32⟩ : BufTy).Contents (Elt F) → (⟨S16x1x1, .i32⟩ : BufTy).Contents (Elt F)),
    binary main_v1 main_v42 main_v43 (addi : (⟨S16x1x1, .i32⟩ : BufTy).Contents (Elt F) → (⟨S16x1x1, .i32⟩ : BufTy).Contents (Elt F) → (⟨S16x1x1, .i32⟩ : BufTy).Contents (Elt F)),
    ternary main_v41 main_v43 main_v1 main_v44 (select : (⟨S16x1x1, .i1⟩ : BufTy).Contents (Elt F) → (⟨S16x1x1, .i32⟩ : BufTy).Contents (Elt F) → (⟨S16x1x1, .i32⟩ : BufTy).Contents (Elt F) → (⟨S16x1x1, .i32⟩ : BufTy).Contents (Elt F)),
    nullary main_c_11 (constantI S_ 32 0#32),
    unary main_c_11 main_v45 (broadcastInDim S1x4x1 ![] bcast_S_S1x4x1 : (⟨S_, .i32⟩ : BufTy).Contents (Elt F) → (⟨S1x4x1, .i32⟩ : BufTy).Contents (Elt F)),
    binary main_v3 main_v45 main_v46 (cmpi .slt : (⟨S1x4x1, .i32⟩ : BufTy).Contents (Elt F) → (⟨S1x4x1, .i32⟩ : BufTy).Contents (Elt F) → (⟨S1x4x1, .i1⟩ : BufTy).Contents (Elt F)) ]

/-- The death values of the first family, second half: the coordinates wrapped, joined, and the gather. -/
abbrev B2 : List (HloOp τ sig (Elt F)) :=
  [ nullary main_c_12 (constantI S_ 32 4#32),
    unary main_c_12 main_v47 (broadcastInDim S1x4x1 ![] bcast_S_S1x4x1 : (⟨S_, .i32⟩ : BufTy).Contents (Elt F) → (⟨S1x4x1, .i32⟩ : BufTy).Contents (Elt F)),
    binary main_v3 main_v47 main_v48 (addi : (⟨S1x4x1, .i32⟩ : BufTy).Contents (Elt F) → (⟨S1x4x1, .i32⟩ : BufTy).Contents (Elt F) → (⟨S1x4x1, .i32⟩ : BufTy).Contents (Elt F)),
    ternary main_v46 main_v48 main_v3 main_v49 (select : (⟨S1x4x1, .i1⟩ : BufTy).Contents (Elt F) → (⟨S1x4x1, .i32⟩ : BufTy).Contents (Elt F) → (⟨S1x4x1, .i32⟩ : BufTy).Contents (Elt F) → (⟨S1x4x1, .i32⟩ : BufTy).Contents (Elt F)),
    nullary main_c_13 (constantI S_ 32 0#32),
    unary main_c_13 main_v50 (broadcastInDim S16x4x8192 ![] bcast_S_S16x4x8192 : (⟨S_, .i32⟩ : BufTy).Contents (Elt F) → (⟨S16x4x8192, .i32⟩ : BufTy).Contents (Elt F)),
    binary main_v37 main_v50 main_v51 (cmpi .slt : (⟨S16x4x8192, .i32⟩ : BufTy).Contents (Elt F) → (⟨S16x4x8192, .i32⟩ : BufTy).Contents (Elt F) → (⟨S16x4x8192, .i1⟩ : BufTy).Contents (Elt F)),
    nullary main_c_14 (constantI S_ 32 512#32),
    unary main_c_14 main_v52 (broadcastInDim S16x4x8192 ![] bcast_S_S16x4x8192 : (⟨S_, .i32⟩ : BufTy).Contents (Elt F) → (⟨S16x4x8192, .i32⟩ : BufTy).Contents (Elt F)),
    binary main_v37 main_v52 main_v53 (addi : (⟨S16x4x8192, .i32⟩ : BufTy).Contents (Elt F) → (⟨S16x4x8192, .i32⟩ : BufTy).Contents (Elt F) → (⟨S16x4x8192, .i32⟩ : BufTy).Contents (Elt F)),
    ternary main_v51 main_v53 main_v37 main_v54 (select : (⟨S16x4x8192, .i1⟩ : BufTy).Contents (Elt F) → (⟨S16x4x8192, .i32⟩ : BufTy).Contents (Elt F) → (⟨S16x4x8192, .i32⟩ : BufTy).Contents (Elt F) → (⟨S16x4x8192, .i32⟩ : BufTy).Contents (Elt F)),
    nullary main_c_15 (constantI S_ 32 0#32),
    unary main_c_15 main_v55 (broadcastInDim S16x4x8192 ![] bcast_S_S16x4x8192 : (⟨S_, .i32⟩ : BufTy).Contents (Elt F) → (⟨S16x4x8192, .i32⟩ : BufTy).Contents (Elt F)),
    binary main_v39 main_v55 main_v56 (cmpi .slt : (⟨S16x4x8192, .i32⟩ : BufTy).Contents (Elt F) → (⟨S16x4x8192, .i32⟩ : BufTy).Contents (Elt F) → (⟨S16x4x8192, .i1⟩ : BufTy).Contents (Elt F)),
    nullary main_c_16 (constantI S_ 32 512#32),
    unary main_c_16 main_v57 (broadcastInDim S16x4x8192 ![] bcast_S_S16x4x8192 : (⟨S_, .i32⟩ : BufTy).Contents (Elt F) → (⟨S16x4x8192, .i32⟩ : BufTy).Contents (Elt F)),
    binary main_v39 main_v57 main_v58 (addi : (⟨S16x4x8192, .i32⟩ : BufTy).Contents (Elt F) → (⟨S16x4x8192, .i32⟩ : BufTy).Contents (Elt F) → (⟨S16x4x8192, .i32⟩ : BufTy).Contents (Elt F)),
    ternary main_v56 main_v58 main_v39 main_v59 (select : (⟨S16x4x8192, .i1⟩ : BufTy).Contents (Elt F) → (⟨S16x4x8192, .i32⟩ : BufTy).Contents (Elt F) → (⟨S16x4x8192, .i32⟩ : BufTy).Contents (Elt F) → (⟨S16x4x8192, .i32⟩ : BufTy).Contents (Elt F)),
    unary main_v44 main_v60 (broadcastInDim S16x4x8192 ![0, 1, 2] bcast_S16x1x1_S16x4x8192_0_1_2 : (⟨S16x1x1, .i32⟩ : BufTy).Contents (Elt F) → (⟨S16x4x8192, .i32⟩ : BufTy).Contents (Elt F)),
    unary main_v49 main_v61 (broadcastInDim S16x4x8192 ![0, 1, 2] bcast_S1x4x1_S16x4x8192_0_1_2 : (⟨S1x4x1, .i32⟩ : BufTy).Contents (Elt F) → (⟨S16x4x8192, .i32⟩ : BufTy).Contents (Elt F)),
    unary main_v60 main_v62 (broadcastInDim S16x4x8192x1 ![0, 1, 2] bcast_S16x4x8192_S16x4x8192x1_0_1_2 : (⟨S16x4x8192, .i32⟩ : BufTy).Contents (Elt F) → (⟨S16x4x8192x1, .i32⟩ : BufTy).Contents (Elt F)),
    unary main_v61 main_v63 (broadcastInDim S16x4x8192x1 ![0, 1, 2] bcast_S16x4x8192_S16x4x8192x1_0_1_2 : (⟨S16x4x8192, .i32⟩ : BufTy).Contents (Elt F) → (⟨S16x4x8192x1, .i32⟩ : BufTy).Contents (Elt F)),
    unary main_v54 main_v64 (broadcastInDim S16x4x8192x1 ![0, 1, 2] bcast_S16x4x8192_S16x4x8192x1_0_1_2 : (⟨S16x4x8192, .i32⟩ : BufTy).Contents (Elt F) → (⟨S16x4x8192x1, .i32⟩ : BufTy).Contents (Elt F)),
    unary main_v59 main_v65 (broadcastInDim S16x4x8192x1 ![0, 1, 2] bcast_S16x4x8192_S16x4x8192x1_0_1_2 : (⟨S16x4x8192, .i32⟩ : BufTy).Contents (Elt F) → (⟨S16x4x8192x1, .i32⟩ : BufTy).Contents (Elt F)),
    nary ![main_v62, main_v63, main_v64, main_v65] main_v66 (fun u => concatenate S16x4x8192x4 3 [⟨S16x4x8192x1, u 0⟩, ⟨S16x4x8192x1, u 1⟩, ⟨S16x4x8192x1, u 2⟩, ⟨S16x4x8192x1, u 3⟩] concatenates_S16x4x8192x1_S16x4x8192x1_S16x4x8192x1_S16x4x8192x1_S16x4x8192x4_d3),
    binary main_arg0 main_v66 main_v67 ((fun x i => Host.gather gather_S16x4x512x512_S16x4x8192x4_S16x4x8192_n_0123_n_n_0123_3_1111 x i) : (⟨S16x4x512x512, .f32⟩ : BufTy).Contents (Elt F) → (⟨S16x4x8192x4, .i32⟩ : BufTy).Contents (Elt F) → (⟨S16x4x8192, .f32⟩ : BufTy).Contents (Elt F)) ]

/-- The loss of the first family: the squared difference, the mask of the expected intervals, the choice between `1 - d` and `d`, and the sum over everything. -/
abbrev C : List (HloOp τ sig (Elt F)) :=
  [ binary main_v35 main_v67 main_v68 (subf : (⟨S16x4x8192, .f32⟩ : BufTy).Contents (Elt F) → (⟨S16x4x8192, .f32⟩ : BufTy).Contents (Elt F) → (⟨S16x4x8192, .f32⟩ : BufTy).Contents (Elt F)),
    binary main_v68 main_v68 main_v69 (mulf : (⟨S16x4x8192, .f32⟩ : BufTy).Contents (Elt F) → (⟨S16x4x8192, .f32⟩ : BufTy).Contents (Elt F) → (⟨S16x4x8192, .f32⟩ : BufTy).Contents (Elt F)),
    nullary main_v70 (iotaInDim S8192 32 0),
    unary main_v70 main_v71 (broadcastInDim S1x1x8192 ![2] bcast_S8192_S1x1x8192_2 : (⟨S8192, .i32⟩ : BufTy).Contents (Elt F) → (⟨S1x1x8192, .i32⟩ : BufTy).Contents (Elt F)),
    nullary main_c_17 (constantI S_ 32 8192#32),
    unary main_c_17 main_v72 (broadcastInDim S4 ![] bcast_S_S4 : (⟨S_, .i32⟩ : BufTy).Contents (Elt F) → (⟨S4, .i32⟩ : BufTy).Contents (Elt F)),
    binary main_c main_v72 main_v73 (minsi : (⟨S4, .i32⟩ : BufTy).Contents (Elt F) → (⟨S4, .i32⟩ : BufTy).Contents (Elt F) → (⟨S4, .i32⟩ : BufTy).Contents (Elt F)),
    unary main_v73 main_v74 (broadcastInDim S1x4x1 ![1] bcast_S4_S1x4x1_1 : (⟨S4, .i32⟩ : BufTy).Contents (Elt F) → (⟨S1x4x1, .i32⟩ : BufTy).Contents (Elt F)),
    unary main_v71 main_v75 (broadcastInDim S1x4x8192 ![0, 1, 2] bcast_S1x1x8192_S1x4x8192_0_1_2 : (⟨S1x1x8192, .i32⟩ : BufTy).Contents (Elt F) → (⟨S1x4x8192, .i32⟩ : BufTy).Contents (Elt F)),
    unary main_v74 main_v76 (broadcastInDim S1x4x8192 ![0, 1, 2] bcast_S1x4x1_S1x4x8192_0_1_2 : (⟨S1x4x1, .i32⟩ : BufTy).Contents (Elt F) → (⟨S1x4x8192, .i32⟩ : BufTy).Contents (Elt F)),
    binary main_v75 main_v76 main_v77 (cmpi .slt : (⟨S1x4x8192, .i32⟩ : BufTy).Contents (Elt F) → (⟨S1x4x8192, .i32⟩ : BufTy).Contents (Elt F) → (⟨S1x4x8192, .i1⟩ : BufTy).Contents (Elt F)),
    nullary main_cst (constant S_ .f32 0x3F800000#32),
    unary main_cst main_v78 (broadcastInDim S16x4x8192 ![] bcast_S_S16x4x8192 : (⟨S_, .f32⟩ : BufTy).Contents (Elt F) → (⟨S16x4x8192, .f32⟩ : BufTy).Contents (Elt F)),
    binary main_v78 main_v69 main_v79 (subf : (⟨S16x4x8192, .f32⟩ : BufTy).Contents (Elt F) → (⟨S16x4x8192, .f32⟩ : BufTy).Contents (Elt F) → (⟨S16x4x8192, .f32⟩ : BufTy).Contents (Elt F)),
    TRef.unary (.of main_v77 : TRef sig ⟨S1x4x8192, .i1⟩) main_call0.v0 (broadcastInDim S16x4x8192 ![0, 1, 2] bcast_S1x4x8192_S16x4x8192_0_1_2),
    TRef.ternary main_call0.v0 (.of main_v79 : TRef sig ⟨S16x4x8192, .f32⟩) (.of main_v69 : TRef sig ⟨S16x4x8192, .f32⟩) main_call0.v1 select,
    nullary main_cst_18 (constant S_ .f32 0x00000000#32),
    binary main_v80 main_cst_18 main_v81 ((fun x v => Host.reduceAdd x v reducesTo_S16x4x8192_S_d0_1_2 h_S_) : (⟨S16x4x8192, .f32⟩ : BufTy).Contents (Elt F) → (⟨S_, .f32⟩ : BufTy).Contents (Elt F) → (⟨S_, .f32⟩ : BufTy).Contents (Elt F)) ]

/-- The birth values of the second family, first half (read from `main_arg2`). -/
abbrev D1 : List (HloOp τ sig (Elt F)) :=
  [ nullary main_v82 (iotaInDim S16 32 0),
    unary main_v82 main_v83 (broadcastInDim S16x1x1 ![0] bcast_S16_S16x1x1_0 : (⟨S16, .i32⟩ : BufTy).Contents (Elt F) → (⟨S16x1x1, .i32⟩ : BufTy).Contents (Elt F)),
    nullary main_v84 (iotaInDim S4 32 0),
    unary main_v84 main_v85 (broadcastInDim S1x4x1 ![1] bcast_S4_S1x4x1_1 : (⟨S4, .i32⟩ : BufTy).Contents (Elt F) → (⟨S1x4x1, .i32⟩ : BufTy).Contents (Elt F)),
    unary main_arg2 main_v86 ((extractStridedSlice S16x4x8192x1x1 ![0, 0, 0, 0, 0] · slices_S16x4x8192x2x2_S16x4x8192x1x1_0_0_0_0_0) : (⟨S16x4x8192x2x2, .i32⟩ : BufTy).Contents (Elt F) → (⟨S16x4x8192x1x1, .i32⟩ : BufTy).Contents (Elt F)),
    reshape main_v86 main_v87 rfl shapeCasts_S16x4x8192x1x1_S16x4x8192,
    unary main_arg2 main_v88 ((extractStridedSlice S16x4x8192x1x1 ![0, 0, 0, 0, 1] · slices_S16x4x8192x2x2_S16x4x8192x1x1_0_0_0_0_1) : (⟨S16x4x8192x2x2, .i32⟩ : BufTy).Contents (Elt F) → (⟨S16x4x8192x1x1, .i32⟩ : BufTy).Contents (Elt F)),
    reshape main_v88 main_v89 rfl shapeCasts_S16x4x8192x1x1_S16x4x8192,
    nullary main_c_19 (constantI S_ 32 0#32),
    unary main_c_19 main_v90 (broadcastInDim S16x1x1 ![] bcast_S_S16x1x1 : (⟨S_, .i32⟩ : BufTy).Contents (Elt F) → (⟨S16x1x1, .i32⟩ : BufTy).Contents (Elt F)),
    binary main_v83 main_v90 main_v91 (cmpi .slt : (⟨S16x1x1, .i32⟩ : BufTy).Contents (Elt F) → (⟨S16x1x1, .i32⟩ : BufTy).Contents (Elt F) → (⟨S16x1x1, .i1⟩ : BufTy).Contents (Elt F)),
    nullary main_c_20 (constantI S_ 32 16#32),
    unary main_c_20 main_v92 (broadcastInDim S16x1x1 ![] bcast_S_S16x1x1 : (⟨S_, .i32⟩ : BufTy).Contents (Elt F) → (⟨S16x1x1, .i32⟩ : BufTy).Contents (Elt F)),
    binary main_v83 main_v92 main_v93 (addi : (⟨S16x1x1, .i32⟩ : BufTy).Contents (Elt F) → (⟨S16x1x1, .i32⟩ : BufTy).Contents (Elt F) → (⟨S16x1x1, .i32⟩ : BufTy).Contents (Elt F)),
    ternary main_v91 main_v93 main_v83 main_v94 (select : (⟨S16x1x1, .i1⟩ : BufTy).Contents (Elt F) → (⟨S16x1x1, .i32⟩ : BufTy).Contents (Elt F) → (⟨S16x1x1, .i32⟩ : BufTy).Contents (Elt F) → (⟨S16x1x1, .i32⟩ : BufTy).Contents (Elt F)),
    nullary main_c_21 (constantI S_ 32 0#32),
    unary main_c_21 main_v95 (broadcastInDim S1x4x1 ![] bcast_S_S1x4x1 : (⟨S_, .i32⟩ : BufTy).Contents (Elt F) → (⟨S1x4x1, .i32⟩ : BufTy).Contents (Elt F)) ]

/-- The birth values of the second family, second half, and its gather. -/
abbrev D2 : List (HloOp τ sig (Elt F)) :=
  [ binary main_v85 main_v95 main_v96 (cmpi .slt : (⟨S1x4x1, .i32⟩ : BufTy).Contents (Elt F) → (⟨S1x4x1, .i32⟩ : BufTy).Contents (Elt F) → (⟨S1x4x1, .i1⟩ : BufTy).Contents (Elt F)),
    nullary main_c_22 (constantI S_ 32 4#32),
    unary main_c_22 main_v97 (broadcastInDim S1x4x1 ![] bcast_S_S1x4x1 : (⟨S_, .i32⟩ : BufTy).Contents (Elt F) → (⟨S1x4x1, .i32⟩ : BufTy).Contents (Elt F)),
    binary main_v85 main_v97 main_v98 (addi : (⟨S1x4x1, .i32⟩ : BufTy).Contents (Elt F) → (⟨S1x4x1, .i32⟩ : BufTy).Contents (Elt F) → (⟨S1x4x1, .i32⟩ : BufTy).Contents (Elt F)),
    ternary main_v96 main_v98 main_v85 main_v99 (select : (⟨S1x4x1, .i1⟩ : BufTy).Contents (Elt F) → (⟨S1x4x1, .i32⟩ : BufTy).Contents (Elt F) → (⟨S1x4x1, .i32⟩ : BufTy).Contents (Elt F) → (⟨S1x4x1, .i32⟩ : BufTy).Contents (Elt F)),
    nullary main_c_23 (constantI S_ 32 0#32),
    unary main_c_23 main_v100 (broadcastInDim S16x4x8192 ![] bcast_S_S16x4x8192 : (⟨S_, .i32⟩ : BufTy).Contents (Elt F) → (⟨S16x4x8192, .i32⟩ : BufTy).Contents (Elt F)),
    binary main_v87 main_v100 main_v101 (cmpi .slt : (⟨S16x4x8192, .i32⟩ : BufTy).Contents (Elt F) → (⟨S16x4x8192, .i32⟩ : BufTy).Contents (Elt F) → (⟨S16x4x8192, .i1⟩ : BufTy).Contents (Elt F)),
    nullary main_c_24 (constantI S_ 32 512#32),
    unary main_c_24 main_v102 (broadcastInDim S16x4x8192 ![] bcast_S_S16x4x8192 : (⟨S_, .i32⟩ : BufTy).Contents (Elt F) → (⟨S16x4x8192, .i32⟩ : BufTy).Contents (Elt F)),
    binary main_v87 main_v102 main_v103 (addi : (⟨S16x4x8192, .i32⟩ : BufTy).Contents (Elt F) → (⟨S16x4x8192, .i32⟩ : BufTy).Contents (Elt F) → (⟨S16x4x8192, .i32⟩ : BufTy).Contents (Elt F)),
    ternary main_v101 main_v103 main_v87 main_v104 (select : (⟨S16x4x8192, .i1⟩ : BufTy).Contents (Elt F) → (⟨S16x4x8192, .i32⟩ : BufTy).Contents (Elt F) → (⟨S16x4x8192, .i32⟩ : BufTy).Contents (Elt F) → (⟨S16x4x8192, .i32⟩ : BufTy).Contents (Elt F)),
    nullary main_c_25 (constantI S_ 32 0#32),
    unary main_c_25 main_v105 (broadcastInDim S16x4x8192 ![] bcast_S_S16x4x8192 : (⟨S_, .i32⟩ : BufTy).Contents (Elt F) → (⟨S16x4x8192, .i32⟩ : BufTy).Contents (Elt F)),
    binary main_v89 main_v105 main_v106 (cmpi .slt : (⟨S16x4x8192, .i32⟩ : BufTy).Contents (Elt F) → (⟨S16x4x8192, .i32⟩ : BufTy).Contents (Elt F) → (⟨S16x4x8192, .i1⟩ : BufTy).Contents (Elt F)),
    nullary main_c_26 (constantI S_ 32 512#32),
    unary main_c_26 main_v107 (broadcastInDim S16x4x8192 ![] bcast_S_S16x4x8192 : (⟨S_, .i32⟩ : BufTy).Contents (Elt F) → (⟨S16x4x8192, .i32⟩ : BufTy).Contents (Elt F)),
    binary main_v89 main_v107 main_v108 (addi : (⟨S16x4x8192, .i32⟩ : BufTy).Contents (Elt F) → (⟨S16x4x8192, .i32⟩ : BufTy).Contents (Elt F) → (⟨S16x4x8192, .i32⟩ : BufTy).Contents (Elt F)),
    ternary main_v106 main_v108 main_v89 main_v109 (select : (⟨S16x4x8192, .i1⟩ : BufTy).Contents (Elt F) → (⟨S16x4x8192, .i32⟩ : BufTy).Contents (Elt F) → (⟨S16x4x8192, .i32⟩ : BufTy).Contents (Elt F) → (⟨S16x4x8192, .i32⟩ : BufTy).Contents (Elt F)),
    unary main_v94 main_v110 (broadcastInDim S16x4x8192 ![0, 1, 2] bcast_S16x1x1_S16x4x8192_0_1_2 : (⟨S16x1x1, .i32⟩ : BufTy).Contents (Elt F) → (⟨S16x4x8192, .i32⟩ : BufTy).Contents (Elt F)),
    unary main_v99 main_v111 (broadcastInDim S16x4x8192 ![0, 1, 2] bcast_S1x4x1_S16x4x8192_0_1_2 : (⟨S1x4x1, .i32⟩ : BufTy).Contents (Elt F) → (⟨S16x4x8192, .i32⟩ : BufTy).Contents (Elt F)),
    unary main_v110 main_v112 (broadcastInDim S16x4x8192x1 ![0, 1, 2] bcast_S16x4x8192_S16x4x8192x1_0_1_2 : (⟨S16x4x8192, .i32⟩ : BufTy).Contents (Elt F) → (⟨S16x4x8192x1, .i32⟩ : BufTy).Contents (Elt F)),
    unary main_v111 main_v113 (broadcastInDim S16x4x8192x1 ![0, 1, 2] bcast_S16x4x8192_S16x4x8192x1_0_1_2 : (⟨S16x4x8192, .i32⟩ : BufTy).Contents (Elt F) → (⟨S16x4x8192x1, .i32⟩ : BufTy).Contents (Elt F)),
    unary main_v104 main_v114 (broadcastInDim S16x4x8192x1 ![0, 1, 2] bcast_S16x4x8192_S16x4x8192x1_0_1_2 : (⟨S16x4x8192, .i32⟩ : BufTy).Contents (Elt F) → (⟨S16x4x8192x1, .i32⟩ : BufTy).Contents (Elt F)),
    unary main_v109 main_v115 (broadcastInDim S16x4x8192x1 ![0, 1, 2] bcast_S16x4x8192_S16x4x8192x1_0_1_2 : (⟨S16x4x8192, .i32⟩ : BufTy).Contents (Elt F) → (⟨S16x4x8192x1, .i32⟩ : BufTy).Contents (Elt F)),
    nary ![main_v112, main_v113, main_v114, main_v115] main_v116 (fun u => concatenate S16x4x8192x4 3 [⟨S16x4x8192x1, u 0⟩, ⟨S16x4x8192x1, u 1⟩, ⟨S16x4x8192x1, u 2⟩, ⟨S16x4x8192x1, u 3⟩] concatenates_S16x4x8192x1_S16x4x8192x1_S16x4x8192x1_S16x4x8192x1_S16x4x8192x4_d3),
    binary main_arg0 main_v116 main_v117 ((fun x i => Host.gather gather_S16x4x512x512_S16x4x8192x4_S16x4x8192_n_0123_n_n_0123_3_1111 x i) : (⟨S16x4x512x512, .f32⟩ : BufTy).Contents (Elt F) → (⟨S16x4x8192x4, .i32⟩ : BufTy).Contents (Elt F) → (⟨S16x4x8192, .f32⟩ : BufTy).Contents (Elt F)) ]

/-- The death values of the second family, first half. -/
abbrev E1 : List (HloOp τ sig (Elt F)) :=
  [ unary main_arg2 main_v118 ((extractStridedSlice S16x4x8192x1x1 ![0, 0, 0, 1, 0] · slices_S16x4x8192x2x2_S16x4x8192x1x1_0_0_0_1_0) : (⟨S16x4x8192x2x2, .i32⟩ : BufTy).Contents (Elt F) → (⟨S16x4x8192x1x1, .i32⟩ : BufTy).Contents (Elt F)),
    reshape main_v118 main_v119 rfl shapeCasts_S16x4x8192x1x1_S16x4x8192,
    unary main_arg2 main_v120 ((extractStridedSlice S16x4x8192x1x1 ![0, 0, 0, 1, 1] · slices_S16x4x8192x2x2_S16x4x8192x1x1_0_0_0_1_1) : (⟨S16x4x8192x2x2, .i32⟩ : BufTy).Contents (Elt F) → (⟨S16x4x8192x1x1, .i32⟩ : BufTy).Contents (Elt F)),
    reshape main_v120 main_v121 rfl shapeCasts_S16x4x8192x1x1_S16x4x8192,
    nullary main_c_27 (constantI S_ 32 0#32),
    unary main_c_27 main_v122 (broadcastInDim S16x1x1 ![] bcast_S_S16x1x1 : (⟨S_, .i32⟩ : BufTy).Contents (Elt F) → (⟨S16x1x1, .i32⟩ : BufTy).Contents (Elt F)),
    binary main_v83 main_v122 main_v123 (cmpi .slt : (⟨S16x1x1, .i32⟩ : BufTy).Contents (Elt F) → (⟨S16x1x1, .i32⟩ : BufTy).Contents (Elt F) → (⟨S16x1x1, .i1⟩ : BufTy).Contents (Elt F)),
    nullary main_c_28 (constantI S_ 32 16#32),
    unary main_c_28 main_v124 (broadcastInDim S16x1x1 ![] bcast_S_S16x1x1 : (⟨S_, .i32⟩ : BufTy).Contents (Elt F) → (⟨S16x1x1, .i32⟩ : BufTy).Contents (Elt F)),
    binary main_v83 main_v124 main_v125 (addi : (⟨S16x1x1, .i32⟩ : BufTy).Contents (Elt F) → (⟨S16x1x1, .i32⟩ : BufTy).Contents (Elt F) → (⟨S16x1x1, .i32⟩ : BufTy).Contents (Elt F)),
    ternary main_v123 main_v125 main_v83 main_v126 (select : (⟨S16x1x1, .i1⟩ : BufTy).Contents (Elt F) → (⟨S16x1x1, .i32⟩ : BufTy).Contents (Elt F) → (⟨S16x1x1, .i32⟩ : BufTy).Contents (Elt F) → (⟨S16x1x1, .i32⟩ : BufTy).Contents (Elt F)),
    nullary main_c_29 (constantI S_ 32 0#32),
    unary main_c_29 main_v127 (broadcastInDim S1x4x1 ![] bcast_S_S1x4x1 : (⟨S_, .i32⟩ : BufTy).Contents (Elt F) → (⟨S1x4x1, .i32⟩ : BufTy).Contents (Elt F)),
    binary main_v85 main_v127 main_v128 (cmpi .slt : (⟨S1x4x1, .i32⟩ : BufTy).Contents (Elt F) → (⟨S1x4x1, .i32⟩ : BufTy).Contents (Elt F) → (⟨S1x4x1, .i1⟩ : BufTy).Contents (Elt F)),
    nullary main_c_30 (constantI S_ 32 4#32),
    unary main_c_30 main_v129 (broadcastInDim S1x4x1 ![] bcast_S_S1x4x1 : (⟨S_, .i32⟩ : BufTy).Contents (Elt F) → (⟨S1x4x1, .i32⟩ : BufTy).Contents (Elt F)),
    binary main_v85 main_v129 main_v130 (addi : (⟨S1x4x1, .i32⟩ : BufTy).Contents (Elt F) → (⟨S1x4x1, .i32⟩ : BufTy).Contents (Elt F) → (⟨S1x4x1, .i32⟩ : BufTy).Contents (Elt F)),
    ternary main_v128 main_v130 main_v85 main_v131 (select : (⟨S1x4x1, .i1⟩ : BufTy).Contents (Elt F) → (⟨S1x4x1, .i32⟩ : BufTy).Contents (Elt F) → (⟨S1x4x1, .i32⟩ : BufTy).Contents (Elt F) → (⟨S1x4x1, .i32⟩ : BufTy).Contents (Elt F)),
    nullary main_c_31 (constantI S_ 32 0#32),
    unary main_c_31 main_v132 (broadcastInDim S16x4x8192 ![] bcast_S_S16x4x8192 : (⟨S_, .i32⟩ : BufTy).Contents (Elt F) → (⟨S16x4x8192, .i32⟩ : BufTy).Contents (Elt F)),
    binary main_v119 main_v132 main_v133 (cmpi .slt : (⟨S16x4x8192, .i32⟩ : BufTy).Contents (Elt F) → (⟨S16x4x8192, .i32⟩ : BufTy).Contents (Elt F) → (⟨S16x4x8192, .i1⟩ : BufTy).Contents (Elt F)),
    nullary main_c_32 (constantI S_ 32 512#32),
    unary main_c_32 main_v134 (broadcastInDim S16x4x8192 ![] bcast_S_S16x4x8192 : (⟨S_, .i32⟩ : BufTy).Contents (Elt F) → (⟨S16x4x8192, .i32⟩ : BufTy).Contents (Elt F)),
    binary main_v119 main_v134 main_v135 (addi : (⟨S16x4x8192, .i32⟩ : BufTy).Contents (Elt F) → (⟨S16x4x8192, .i32⟩ : BufTy).Contents (Elt F) → (⟨S16x4x8192, .i32⟩ : BufTy).Contents (Elt F)),
    ternary main_v133 main_v135 main_v119 main_v136 (select : (⟨S16x4x8192, .i1⟩ : BufTy).Contents (Elt F) → (⟨S16x4x8192, .i32⟩ : BufTy).Contents (Elt F) → (⟨S16x4x8192, .i32⟩ : BufTy).Contents (Elt F) → (⟨S16x4x8192, .i32⟩ : BufTy).Contents (Elt F)),
    nullary main_c_33 (constantI S_ 32 0#32),
    unary main_c_33 main_v137 (broadcastInDim S16x4x8192 ![] bcast_S_S16x4x8192 : (⟨S_, .i32⟩ : BufTy).Contents (Elt F) → (⟨S16x4x8192, .i32⟩ : BufTy).Contents (Elt F)),
    binary main_v121 main_v137 main_v138 (cmpi .slt : (⟨S16x4x8192, .i32⟩ : BufTy).Contents (Elt F) → (⟨S16x4x8192, .i32⟩ : BufTy).Contents (Elt F) → (⟨S16x4x8192, .i1⟩ : BufTy).Contents (Elt F)),
    nullary main_c_34 (constantI S_ 32 512#32),
    unary main_c_34 main_v139 (broadcastInDim S16x4x8192 ![] bcast_S_S16x4x8192 : (⟨S_, .i32⟩ : BufTy).Contents (Elt F) → (⟨S16x4x8192, .i32⟩ : BufTy).Contents (Elt F)),
    binary main_v121 main_v139 main_v140 (addi : (⟨S16x4x8192, .i32⟩ : BufTy).Contents (Elt F) → (⟨S16x4x8192, .i32⟩ : BufTy).Contents (Elt F) → (⟨S16x4x8192, .i32⟩ : BufTy).Contents (Elt F)),
    ternary main_v138 main_v140 main_v121 main_v141 (select : (⟨S16x4x8192, .i1⟩ : BufTy).Contents (Elt F) → (⟨S16x4x8192, .i32⟩ : BufTy).Contents (Elt F) → (⟨S16x4x8192, .i32⟩ : BufTy).Contents (Elt F) → (⟨S16x4x8192, .i32⟩ : BufTy).Contents (Elt F)),
    unary main_v126 main_v142 (broadcastInDim S16x4x8192 ![0, 1, 2] bcast_S16x1x1_S16x4x8192_0_1_2 : (⟨S16x1x1, .i32⟩ : BufTy).Contents (Elt F) → (⟨S16x4x8192, .i32⟩ : BufTy).Contents (Elt F)) ]

/-- The death values of the second family, second half, and its gather. -/
abbrev E2 : List (HloOp τ sig (Elt F)) :=
  [ unary main_v131 main_v143 (broadcastInDim S16x4x8192 ![0, 1, 2] bcast_S1x4x1_S16x4x8192_0_1_2 : (⟨S1x4x1, .i32⟩ : BufTy).Contents (Elt F) → (⟨S16x4x8192, .i32⟩ : BufTy).Contents (Elt F)),
    unary main_v142 main_v144 (broadcastInDim S16x4x8192x1 ![0, 1, 2] bcast_S16x4x8192_S16x4x8192x1_0_1_2 : (⟨S16x4x8192, .i32⟩ : BufTy).Contents (Elt F) → (⟨S16x4x8192x1, .i32⟩ : BufTy).Contents (Elt F)),
    unary main_v143 main_v145 (broadcastInDim S16x4x8192x1 ![0, 1, 2] bcast_S16x4x8192_S16x4x8192x1_0_1_2 : (⟨S16x4x8192, .i32⟩ : BufTy).Contents (Elt F) → (⟨S16x4x8192x1, .i32⟩ : BufTy).Contents (Elt F)),
    unary main_v136 main_v146 (broadcastInDim S16x4x8192x1 ![0, 1, 2] bcast_S16x4x8192_S16x4x8192x1_0_1_2 : (⟨S16x4x8192, .i32⟩ : BufTy).Contents (Elt F) → (⟨S16x4x8192x1, .i32⟩ : BufTy).Contents (Elt F)),
    unary main_v141 main_v147 (broadcastInDim S16x4x8192x1 ![0, 1, 2] bcast_S16x4x8192_S16x4x8192x1_0_1_2 : (⟨S16x4x8192, .i32⟩ : BufTy).Contents (Elt F) → (⟨S16x4x8192x1, .i32⟩ : BufTy).Contents (Elt F)),
    nary ![main_v144, main_v145, main_v146, main_v147] main_v148 (fun u => concatenate S16x4x8192x4 3 [⟨S16x4x8192x1, u 0⟩, ⟨S16x4x8192x1, u 1⟩, ⟨S16x4x8192x1, u 2⟩, ⟨S16x4x8192x1, u 3⟩] concatenates_S16x4x8192x1_S16x4x8192x1_S16x4x8192x1_S16x4x8192x1_S16x4x8192x4_d3),
    binary main_arg0 main_v148 main_v149 ((fun x i => Host.gather gather_S16x4x512x512_S16x4x8192x4_S16x4x8192_n_0123_n_n_0123_3_1111 x i) : (⟨S16x4x512x512, .f32⟩ : BufTy).Contents (Elt F) → (⟨S16x4x8192x4, .i32⟩ : BufTy).Contents (Elt F) → (⟨S16x4x8192, .f32⟩ : BufTy).Contents (Elt F)) ]

/-- The loss of the second family and the sum of the two losses. -/
abbrev G : List (HloOp τ sig (Elt F)) :=
  [ binary main_v117 main_v149 main_v150 (subf : (⟨S16x4x8192, .f32⟩ : BufTy).Contents (Elt F) → (⟨S16x4x8192, .f32⟩ : BufTy).Contents (Elt F) → (⟨S16x4x8192, .f32⟩ : BufTy).Contents (Elt F)),
    binary main_v150 main_v150 main_v151 (mulf : (⟨S16x4x8192, .f32⟩ : BufTy).Contents (Elt F) → (⟨S16x4x8192, .f32⟩ : BufTy).Contents (Elt F) → (⟨S16x4x8192, .f32⟩ : BufTy).Contents (Elt F)),
    nullary main_v152 (iotaInDim S8192 32 0),
    unary main_v152 main_v153 (broadcastInDim S1x1x8192 ![2] bcast_S8192_S1x1x8192_2 : (⟨S8192, .i32⟩ : BufTy).Contents (Elt F) → (⟨S1x1x8192, .i32⟩ : BufTy).Contents (Elt F)),
    nullary main_c_35 (constantI S_ 32 8192#32),
    unary main_c_35 main_v154 (broadcastInDim S4 ![] bcast_S_S4 : (⟨S_, .i32⟩ : BufTy).Contents (Elt F) → (⟨S4, .i32⟩ : BufTy).Contents (Elt F)),
    binary main_c_0 main_v154 main_v155 (minsi : (⟨S4, .i32⟩ : BufTy).Contents (Elt F) → (⟨S4, .i32⟩ : BufTy).Contents (Elt F) → (⟨S4, .i32⟩ : BufTy).Contents (Elt F)),
    unary main_v155 main_v156 (broadcastInDim S1x4x1 ![1] bcast_S4_S1x4x1_1 : (⟨S4, .i32⟩ : BufTy).Contents (Elt F) → (⟨S1x4x1, .i32⟩ : BufTy).Contents (Elt F)),
    unary main_v153 main_v157 (broadcastInDim S1x4x8192 ![0, 1, 2] bcast_S1x1x8192_S1x4x8192_0_1_2 : (⟨S1x1x8192, .i32⟩ : BufTy).Contents (Elt F) → (⟨S1x4x8192, .i32⟩ : BufTy).Contents (Elt F)),
    unary main_v156 main_v158 (broadcastInDim S1x4x8192 ![0, 1, 2] bcast_S1x4x1_S1x4x8192_0_1_2 : (⟨S1x4x1, .i32⟩ : BufTy).Contents (Elt F) → (⟨S1x4x8192, .i32⟩ : BufTy).Contents (Elt F)),
    binary main_v157 main_v158 main_v159 (cmpi .slt : (⟨S1x4x8192, .i32⟩ : BufTy).Contents (Elt F) → (⟨S1x4x8192, .i32⟩ : BufTy).Contents (Elt F) → (⟨S1x4x8192, .i1⟩ : BufTy).Contents (Elt F)),
    nullary main_cst_36 (constant S_ .f32 0x3F800000#32),
    unary main_cst_36 main_v160 (broadcastInDim S16x4x8192 ![] bcast_S_S16x4x8192 : (⟨S_, .f32⟩ : BufTy).Contents (Elt F) → (⟨S16x4x8192, .f32⟩ : BufTy).Contents (Elt F)),
    binary main_v160 main_v151 main_v161 (subf : (⟨S16x4x8192, .f32⟩ : BufTy).Contents (Elt F) → (⟨S16x4x8192, .f32⟩ : BufTy).Contents (Elt F) → (⟨S16x4x8192, .f32⟩ : BufTy).Contents (Elt F)),
    TRef.unary (.of main_v159 : TRef sig ⟨S1x4x8192, .i1⟩) main_call1.v0 (broadcastInDim S16x4x8192 ![0, 1, 2] bcast_S1x4x8192_S16x4x8192_0_1_2),
    TRef.ternary main_call1.v0 (.of main_v161 : TRef sig ⟨S16x4x8192, .f32⟩) (.of main_v151 : TRef sig ⟨S16x4x8192, .f32⟩) main_call1.v1 select,
    nullary main_cst_37 (constant S_ .f32 0x00000000#32),
    binary main_v162 main_cst_37 main_v163 ((fun x v => Host.reduceAdd x v reducesTo_S16x4x8192_S_d0_1_2 h_S_) : (⟨S16x4x8192, .f32⟩ : BufTy).Contents (Elt F) → (⟨S_, .f32⟩ : BufTy).Contents (Elt F) → (⟨S_, .f32⟩ : BufTy).Contents (Elt F)),
    binary main_v81 main_v163 main_v164 (addf : (⟨S_, .f32⟩ : BufTy).Contents (Elt F) → (⟨S_, .f32⟩ : BufTy).Contents (Elt F) → (⟨S_, .f32⟩ : BufTy).Contents (Elt F)) ]

/-- @main's 207 operations, in order. -/
abbrev ops : List (HloOp τ sig (Elt F)) :=
  A ++ (B1 ++ (B2 ++ (C ++ (D1 ++ (D2 ++ (E1 ++ (E2 ++ G)))))))

/-! ## @main is that line -/

set_option maxRecDepth 8192 in
theorem part0_eq (c : Dev nD) : main_part0 (F := F) c = seq (A ++ B1) := rfl
set_option maxRecDepth 8192 in
/-- The first call of `_where` is its two operations at the call's buffers. -/
theorem part1_eq (c : Dev nD) : main_part1 (F := F) c = seq (B2 ++ (C ++ D1)) := by
  simp only [main_part1, fn_where.body, bind_assoc, pure_bind]
  rfl
set_option maxRecDepth 8192 in
theorem part2_eq (c : Dev nD) : main_part2 (F := F) c = seq (D2 ++ E1) := rfl
set_option maxRecDepth 8192 in
/-- The second call of `_where`, likewise. -/
theorem part3_eq (c : Dev nD) : main_part3 (F := F) c = seq (E2 ++ G) := by
  simp only [main_part3, fn_where.body, bind_assoc, pure_bind]
  rfl

theorem main_eq (c : Dev nD) : main (F := F) c = seq ops := by
  simp only [main, part0_eq, part1_eq, part2_eq, part3_eq, ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem A_sub : (A : List (HloOp τ sig (Elt F))).Forall fun op => op.bufs ⊆ tcRefs τ sig :=
  ⟨nullary_bufs_sub .., nullary_bufs_sub .., nullary_bufs_sub .., unary_bufs_sub .., nullary_bufs_sub .., unary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., unary_bufs_sub .., unary_bufs_sub .., nary_bufs_sub .., binary_bufs_sub ..⟩
theorem A_fresh : (A : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem B1_sub : (B1 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub ..⟩
theorem B1_fresh : (B1 : List (HloOp τ sig (Elt F))).Forall fun op => op.fresh = ∅ :=
  ⟨rfl, rfl, rfl, rfl, rfl, rfl, rfl, rfl, rfl, rfl, rfl, rfl, rfl, rfl⟩
theorem B2_sub : (B2 : List (HloOp τ sig (Elt F))).Forall fun op => op.bufs ⊆ tcRefs τ sig :=
  ⟨nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., unary_bufs_sub .., unary_bufs_sub .., nary_bufs_sub .., binary_bufs_sub ..⟩
theorem B2_fresh : (B2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
theorem C_sub : (C : List (HloOp τ sig (Elt F))).Forall fun op => op.bufs ⊆ tcRefs τ sig :=
  ⟨binary_bufs_sub .., binary_bufs_sub .., nullary_bufs_sub .., unary_bufs_sub .., nullary_bufs_sub .., unary_bufs_sub .., binary_bufs_sub .., unary_bufs_sub .., unary_bufs_sub .., unary_bufs_sub .., binary_bufs_sub .., nullary_bufs_sub .., unary_bufs_sub .., binary_bufs_sub .., unary_bufs_sub .., ternary_bufs_sub .., nullary_bufs_sub .., binary_bufs_sub ..⟩
theorem C_fresh : (C : List (HloOp τ sig (Elt F))).Forall fun op => op.fresh = ∅ :=
  ⟨rfl, rfl, rfl, rfl, rfl, rfl, rfl, rfl, rfl, rfl, rfl, rfl, rfl, rfl, rfl, rfl, rfl, rfl⟩
theorem D1_sub : (D1 : List (HloOp τ sig (Elt F))).Forall fun op => op.bufs ⊆ tcRefs τ sig :=
  ⟨nullary_bufs_sub .., unary_bufs_sub .., nullary_bufs_sub .., unary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub ..⟩
theorem D1_fresh : (D1 : List (HloOp τ sig (Elt F))).Forall fun op => op.fresh = ∅ :=
  ⟨rfl, rfl, rfl, rfl, rfl, rfl, rfl, rfl, rfl, rfl, rfl, rfl, rfl, rfl, rfl, rfl, rfl⟩
theorem D2_sub : (D2 : List (HloOp τ sig (Elt F))).Forall fun op => op.bufs ⊆ tcRefs τ sig :=
  ⟨binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., unary_bufs_sub .., unary_bufs_sub .., nary_bufs_sub .., binary_bufs_sub ..⟩
theorem D2_fresh : (D2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
theorem E1_sub : (E1 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub ..⟩
theorem E1_fresh : (E1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem E2_sub : (E2 : List (HloOp τ sig (Elt F))).Forall fun op => op.bufs ⊆ tcRefs τ sig :=
  ⟨unary_bufs_sub .., unary_bufs_sub .., unary_bufs_sub .., unary_bufs_sub .., unary_bufs_sub .., nary_bufs_sub .., binary_bufs_sub ..⟩
theorem E2_fresh : (E2 : List (HloOp τ sig (Elt F))).Forall fun op => op.fresh = ∅ :=
  ⟨rfl, rfl, rfl, rfl, rfl, rfl, rfl⟩
theorem G_sub : (G : List (HloOp τ sig (Elt F))).Forall fun op => op.bufs ⊆ tcRefs τ sig :=
  ⟨binary_bufs_sub .., binary_bufs_sub .., nullary_bufs_sub .., unary_bufs_sub .., nullary_bufs_sub .., unary_bufs_sub .., binary_bufs_sub .., unary_bufs_sub .., unary_bufs_sub .., unary_bufs_sub .., binary_bufs_sub .., nullary_bufs_sub .., unary_bufs_sub .., binary_bufs_sub .., unary_bufs_sub .., ternary_bufs_sub .., nullary_bufs_sub .., binary_bufs_sub .., binary_bufs_sub ..⟩
theorem G_fresh : (G : List (HloOp τ sig (Elt F))).Forall fun op => op.fresh = ∅ :=
  ⟨rfl, rfl, rfl, rfl, rfl, rfl, rfl, rfl, rfl, rfl, rfl, rfl, rfl, rfl, rfl, rfl, rfl, rfl, rfl⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h
    exacts [List.forall_iff_forall_mem.mp A_sub op h, List.forall_iff_forall_mem.mp B1_sub op h, List.forall_iff_forall_mem.mp B2_sub op h, List.forall_iff_forall_mem.mp C_sub op h, List.forall_iff_forall_mem.mp D1_sub op h, List.forall_iff_forall_mem.mp D2_sub op h, List.forall_iff_forall_mem.mp E1_sub op h, List.forall_iff_forall_mem.mp E2_sub op h, List.forall_iff_forall_mem.mp G_sub op h]

theorem ops_fresh : ∀ op ∈ (ops : List (HloOp τ sig (Elt F))), op.fresh = ∅ := fun op h => by
  simp only [ops, List.mem_append] at h
  rcases h with h | h | h | h | h | h | h | h | h
  exacts [List.forall_iff_forall_mem.mp A_fresh op h, List.forall_iff_forall_mem.mp B1_fresh op h, List.forall_iff_forall_mem.mp B2_fresh op h, List.forall_iff_forall_mem.mp C_fresh op h, List.forall_iff_forall_mem.mp D1_fresh op h, List.forall_iff_forall_mem.mp D2_fresh op h, List.forall_iff_forall_mem.mp E1_fresh op h, List.forall_iff_forall_mem.mp E2_fresh op h, List.forall_iff_forall_mem.mp G_fresh op h]

end Cert.ReferenceIdeal.RefRun

end
-- ==== Proof.RefDefs.lean ====
/-
  The reference's value, named.

  What the reference computes from its three arguments, written with the operations' own functions in the program's
  order and nothing simplified: for an interval table the image gathered at every interval's birth pixel and at its
  death pixel (the batch and class coordinates are the interval's own, the two pixel coordinates are read from the
  table, each coordinate increased by its axis's extent were it negative); the squared difference `d` of the two;
  `1 - d` on the expected intervals and `d` on the others; the sum over every (batch, class, interval); and the two
  families' sums added.
-/
import proofs.«118714_j12034498363966_1_alg».proof.Proof.Gen.ReferenceIdeal

noncomputable section

namespace Cert.ReferenceIdeal.RefRun

open Cert.ReferenceIdeal Cert.ReferenceIdeal.Gen Idealize.ShloMosaic

variable {F : FTy → Type} [FloatOps F]

/-- Batch numbers 0 … 15 along the first axis. -/
def rowIota : IVec S16x1x1 32 :=
  broadcastInDim S16x1x1 ![0] bcast_S16_S16x1x1_0 (iotaInDim S16 32 0)

/-- Class numbers 0 … 3 along the second axis. -/
def clsIota : IVec S1x4x1 32 :=
  broadcastInDim S1x4x1 ![1] bcast_S4_S1x4x1_1 (iotaInDim S4 32 0)

/-- The batch coordinate of every interval's gather index: its batch number, plus 16 were it negative. -/
def batchIdx : IVec S16x4x8192x1 32 :=
  broadcastInDim S16x4x8192x1 ![0, 1, 2] bcast_S16x4x8192_S16x4x8192x1_0_1_2
    (broadcastInDim S16x4x8192 ![0, 1, 2] bcast_S16x1x1_S16x4x8192_0_1_2
      (select (cmpi .slt rowIota (broadcastInDim S16x1x1 ![] bcast_S_S16x1x1 (constantI S_ 32 0#32)))
        (addi rowIota (broadcastInDim S16x1x1 ![] bcast_S_S16x1x1 (constantI S_ 32 16#32)))
        rowIota))

/-- The class coordinate of every interval's gather index: its class number, plus 4 were it negative. -/
def classIdx : IVec S16x4x8192x1 32 :=
  broadcastInDim S16x4x8192x1 ![0, 1, 2] bcast_S16x4x8192_S16x4x8192x1_0_1_2
    (broadcastInDim S16x4x8192 ![0, 1, 2] bcast_S1x4x1_S16x4x8192_0_1_2
      (select (cmpi .slt clsIota (broadcastInDim S1x4x1 ![] bcast_S_S1x4x1 (constantI S_ 32 0#32)))
        (addi clsIota (broadcastInDim S1x4x1 ![] bcast_S_S1x4x1 (constantI S_ 32 4#32)))
        clsIota))

/-- A pixel coordinate of every interval's gather index, from one entry of the interval table: the entry, plus the
    image side 512 when it is negative. -/
def pixIdx (x : IVec S16x4x8192x1x1 32) : IVec S16x4x8192x1 32 :=
  broadcastInDim S16x4x8192x1 ![0, 1, 2] bcast_S16x4x8192_S16x4x8192x1_0_1_2
    (select (cmpi .slt (shapeCast S16x4x8192 x shapeCasts_S16x4x8192x1x1_S16x4x8192) (broadcastInDim S16x4x8192 ![] bcast_S_S16x4x8192 (constantI S_ 32 0#32)))
      (addi (shapeCast S16x4x8192 x shapeCasts_S16x4x8192x1x1_S16x4x8192) (broadcastInDim S16x4x8192 ![] bcast_S_S16x4x8192 (constantI S_ 32 512#32)))
      (shapeCast S16x4x8192 x shapeCasts_S16x4x8192x1x1_S16x4x8192))

/-- The image gathered at each interval's birth pixel: batch, class, and the two coordinates at position 0 of the
    table's fourth axis. -/
def birth (a0 : FVec F S16x4x512x512 .f32) (idx : IVec S16x4x8192x2x2 32) : FVec F S16x4x8192 .f32 :=
  Host.gather gather_S16x4x512x512_S16x4x8192x4_S16x4x8192_n_0123_n_n_0123_3_1111 a0
    (concatenate S16x4x8192x4 3
      [⟨S16x4x8192x1, batchIdx⟩, ⟨S16x4x8192x1, classIdx⟩,
       ⟨S16x4x8192x1, pixIdx (extractStridedSlice S16x4x8192x1x1 ![0, 0, 0, 0, 0] idx slices_S16x4x8192x2x2_S16x4x8192x1x1_0_0_0_0_0)⟩,
       ⟨S16x4x8192x1, pixIdx (extractStridedSlice S16x4x8192x1x1 ![0, 0, 0, 0, 1] idx slices_S16x4x8192x2x2_S16x4x8192x1x1_0_0_0_0_1)⟩]
      concatenates_S16x4x8192x1_S16x4x8192x1_S16x4x8192x1_S16x4x8192x1_S16x4x8192x4_d3)

/-- The image gathered at each interval's death pixel: the same with position 1 of the fourth axis. -/
def death (a0 : FVec F S16x4x512x512 .f32) (idx : IVec S16x4x8192x2x2 32) : FVec F S16x4x8192 .f32 :=
  Host.gather gather_S16x4x512x512_S16x4x8192x4_S16x4x8192_n_0123_n_n_0123_3_1111 a0
    (concatenate S16x4x8192x4 3
      [⟨S16x4x8192x1, batchIdx⟩, ⟨S16x4x8192x1, classIdx⟩,
       ⟨S16x4x8192x1, pixIdx (extractStridedSlice S16x4x8192x1x1 ![0, 0, 0, 1, 0] idx slices_S16x4x8192x2x2_S16x4x8192x1x1_0_0_0_1_0)⟩,
       ⟨S16x4x8192x1, pixIdx (extractStridedSlice S16x4x8192x1x1 ![0, 0, 0, 1, 1] idx slices_S16x4x8192x2x2_S16x4x8192x1x1_0_0_0_1_1)⟩]
      concatenates_S16x4x8192x1_S16x4x8192x1_S16x4x8192x1_S16x4x8192x1_S16x4x8192x4_d3)

/-- The squared length `(birth - death)²` of every interval. -/
def sqDiff (a0 : FVec F S16x4x512x512 .f32) (idx : IVec S16x4x8192x2x2 32) : FVec F S16x4x8192 .f32 :=
  mulf (subf (birth a0 idx) (death a0 idx)) (subf (birth a0 idx) (death a0 idx))

/-- The mask of the expected intervals: interval `n` of class `c` when `n` is below the smaller of the class's
    count `tbl c` and 8192. -/
def goodMask (tbl : IVec S4 32) : IVec S1x4x8192 1 :=
  cmpi .slt
    (broadcastInDim S1x4x8192 ![0, 1, 2] bcast_S1x1x8192_S1x4x8192_0_1_2
      (broadcastInDim S1x1x8192 ![2] bcast_S8192_S1x1x8192_2 (iotaInDim S8192 32 0)))
    (broadcastInDim S1x4x8192 ![0, 1, 2] bcast_S1x4x1_S1x4x8192_0_1_2
      (broadcastInDim S1x4x1 ![1] bcast_S4_S1x4x1_1
        (minsi tbl (broadcastInDim S4 ![] bcast_S_S4 (constantI S_ 32 8192#32)))))

/-- Every interval's contribution: `1 - d` where the mask is set, `d` elsewhere, `d` its squared length. -/
def terms (tbl : IVec S4 32) (a0 : FVec F S16x4x512x512 .f32) (idx : IVec S16x4x8192x2x2 32) : FVec F S16x4x8192 .f32 :=
  select (broadcastInDim S16x4x8192 ![0, 1, 2] bcast_S1x4x8192_S16x4x8192_0_1_2 (goodMask tbl))
    (subf (broadcastInDim S16x4x8192 ![] bcast_S_S16x4x8192 (constant (F := F) S_ .f32 0x3F800000#32)) (sqDiff a0 idx))
    (sqDiff a0 idx)

/-- One family's loss: the contributions summed over every (batch, class, interval), from zero. -/
def famLoss (tbl : IVec S4 32) (a0 : FVec F S16x4x512x512 .f32) (idx : IVec S16x4x8192x2x2 32) : FVec F S_ .f32 :=
  Host.reduceAdd (terms tbl a0 idx) (constant (F := F) S_ .f32 0x00000000#32) reducesTo_S16x4x8192_S_d0_1_2 h_S_

/-- The expected counts per class of the first family, 1, 1, 2, 1, as the program's table. -/
def tbl0 : IVec S4 32 := fun i => lit0 (S4.rowMajor i)
/-- The expected counts per class of the second family, 0, 1, 0, 2. -/
def tbl1 : IVec S4 32 := fun i => lit1 (S4.rowMajor i)

/-- What @main returns: the two families' losses added. -/
def result (a0 : FVec F S16x4x512x512 .f32) (a1 a2 : IVec S16x4x8192x2x2 32) : FVec F S_ .f32 :=
  addf (famLoss tbl0 a0 a1) (famLoss tbl1 a0 a2)

end Cert.ReferenceIdeal.RefRun

end
-- ==== Proof.RefRun.lean ====
/-
  The reference program's run, read back as one value.

  Run from any memory, every buffer ends at the fold of @main's 207 operations over the launch contents.  Read at the
  result buffer that fold is `result a0 a1 a2`: for each interval family the image gathered at the birth and at the death
  pixels, the squared difference `d` of the two, `1 - d` on the expected intervals and `d` on the others, the sum over
  every (batch, class, interval); then the two families' sums added.  The three argument buffers are written by no
  operation and end as they began.

  The fold is read in six stretches — the birth gather, the death gather and the loss of each family —, the buffers
  that later stretches read stated after each as terms of the arguments.
-/
import proofs.«118714_j12034498363966_1_alg».proof.Proof.RefOps
import proofs.«118714_j12034498363966_1_alg».proof.Proof.RefDefs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The fold, stretch by stretch -/

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

-- the gather and the sum are compared by their operands, never opened
attribute [local irreducible] Host.gather Host.reduceAdd

/-- The buffers after the first family's birth gather. -/
def val1 (V : Valuation τ sig (Elt F)) : Valuation τ sig (Elt F) := after A V
set_option maxRecDepth 8192 in
set_option maxHeartbeats 4000000 in
theorem val1_main_v35 (V : Valuation τ sig (Elt F)) :
    val1 V (no_index (Proc.devRef .tc main_v35)) = birth (V (Proc.devRef .tc main_arg0)) (V (Proc.devRef .tc main_arg1)) := by
  unfold val1
  simp only [A, List.cons_append, List.nil_append]
  after_results_simp <;> rfl
set_option maxRecDepth 8192 in
set_option maxHeartbeats 4000000 in
theorem val1_main_v1 (V : Valuation τ sig (Elt F)) :
    val1 V (no_index (Proc.devRef .tc main_v1)) = rowIota := by
  unfold val1
  simp only [A, List.cons_append, List.nil_append]
  after_results_simp <;> rfl
set_option maxRecDepth 8192 in
set_option maxHeartbeats 4000000 in
theorem val1_main_v3 (V : Valuation τ sig (Elt F)) :
    val1 V (no_index (Proc.devRef .tc main_v3)) = clsIota := by
  unfold val1
  simp only [A, List.cons_append, List.nil_append]
  after_results_simp <;> rfl
set_option maxRecDepth 8192 in
set_option maxHeartbeats 4000000 in
theorem val1_main_c (V : Valuation τ sig (Elt F)) :
    val1 V (no_index (Proc.devRef .tc main_c)) = tbl0 := by
  unfold val1
  simp only [A, List.cons_append, List.nil_append]
  after_results_simp <;> rfl
set_option maxRecDepth 8192 in
set_option maxHeartbeats 4000000 in
theorem val1_main_c_0 (V : Valuation τ sig (Elt F)) :
    val1 V (no_index (Proc.devRef .tc main_c_0)) = tbl1 := by
  unfold val1
  simp only [A, List.cons_append, List.nil_append]
  after_results_simp <;> rfl
set_option maxRecDepth 8192 in
set_option maxHeartbeats 4000000 in
theorem val1_main_arg0 (V : Valuation τ sig (Elt F)) :
    val1 V (no_index (Proc.devRef .tc main_arg0)) = (V (Proc.devRef .tc main_arg0)) := by
  unfold val1
  simp only [A, List.cons_append, List.nil_append]
  after_results_simp <;> rfl
set_option maxRecDepth 8192 in
set_option maxHeartbeats 4000000 in
theorem val1_main_arg1 (V : Valuation τ sig (Elt F)) :
    val1 V (no_index (Proc.devRef .tc main_arg1)) = (V (Proc.devRef .tc main_arg1)) := by
  unfold val1
  simp only [A, List.cons_append, List.nil_append]
  after_results_simp <;> rfl
set_option maxRecDepth 8192 in
set_option maxHeartbeats 4000000 in
theorem val1_main_arg2 (V : Valuation τ sig (Elt F)) :
    val1 V (no_index (Proc.devRef .tc main_arg2)) = (V (Proc.devRef .tc main_arg2)) := by
  unfold val1
  simp only [A, List.cons_append, List.nil_append]
  after_results_simp <;> rfl

/-- The buffers after the first family's death gather. -/
def val2 (V : Valuation τ sig (Elt F)) : Valuation τ sig (Elt F) := after (B1 ++ B2) (val1 V)
set_option maxRecDepth 8192 in
set_option maxHeartbeats 4000000 in
theorem val2_main_v67 (V : Valuation τ sig (Elt F)) :
    val2 V (no_index (Proc.devRef .tc main_v67)) = death (V (Proc.devRef .tc main_arg0)) (V (Proc.devRef .tc main_arg1)) := by
  unfold val2
  simp only [B1, B2, List.cons_append, List.nil_append]
  after_results_simp
  simp only [val1_main_v1, val1_main_v3, val1_main_arg0, val1_main_arg1] <;> rfl
set_option maxRecDepth 8192 in
set_option maxHeartbeats 4000000 in
theorem val2_main_v35 (V : Valuation τ sig (Elt F)) :
    val2 V (no_index (Proc.devRef .tc main_v35)) = birth (V (Proc.devRef .tc main_arg0)) (V (Proc.devRef .tc main_arg1)) := by
  unfold val2
  simp only [B1, B2, List.cons_append, List.nil_append]
  after_results_simp
  simp only [val1_main_v35] <;> rfl
set_option maxRecDepth 8192 in
set_option maxHeartbeats 4000000 in
theorem val2_main_c (V : Valuation τ sig (Elt F)) :
    val2 V (no_index (Proc.devRef .tc main_c)) = tbl0 := by
  unfold val2
  simp only [B1, B2, List.cons_append, List.nil_append]
  after_results_simp
  simp only [val1_main_c] <;> rfl
set_option maxRecDepth 8192 in
set_option maxHeartbeats 4000000 in
theorem val2_main_c_0 (V : Valuation τ sig (Elt F)) :
    val2 V (no_index (Proc.devRef .tc main_c_0)) = tbl1 := by
  unfold val2
  simp only [B1, B2, List.cons_append, List.nil_append]
  after_results_simp
  simp only [val1_main_c_0] <;> rfl
set_option maxRecDepth 8192 in
set_option maxHeartbeats 4000000 in
theorem val2_main_arg0 (V : Valuation τ sig (Elt F)) :
    val2 V (no_index (Proc.devRef .tc main_arg0)) = (V (Proc.devRef .tc main_arg0)) := by
  unfold val2
  simp only [B1, B2, List.cons_append, List.nil_append]
  after_results_simp
  simp only [val1_main_arg0] <;> rfl
set_option maxRecDepth 8192 in
set_option maxHeartbeats 4000000 in
theorem val2_main_arg2 (V : Valuation τ sig (Elt F)) :
    val2 V (no_index (Proc.devRef .tc main_arg2)) = (V (Proc.devRef .tc main_arg2)) := by
  unfold val2
  simp only [B1, B2, List.cons_append, List.nil_append]
  after_results_simp
  simp only [val1_main_arg2] <;> rfl
set_option maxRecDepth 8192 in
set_option maxHeartbeats 4000000 in
theorem val2_main_arg1 (V : Valuation τ sig (Elt F)) :
    val2 V (no_index (Proc.devRef .tc main_arg1)) = (V (Proc.devRef .tc main_arg1)) := by
  unfold val2
  simp only [B1, B2, List.cons_append, List.nil_append]
  after_results_simp
  simp only [val1_main_arg1] <;> rfl

/-- The buffers after the first family's loss. -/
def val3 (V : Valuation τ sig (Elt F)) : Valuation τ sig (Elt F) := after C (val2 V)
set_option maxRecDepth 8192 in
set_option maxHeartbeats 4000000 in
theorem val3_main_v81 (V : Valuation τ sig (Elt F)) :
    val3 V (no_index (Proc.devRef .tc main_v81)) = famLoss tbl0 (V (Proc.devRef .tc main_arg0)) (V (Proc.devRef .tc main_arg1)) := by
  unfold val3
  simp only [C, List.cons_append, List.nil_append]
  after_results_simp
  simp only [val2_main_v35, val2_main_v67, val2_main_c] <;> rfl
set_option maxRecDepth 8192 in
set_option maxHeartbeats 4000000 in
theorem val3_main_c_0 (V : Valuation τ sig (Elt F)) :
    val3 V (no_index (Proc.devRef .tc main_c_0)) = tbl1 := by
  unfold val3
  simp only [C, List.cons_append, List.nil_append]
  after_results_simp
  simp only [val2_main_c_0] <;> rfl
set_option maxRecDepth 8192 in
set_option maxHeartbeats 4000000 in
theorem val3_main_arg0 (V : Valuation τ sig (Elt F)) :
    val3 V (no_index (Proc.devRef .tc main_arg0)) = (V (Proc.devRef .tc main_arg0)) := by
  unfold val3
  simp only [C, List.cons_append, List.nil_append]
  after_results_simp
  simp only [val2_main_arg0] <;> rfl
set_option maxRecDepth 8192 in
set_option maxHeartbeats 4000000 in
theorem val3_main_arg2 (V : Valuation τ sig (Elt F)) :
    val3 V (no_index (Proc.devRef .tc main_arg2)) = (V (Proc.devRef .tc main_arg2)) := by
  unfold val3
  simp only [C, List.cons_append, List.nil_append]
  after_results_simp
  simp only [val2_main_arg2] <;> rfl
set_option maxRecDepth 8192 in
set_option maxHeartbeats 4000000 in
theorem val3_main_arg1 (V : Valuation τ sig (Elt F)) :
    val3 V (no_index (Proc.devRef .tc main_arg1)) = (V (Proc.devRef .tc main_arg1)) := by
  unfold val3
  simp only [C, List.cons_append, List.nil_append]
  after_results_simp
  simp only [val2_main_arg1] <;> rfl

/-- The buffers after the second family's birth gather. -/
def val4 (V : Valuation τ sig (Elt F)) : Valuation τ sig (Elt F) := after (D1 ++ D2) (val3 V)
set_option maxRecDepth 8192 in
set_option maxHeartbeats 4000000 in
theorem val4_main_v117 (V : Valuation τ sig (Elt F)) :
    val4 V (no_index (Proc.devRef .tc main_v117)) = birth (V (Proc.devRef .tc main_arg0)) (V (Proc.devRef .tc main_arg2)) := by
  unfold val4
  simp only [D1, D2, List.cons_append, List.nil_append]
  after_results_simp
  simp only [val3_main_arg0, val3_main_arg2] <;> rfl
set_option maxRecDepth 8192 in
set_option maxHeartbeats 4000000 in
theorem val4_main_v83 (V : Valuation τ sig (Elt F)) :
    val4 V (no_index (Proc.devRef .tc main_v83)) = rowIota := by
  unfold val4
  simp only [D1, D2, List.cons_append, List.nil_append]
  after_results_simp <;> rfl
set_option maxRecDepth 8192 in
set_option maxHeartbeats 4000000 in
theorem val4_main_v85 (V : Valuation τ sig (Elt F)) :
    val4 V (no_index (Proc.devRef .tc main_v85)) = clsIota := by
  unfold val4
  simp only [D1, D2, List.cons_append, List.nil_append]
  after_results_simp <;> rfl
set_option maxRecDepth 8192 in
set_option maxHeartbeats 4000000 in
theorem val4_main_v81 (V : Valuation τ sig (Elt F)) :
    val4 V (no_index (Proc.devRef .tc main_v81)) = famLoss tbl0 (V (Proc.devRef .tc main_arg0)) (V (Proc.devRef .tc main_arg1)) := by
  unfold val4
  simp only [D1, D2, List.cons_append, List.nil_append]
  after_results_simp
  simp only [val3_main_v81] <;> rfl
set_option maxRecDepth 8192 in
set_option maxHeartbeats 4000000 in
theorem val4_main_c_0 (V : Valuation τ sig (Elt F)) :
    val4 V (no_index (Proc.devRef .tc main_c_0)) = tbl1 := by
  unfold val4
  simp only [D1, D2, List.cons_append, List.nil_append]
  after_results_simp
  simp only [val3_main_c_0] <;> rfl
set_option maxRecDepth 8192 in
set_option maxHeartbeats 4000000 in
theorem val4_main_arg0 (V : Valuation τ sig (Elt F)) :
    val4 V (no_index (Proc.devRef .tc main_arg0)) = (V (Proc.devRef .tc main_arg0)) := by
  unfold val4
  simp only [D1, D2, List.cons_append, List.nil_append]
  after_results_simp
  simp only [val3_main_arg0] <;> rfl
set_option maxRecDepth 8192 in
set_option maxHeartbeats 4000000 in
theorem val4_main_arg2 (V : Valuation τ sig (Elt F)) :
    val4 V (no_index (Proc.devRef .tc main_arg2)) = (V (Proc.devRef .tc main_arg2)) := by
  unfold val4
  simp only [D1, D2, List.cons_append, List.nil_append]
  after_results_simp
  simp only [val3_main_arg2] <;> rfl
set_option maxRecDepth 8192 in
set_option maxHeartbeats 4000000 in
theorem val4_main_arg1 (V : Valuation τ sig (Elt F)) :
    val4 V (no_index (Proc.devRef .tc main_arg1)) = (V (Proc.devRef .tc main_arg1)) := by
  unfold val4
  simp only [D1, D2, List.cons_append, List.nil_append]
  after_results_simp
  simp only [val3_main_arg1] <;> rfl

/-- The buffers after the second family's death gather. -/
def val5 (V : Valuation τ sig (Elt F)) : Valuation τ sig (Elt F) := after (E1 ++ E2) (val4 V)
set_option maxRecDepth 8192 in
set_option maxHeartbeats 4000000 in
theorem val5_main_v149 (V : Valuation τ sig (Elt F)) :
    val5 V (no_index (Proc.devRef .tc main_v149)) = death (V (Proc.devRef .tc main_arg0)) (V (Proc.devRef .tc main_arg2)) := by
  unfold val5
  simp only [E1, E2, List.cons_append, List.nil_append]
  after_results_simp
  simp only [val4_main_v83, val4_main_v85, val4_main_arg0, val4_main_arg2] <;> rfl
set_option maxRecDepth 8192 in
set_option maxHeartbeats 4000000 in
theorem val5_main_v117 (V : Valuation τ sig (Elt F)) :
    val5 V (no_index (Proc.devRef .tc main_v117)) = birth (V (Proc.devRef .tc main_arg0)) (V (Proc.devRef .tc main_arg2)) := by
  unfold val5
  simp only [E1, E2, List.cons_append, List.nil_append]
  after_results_simp
  simp only [val4_main_v117] <;> rfl
set_option maxRecDepth 8192 in
set_option maxHeartbeats 4000000 in
theorem val5_main_v81 (V : Valuation τ sig (Elt F)) :
    val5 V (no_index (Proc.devRef .tc main_v81)) = famLoss tbl0 (V (Proc.devRef .tc main_arg0)) (V (Proc.devRef .tc main_arg1)) := by
  unfold val5
  simp only [E1, E2, List.cons_append, List.nil_append]
  after_results_simp
  simp only [val4_main_v81] <;> rfl
set_option maxRecDepth 8192 in
set_option maxHeartbeats 4000000 in
theorem val5_main_c_0 (V : Valuation τ sig (Elt F)) :
    val5 V (no_index (Proc.devRef .tc main_c_0)) = tbl1 := by
  unfold val5
  simp only [E1, E2, List.cons_append, List.nil_append]
  after_results_simp
  simp only [val4_main_c_0] <;> rfl
set_option maxRecDepth 8192 in
set_option maxHeartbeats 4000000 in
theorem val5_main_arg0 (V : Valuation τ sig (Elt F)) :
    val5 V (no_index (Proc.devRef .tc main_arg0)) = (V (Proc.devRef .tc main_arg0)) := by
  unfold val5
  simp only [E1, E2, List.cons_append, List.nil_append]
  after_results_simp
  simp only [val4_main_arg0] <;> rfl
set_option maxRecDepth 8192 in
set_option maxHeartbeats 4000000 in
theorem val5_main_arg1 (V : Valuation τ sig (Elt F)) :
    val5 V (no_index (Proc.devRef .tc main_arg1)) = (V (Proc.devRef .tc main_arg1)) := by
  unfold val5
  simp only [E1, E2, List.cons_append, List.nil_append]
  after_results_simp
  simp only [val4_main_arg1] <;> rfl
set_option maxRecDepth 8192 in
set_option maxHeartbeats 4000000 in
theorem val5_main_arg2 (V : Valuation τ sig (Elt F)) :
    val5 V (no_index (Proc.devRef .tc main_arg2)) = (V (Proc.devRef .tc main_arg2)) := by
  unfold val5
  simp only [E1, E2, List.cons_append, List.nil_append]
  after_results_simp
  simp only [val4_main_arg2] <;> rfl

/-- The buffers after the second family's loss and the final sum. -/
def val6 (V : Valuation τ sig (Elt F)) : Valuation τ sig (Elt F) := after G (val5 V)
set_option maxRecDepth 8192 in
set_option maxHeartbeats 4000000 in
theorem val6_main_v164 (V : Valuation τ sig (Elt F)) :
    val6 V (no_index (Proc.devRef .tc main_v164)) = result (V (Proc.devRef .tc main_arg0)) (V (Proc.devRef .tc main_arg1)) (V (Proc.devRef .tc main_arg2)) := by
  unfold val6
  simp only [G, List.cons_append, List.nil_append]
  after_results_simp
  simp only [val5_main_v117, val5_main_v149, val5_main_c_0, val5_main_v81] <;> rfl
set_option maxRecDepth 8192 in
set_option maxHeartbeats 4000000 in
theorem val6_main_arg0 (V : Valuation τ sig (Elt F)) :
    val6 V (no_index (Proc.devRef .tc main_arg0)) = (V (Proc.devRef .tc main_arg0)) := by
  unfold val6
  simp only [G, List.cons_append, List.nil_append]
  after_results_simp
  simp only [val5_main_arg0] <;> rfl
set_option maxRecDepth 8192 in
set_option maxHeartbeats 4000000 in
theorem val6_main_arg1 (V : Valuation τ sig (Elt F)) :
    val6 V (no_index (Proc.devRef .tc main_arg1)) = (V (Proc.devRef .tc main_arg1)) := by
  unfold val6
  simp only [G, List.cons_append, List.nil_append]
  after_results_simp
  simp only [val5_main_arg1] <;> rfl
set_option maxRecDepth 8192 in
set_option maxHeartbeats 4000000 in
theorem val6_main_arg2 (V : Valuation τ sig (Elt F)) :
    val6 V (no_index (Proc.devRef .tc main_arg2)) = (V (Proc.devRef .tc main_arg2)) := by
  unfold val6
  simp only [G, List.cons_append, List.nil_append]
  after_results_simp
  simp only [val5_main_arg2] <;> rfl

theorem after_ops (V : Valuation τ sig (Elt F)) : after ops V = val6 V := by
  simp only [ops, val6, val5, val4, val3, val2, val1, after_app]

/-! ## The run -/

/-- On every device, for any float values, from any memory with zero counters: every weakly fair execution of @main
    terminates with the result buffer at `result` of the three arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v164) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v164).trans (by simp only [after_ops]; exact val6_main_v164 (launchContents m c)),
      (h c main_arg0).trans (by simp only [after_ops]; exact val6_main_arg0 (launchContents m c)),
      (h c main_arg1).trans (by simp only [after_ops]; exact val6_main_arg1 (launchContents m c)),
      (h c main_arg2).trans (by simp only [after_ops]; exact val6_main_arg2 (launchContents m c))⟩)
    (run_seq scopedRefs_eq scopedSems_eq defs main (fun _ => ops) main_eq (fun _ => ops_sub) m ρ (fun _ => ops_fresh))

end Cert.ReferenceIdeal.RefRun

end
-- ==== Proof.RefValue.lean ====
/-
  The reference's value is the interval loss.

  At the extended reals every float operation is exact, so the value the reference's run ends with unfolds, element
  by element, to the loss of `Spec`: a family's sum from zero over every (batch, class, interval) of
  `1 - (b - d)²` where the interval number is below the class's expected count and `(b - d)²` elsewhere, `b` and `d` the
  image gathered at the interval's birth and death pixels; the two families added.  The mask is read at an index:
  interval `n` of class `c` is marked when `n`, as a signed word, is below the smaller of the class's count and
  8192, and the counts being at most 2 that is `n < th c`.  The gathers are never opened.
-/
import proofs.«118714_j12034498363966_1_alg».proof.Proof.RefDefs
import proofs.«118714_j12034498363966_1_alg».proof.Proof.Spec
import Idealize.ShloMosaic.PureOps.Ideal.Laws
import Idealize.ShloMosaic.Lib.ValueIdx
import Idealize.ShloMosaic.Lib.Pipeline.Value
import Idealize.ShloMosaic.Lib.Affine

noncomputable section

namespace Cert.ReferenceIdeal.RefValue

open Cert.ReferenceIdeal Cert.ReferenceIdeal.Gen Cert.ReferenceIdeal.RefRun Cert.BDLoss
open Idealize.ShloMosaic Idealize.ShloMosaic.ValueIdx

/-- The pattern `0x3F800000` is the number one. -/
theorem one_f32 : Ideal.ofBits .f32 0x3F800000#32 = (1 : EReal) := by
  simp [Ideal.ofBits, Ideal.ieee, -EReal.coe_mul]; norm_num

/-- A number below 8192, as a 32-bit word read signed, is itself. -/
theorem toInt_ofNat_lt (n : ℕ) (h : n < 8192) : (BitVec.ofNat 32 n).toInt = (n : ℤ) := by
  rw [BitVec.toInt_eq_toNat_cond, BitVec.toNat_ofNat, Nat.mod_eq_of_lt (by omega)]
  split
  · rfl
  · omega

/-- The first family's count of class `b`, capped at 8192, read signed: `th0 b`. -/
theorem cap_tbl0 (b : Fin 4) : (IntOp.minsi (tbl0 (ix1 b)) 8192#32).toInt = (th0 b.val : ℤ) := by
  fin_cases b <;> first | rfl | decide

/-- The second family's count of class `b`, capped at 8192, read signed: `th1 b`. -/
theorem cap_tbl1 (b : Fin 4) : (IntOp.minsi (tbl1 (ix1 b)) 8192#32).toInt = (th1 b.val : ℤ) := by
  fin_cases b <;> first | rfl | decide

/-- The mask at an index: interval `c` of class `b` is marked when `c` is below the capped count, as signed words. -/
theorem goodMask_apply (tbl : IVec S4 32) (a : Fin 1) (b : Fin 4) (c : Fin 8192) :
    goodMask tbl (ix3 a b c) = IntOp.cmpi .slt (BitVec.ofNat 32 c.val) (IntOp.minsi (tbl (ix1 b)) 8192#32) := by
  have hR : broadcastInDim S1x4x8192 ![0, 1, 2] bcast_S1x4x1_S1x4x8192_0_1_2
      (broadcastInDim S1x4x1 ![1] bcast_S4_S1x4x1_1
        (minsi tbl (broadcastInDim S4 ![] bcast_S_S4 (constantI S_ 32 8192#32)))) (ix3 a b c)
      = IntOp.minsi (tbl (ix1 b)) 8192#32 := by
    rw [broadcastInDim_apply _ bcast_S1x4x1_S1x4x8192_0_1_2 _ (ix3 a b c) (ix3 (0 : Fin 1) b (0 : Fin 1))
          (fun d => match d with | ⟨0, _⟩ => rfl | ⟨1, _⟩ => rfl | ⟨2, _⟩ => rfl),
        broadcastInDim_apply _ bcast_S4_S1x4x1_1 _ (ix3 (0 : Fin 1) b (0 : Fin 1)) (ix1 b)
          (fun d => match d with | ⟨0, _⟩ => rfl)]
    rfl
  unfold goodMask
  show IntOp.cmpi .slt _ _ = _
  rw [hR]
  rfl

/-- One contribution: the reference's choice at `(a, b, c)` is `contrib` of "interval `c` is below the count of class `b`",
    for a table whose capped counts read signed are `th`. -/
theorem terms_apply (tbl : IVec S4 32) (th : ℕ → ℕ)
    (hcap : ∀ b : Fin 4, (IntOp.minsi (tbl (ix1 b)) 8192#32).toInt = (th b.val : ℤ))
    (a0 : FVec Ideal S16x4x512x512 .f32) (idx : IVec S16x4x8192x2x2 32) (i : T3.Idx) :
    terms (F := Ideal) tbl a0 idx i
      = contrib (decide ((i 2).val < th (i 1).val)) (birth a0 idx i) (death a0 idx i) := by
  unfold terms sqDiff
  generalize birth a0 idx = B
  generalize death a0 idx = D
  obtain ⟨a, b, c, rfl⟩ : ∃ a b c, i = ix3 a b c := ⟨_, _, _, eq_ix3 i⟩
  show Scalar.select (broadcastInDim S16x4x8192 ![0, 1, 2] bcast_S1x4x8192_S16x4x8192_0_1_2 (goodMask tbl) (ix3 a b c))
      (Ideal.ofBits .f32 0x3F800000#32 - (B (ix3 a b c) - D (ix3 a b c)) * (B (ix3 a b c) - D (ix3 a b c)))
      ((B (ix3 a b c) - D (ix3 a b c)) * (B (ix3 a b c) - D (ix3 a b c)))
    = contrib (decide (c.val < th b.val)) (B (ix3 a b c)) (D (ix3 a b c))
  rw [broadcastInDim_apply _ bcast_S1x4x8192_S16x4x8192_0_1_2 _ (ix3 a b c) (ix3 (0 : Fin 1) b c)
        (fun d => match d with | ⟨0, _⟩ => rfl | ⟨1, _⟩ => rfl | ⟨2, _⟩ => rfl),
      goodMask_apply, one_f32]
  have hm : IntOp.cmpi .slt (BitVec.ofNat 32 c.val) (IntOp.minsi (tbl (ix1 b)) 8192#32) = 1#1 ↔ c.val < th b.val := by
    rw [IntOp.cmpi_slt, toInt_ofNat_lt _ c.isLt, hcap b]; omega
  unfold contrib Scalar.select
  by_cases h : c.val < th b.val
  · have h1 : IntOp.cmpi .slt (BitVec.ofNat 32 c.val) (IntOp.minsi (tbl (ix1 b)) 8192#32) = 1 := hm.mpr h
    rw [if_pos h1, decide_eq_true h, if_pos rfl]
  · have h0 : ¬ IntOp.cmpi .slt (BitVec.ofNat 32 c.val) (IntOp.minsi (tbl (ix1 b)) 8192#32) = 1 := fun e => h (hm.mp e)
    rw [if_neg h0, decide_eq_false h, if_neg Bool.false_ne_true]

/-- One family's sum is the loss of `Spec` over the gathered values. -/
theorem famLoss_eq (tbl : IVec S4 32) (th : ℕ → ℕ)
    (hcap : ∀ b : Fin 4, (IntOp.minsi (tbl (ix1 b)) 8192#32).toInt = (th b.val : ℤ))
    (a0 : FVec Ideal S16x4x512x512 .f32) (idx : IVec S16x4x8192x2x2 32) (j : S_.Idx) :
    famLoss (F := Ideal) tbl a0 idx j = loss th (birth a0 idx) (death a0 idx) := by
  unfold famLoss Host.reduceAdd loss
  rw [Ideal.hostReduceAdd_def, Ideal.hostReduceAdd_total (t := S_) _ (fun b => b.elim0)]
  show Ideal.ofBits .f32 0x00000000#32 + _ = _
  rw [Ideal.ofBits_zero_f32, zero_add]
  exact Finset.sum_congr rfl fun i _ => terms_apply tbl th hcap a0 idx i

/-- The value the reference's run ends with is the total loss over the two families' gathered values. -/
theorem result_eq (a0 : FVec Ideal S16x4x512x512 .f32) (a1 a2 : IVec S16x4x8192x2x2 32) :
    result (F := Ideal) a0 a1 a2
      = fun _ => total (birth a0 a1) (death a0 a1) (birth a0 a2) (death a0 a2) := by
  funext j
  show famLoss (F := Ideal) tbl0 a0 a1 j + famLoss (F := Ideal) tbl1 a0 a2 j
    = loss th0 (birth a0 a1) (death a0 a1) + loss th1 (birth a0 a2) (death a0 a2)
  rw [famLoss_eq tbl0 th0 cap_tbl0, famLoss_eq tbl1 th1 cap_tbl1]

end Cert.ReferenceIdeal.RefValue

end
-- ==== Proof.Bridge.lean ====
/-
  The two programs gather the same birth and death values.

  Both programs build each interval's gather index in the same way — the batch number, the class number and the
  two pixel coordinates read from the interval table, each increased by its axis's extent were it negative, set
  side by side — and read the image there.  The two spellings of that chain are the same function of the image
  and the table.
-/
import proofs.«118714_j12034498363966_1_alg».proof.Proof.KHostDefs
import proofs.«118714_j12034498363966_1_alg».proof.Proof.RefDefs

noncomputable section

namespace Cert.Bridge

open Idealize.ShloMosaic

/-- The birth values: the kernel program's chain is the reference's. -/
theorem birth_eq (a0 : Cert.KernelIdeal.S16x4x512x512.Idx → EReal) (a : Cert.KernelIdeal.S16x4x8192x2x2.Idx → BitVec 32) :
    Cert.KernelIdeal.KValue.birth a0 a = Cert.ReferenceIdeal.RefRun.birth (F := Ideal) a0 a := by
  unfold Cert.KernelIdeal.KValue.birth Cert.KernelIdeal.KValue.birthIdx Cert.KernelIdeal.KValue.cat4
    Cert.ReferenceIdeal.RefRun.birth Cert.ReferenceIdeal.RefRun.batchIdx Cert.ReferenceIdeal.RefRun.classIdx
    Cert.ReferenceIdeal.RefRun.pixIdx Cert.ReferenceIdeal.RefRun.rowIota Cert.ReferenceIdeal.RefRun.clsIota
  rfl

/-- The death values likewise. -/
theorem death_eq (a0 : Cert.KernelIdeal.S16x4x512x512.Idx → EReal) (a : Cert.KernelIdeal.S16x4x8192x2x2.Idx → BitVec 32) :
    Cert.KernelIdeal.KValue.death a0 a = Cert.ReferenceIdeal.RefRun.death (F := Ideal) a0 a := by
  unfold Cert.KernelIdeal.KValue.death Cert.KernelIdeal.KValue.deathIdx Cert.KernelIdeal.KValue.cat4
    Cert.ReferenceIdeal.RefRun.death Cert.ReferenceIdeal.RefRun.batchIdx Cert.ReferenceIdeal.RefRun.classIdx
    Cert.ReferenceIdeal.RefRun.pixIdx Cert.ReferenceIdeal.RefRun.rowIota Cert.ReferenceIdeal.RefRun.clsIota
  rfl

end Cert.Bridge

end
-- ==== Proof.PreFinite.lean ====
/-
  From the precondition to real image values.

  The precondition says that every entry of the image is smaller in absolute value than `+∞`.  An extended real
  whose absolute value is below `+∞` is neither infinity, so it is a real number.
-/
import proofs.«118714_j12034498363966_1_alg».proof.Pre_finite_inputs
import proofs.«118714_j12034498363966_1_alg».proof.Proof.Gen.Pre_finite_inputs
import Idealize.ShloMosaic.Lib.ReduceAll
import Idealize.ShloMosaic.PureOps.Ideal
import Idealize.ShloMosaic.Lib.ValueIdx

noncomputable section

namespace Cert.PreFinite

open Idealize.ShloMosaic

/-- The scalar shape has one index. -/
instance : Subsingleton Cert.Pre_finite_inputs.S_.Idx := ⟨fun _ _ => funext fun d => d.elim0⟩

/-- The f32 pattern `0x7F800000` is `+∞`. -/
theorem ofBits_inf_f32 : Ideal.ofBits .f32 0x7F800000#32 = ⊤ := by
  simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Under the precondition every entry of the image is a real number. -/
theorem finite_of_pre [Cert.Pre_finite_inputs.Facts] (a0 : FVec Ideal Cert.Pre_finite_inputs.S16x4x512x512 .f32)
    (a1 a2 : IVec Cert.Pre_finite_inputs.S16x4x8192x2x2 32)
    (h : Cert.Pre_finite_inputs.fn (F := Ideal) a0 a1 a2 = fun _ => 1#1) :
    ∀ j, ∃ r : ℝ, a0 j = (r : EReal) := by
  intro j
  have h0 := congrFun h ValueIdx.ix0
  dsimp only [Cert.Pre_finite_inputs.fn] at h0
  have hj := Host.reduce_andi_all _ _ _ _ _ h0 j
  have hc : Ideal.cmp .olt (max (a0 j) (-(a0 j))) (Ideal.ofBits .f32 0x7F800000#32) = 1#1 := hj
  rw [ofBits_inf_f32] at hc
  have hlt : max (a0 j) (-(a0 j)) < ⊤ := by
    by_contra hn
    simp [Ideal.cmp, hn] at hc
  exact real_of_abs_lt_top _ hlt

end Cert.PreFinite

end
-- ==== Proof.lean ====
/-
  The certificate of the birth/death interval loss.

  Both programs gather, for each of two families of intervals, a birth and a death value of every interval from the
  image, and return the sum over all intervals of  1 − (birth − death)²  for the expected intervals of each class and
  (birth − death)²  for the others.  The reference does this with one select and one sum per family.  The kernel program
  gathers the same values on the host, flattens them to 64 rows of 8192, builds the 0/1 masks g of the expected
  intervals, and a grid of four points accumulates, sixteen rows at a time, the sums of  d + g·(1 − 2·d)  with
  d = (birth − death)².

  On the extended reals the two agree when d is a real number: for g = 1,  d + (1 − 2·d) = 1 − d,  and for g = 0,
  d + 0 = d;  the order and grouping of the sums does not matter.  Every gathered value is an entry of the image, and the
  precondition says every entry of the image is finite, so d is real.

  The three programs each terminate without a fault and leave their arguments untouched: the reference because it is a
  straight line of host operations, the two kernel programs by running the grid region under an invariant that carries
  the accumulator from point to point.  The idealization rewrote nothing, so there is nothing to preserve.
-/
import proofs.«118714_j12034498363966_1_alg».proof.Defs
import proofs.«118714_j12034498363966_1_alg».proof.Proof.Gen.Kernel
import proofs.«118714_j12034498363966_1_alg».proof.Proof.Gen.KernelIdeal
import proofs.«118714_j12034498363966_1_alg».proof.Proof.Gen.ReferenceIdeal
import proofs.«118714_j12034498363966_1_alg».proof.Proof.Gen.Pre_finite_inputs
import proofs.«118714_j12034498363966_1_alg».proof.Proof.KBRun
import proofs.«118714_j12034498363966_1_alg».proof.Proof.KIValue
import proofs.«118714_j12034498363966_1_alg».proof.Proof.RefRun
import proofs.«118714_j12034498363966_1_alg».proof.Proof.RefValue
import proofs.«118714_j12034498363966_1_alg».proof.Proof.Bridge
import proofs.«118714_j12034498363966_1_alg».proof.Proof.PreFinite
import Idealize.ShloMosaic.Adequacy
import Idealize.ShloMosaic.Init

noncomputable section

namespace Cert.Proof

open Idealize.ShloMosaic Idealize.SL.Sem

/-- The word-level kernel program runs and leaves its arguments alone. -/
theorem frame_kernel : @Cert.frame_Kernel Cert.Kernel.Gen.facts Cert.Pre_finite_inputs.Gen.facts :=
  fun m ρ _ => Cert.Kernel.Hand.frame m ρ

/-- So does the idealized kernel program. -/
theorem frame_kernelIdeal : @Cert.frame_KernelIdeal Cert.KernelIdeal.Gen.facts Cert.Pre_finite_inputs.Gen.facts :=
  fun m ρ _ => Cert.KernelIdeal.Hand.frame m ρ

/-- And the reference: its run, with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RefRun.run (F := Ideal) m ρ)

/-- From memories that agree on the arguments, with a finite image, both programs end at the interval loss of the same
    gathered values. -/
theorem algebraic : @Cert.algebraic_KernelIdeal_ReferenceIdeal Cert.KernelIdeal.Gen.facts Cert.ReferenceIdeal.Gen.facts Cert.Pre_finite_inputs.Gen.facts := by
  intro m ρ m' ρ' hpre hagree
  have hfin : ∀ (c : Dev Cert.KernelIdeal.nD) j, ∃ r : ℝ,
      (m ((c.tc : Thread Cert.KernelIdeal.nD Cert.KernelIdeal.τ).loc Cert.KernelIdeal.main_arg0) : Cert.KernelIdeal.S16x4x512x512.Idx → EReal) j = (r : EReal) :=
    fun c => Cert.PreFinite.finite_of_pre _ _ _ (hpre c)
  refine ⟨fun c => fun _ => Cert.KernelIdeal.Hand.lossOf m c, Cert.KernelIdeal.Hand.run_value m ρ hfin, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.result_eq, (hagree c).1, (hagree c).2.1, (hagree c).2.2,
    ← Cert.Bridge.birth_eq, ← Cert.Bridge.death_eq, ← Cert.Bridge.birth_eq, ← Cert.Bridge.death_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
